-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v19) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x2048 : Shape := ⟨3, ![2, 1024, 2048]⟩
abbrev S2x16x3072x128 : Shape := ⟨4, ![2, 16, 3072, 128]⟩
abbrev S2048x2048 : Shape := ⟨2, ![2048, 2048]⟩
abbrev S2048 : Shape := ⟨1, ![2048]⟩
abbrev S_ : Shape := ⟨0, ![]⟩

class Facts : Prop where
  bcast_S_S2x1024x2048 : S_.BroadcastsInDim S2x1024x2048 (![] : Fin 0 → Fin S2x1024x2048.rank)
  reducesTo_S2x1024x2048_S_d0_1_2 : S2x1024x2048.ReducesTo [0, 1, 2] S_
  h_S_ : 0 < S_.numel
  bcast_S_S2x16x3072x128 : S_.BroadcastsInDim S2x16x3072x128 (![] : Fin 0 → Fin S2x16x3072x128.rank)
  reducesTo_S2x16x3072x128_S_d0_1_2_3 : S2x16x3072x128.ReducesTo [0, 1, 2, 3] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S2048x2048 .f32) (main_arg8 : FVec F S2048 .f32) (main_arg9 : FVec F S2048x2048 .f32) (main_arg10 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2x1024x2048 .f32) (main_arg1 : FVec F S2x16x3072x128 .f32) (main_arg2 : FVec F S2x16x3072x128 .f32) (main_arg3 : FVec F S2048x2048 .f32) (main_arg4 : FVec F S2048 .f32) (main_arg5 : FVec F S2048x2048 .f32) (main_arg6 : FVec F S2048 .f32) (main_arg7 : FVec F S2048x2048 .f32) (main_arg8 : FVec F S2048 .f32) (main_arg9 : FVec F S2048x2048 .f32) (main_arg10 : FVec F S2048 .f32) : IVec S_ 1 :=
  let main_v0 : FVec F S2x1024x2048 .f32 := Host.absf main_arg0
  let main_cst : FVec F S_ .f32 := constant S_ .f32 0x7F800000#32
  let main_v1 : FVec F S2x1024x2048 .f32 := broadcastInDim S2x1024x2048 ![] bcast_S_S2x1024x2048 main_cst
  let main_v2 : IVec S2x1024x2048 1 := cmpf .olt main_v0 main_v1
  let main_c : IVec S_ 1 := constantI S_ 1 1#1
  let main_v3 : IVec S_ 1 := (fun x v => Host.reduce IntOp.andi x v reducesTo_S2x1024x2048_S_d0_1_2 h_S_) main_v2 main_c
  let main_v4 : FVec F S2x16x3072x128 .f32 := Host.absf main_arg1
  let main_cst_0 : FVec F S_ .f32 := constant S_ .f32 0x7F800000#32
  let main_v5 : FVec F S2x16x3072x128 .f32 := broadcastInDim S2x16x3072x128 ![] bcast_S_S2x16x3072x128 main_cst_0
  let main_v6 : IVec S2x16x3072x128 1 := cmpf .olt main_v4 main_v5
  let main_c_1 : IVec S_ 1 := constantI S_ 1 1#1
  let main_v7 : IVec S_ 1 := (fun x v => Host.reduce IntOp.andi x v reducesTo_S2x16x3072x128_S_d0_1_2_3 h_S_) main_v6 main_c_1
  let main_v8 : IVec S_ 1 := andi main_v3 main_v7
  let main_v9 : FVec F S2x16x3072x128 .f32 := Host.absf main_arg2
  let main_cst_2 : FVec F S_ .f32 := constant S_ .f32 0x7F800000#32
  let main_v10 : FVec F S2x16x3072x128 .f32 := broadcastInDim S2x16x3072x128 ![] bcast_S_S2x16x3072x128 main_cst_2
  let main_v11 : IVec S2x16x3072x128 1 := cmpf .olt main_v9 main_v10
  let main_c_3 : IVec S_ 1 := constantI S_ 1 1#1
  let main_v12 : IVec S_ 1 := (fun x v => Host.reduce IntOp.andi x v reducesTo_S2x16x3072x128_S_d0_1_2_3 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_v13 main_v16
-- ==== Kernel.lean ====
abbrev S2x1024x2048 : Shape := ⟨3, ![2, 1024, 2048]⟩
abbrev S2x16x3072x128 : Shape := ⟨4, ![2, 16, 3072, 128]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S2x1024x16x128 : Shape := ⟨4, ![2, 1024, 16, 128]⟩
abbrev S2x16x1024x128 : Shape := ⟨4, ![2, 16, 1024, 128]⟩
abbrev S2x16x4096x128 : Shape := ⟨4, ![2, 16, 4096, 128]⟩
abbrev S1024x128 : Shape := ⟨2, ![1024, 128]⟩
abbrev S1x1x2048x128 : Shape := ⟨4, ![1, 1, 2048, 128]⟩
abbrev S1024x1 : Shape := ⟨2, ![1024, 1]⟩
abbrev S2048x128 : Shape := ⟨2, ![2048, 128]⟩
abbrev S1024x2048 : Shape := ⟨2, ![1024, 2048]⟩
abbrev S1024 : Shape := ⟨1, ![1024]⟩

abbrev nBuf : Space → Nat
  | .hbm => 34
  | .vmem => 35
  | .smem => 0
  | _ => 0

abbrev bufTy : (tb : Table) → Fin (tcTables nBuf tb) → BufTy
  | .hbm, ⟨0, _⟩ => ⟨S2x1024x2048, .f32⟩
  | .hbm, ⟨1, _⟩ => ⟨S2x16x3072x128, .f32⟩
  | .hbm, ⟨2, _⟩ => ⟨S2x16x3072x128, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2048x2048, .f32⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S1x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S1x2048, .f32⟩
  | .hbm, ⟨22, _⟩ => ⟨S2048x2048, .f32⟩
  | .hbm, ⟨23, _⟩ => ⟨S2x1024x16x128, .f32⟩
  | .hbm, ⟨24, _⟩ => ⟨S2x16x1024x128, .f32⟩
  | .hbm, ⟨25, _⟩ => ⟨S2x1024x16x128, .f32⟩
  | .hbm, ⟨26, _⟩ => ⟨S2x16x1024x128, .f32⟩
  | .hbm, ⟨27, _⟩ => ⟨S2x16x4096x128, .f32⟩
  | .hbm, ⟨28, _⟩ => ⟨S2x16x4096x128, .f32⟩
  | .hbm, ⟨29, _⟩ => ⟨S2048x2048, .f32⟩
  | .hbm, ⟨30, _⟩ => ⟨S2048x2048, .bf16⟩
  | .hbm, ⟨31, _⟩ => ⟨S1x2048, .f32⟩
  | .hbm, ⟨32, _⟩ => ⟨S2048x2048, .f32⟩
  | .hbm, ⟨33, _⟩ => ⟨S2x1024x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S2048x2048, .bf16⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S1024x128, .f32⟩
  | .local _ .vmem, ⟨19, _⟩ => ⟨S1024x128, .f32⟩
  | .local _ .vmem, ⟨20, _⟩ => ⟨S1x1x2048x128, .f32⟩
  | .local _ .vmem, ⟨21, _⟩ => ⟨S1x1x2048x128, .f32⟩
  | .local _ .vmem, ⟨22, _⟩ => ⟨S1x1x2048x128, .f32⟩
  | .local _ .vmem, ⟨23, _⟩ => ⟨S1x1x2048x128, .f32⟩
  | .local _ .vmem, ⟨24, _⟩ => ⟨S1024x128, .f32⟩
  | .local _ .vmem, ⟨25, _⟩ => ⟨S1024x128, .f32⟩
  | .local _ .vmem, ⟨26, _⟩ => ⟨S1024x1, .f32⟩
  | .local _ .vmem, ⟨27, _⟩ => ⟨S1024x1, .f32⟩
  | .local _ .vmem, ⟨28, _⟩ => ⟨S1024x128, .f32⟩
  | .local _ .vmem, ⟨29, _⟩ => ⟨S512x2048, .bf16⟩
  | .local _ .vmem, ⟨30, _⟩ => ⟨S512x2048, .bf16⟩
  | .local _ .vmem, ⟨31, _⟩ => ⟨S2048x2048, .bf16⟩
  | .local _ .vmem, ⟨32, _⟩ => ⟨S1x2048, .f32⟩
  | .local _ .vmem, ⟨33, _⟩ => ⟨S512x2048, .f32⟩
  | .local _ .vmem, ⟨34, _⟩ => ⟨S512x2048, .f32⟩
  | _, _ => ⟨S2x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc3_scratch1 : Ref sig .tc := ⟨.vmem, 27, rfl⟩
abbrev cc3_scratch2 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![2, 16, 2], ![false, false, false]⟩

def k3_cond2 (i : grid3.Coords) : BitVec 1 :=
  let arg2 : BitVec 32 := BitVec.ofNat 32 (i 2).val
  let c1_i32 : BitVec 32 := 1#32
  let v44 : BitVec 1 := Scalar.cmpi .eq arg2 c1_i32
  let v45 : BitVec 32 := Scalar.extui v44
  let c0_i32_26 : BitVec 32 := 0#32
  let v46 : BitVec 1 := Scalar.cmpi .ne v45 c0_i32_26
  v46

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_1 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_2 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S1x1x2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x1x2048x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2048x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2x1024x2048_S2048x2048 : S2x1024x2048.ShapeCasts S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S2048x2048_S2x1024x16x128 : S2048x2048.ShapeCasts S2x1024x16x128
  transposes_S2x1024x16x128_S2x16x1024x128_0_2_1_3 : S2x1024x16x128.Transposes [0, 2, 1, 3] S2x16x1024x128
  concatenates_S2x16x3072x128_S2x16x1024x128_S2x16x4096x128_d2 : Shape.Concatenates [S2x16x3072x128, S2x16x1024x128] S2x16x4096x128 2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  shapeCasts_S2048x2048_S2x1024x2048 : S2048x2048.ShapeCasts S2x1024x2048
  dot_S512x2048_S2048x2048_S512x2048_1_1_0_0_n_n_wf : DotDims.WF S512x2048 S2048x2048 S512x2048 [1] [1] [0] [0] [] []
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S2048x2048.size a
  hwx0_0 : ∀ i : grid0.Coords, EltTy.bits .bf16 = 32 ∨ (Rect.block (s := S2048x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .f32 = 32 ∨ (Rect.block (s := S2048x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S2048x2048.size a
  hwx1_0 : ∀ i : grid1.Coords, EltTy.bits .bf16 = 32 ∨ (Rect.block (s := S2048x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S2048x2048.size a
  hwx1_3 : ∀ i : grid1.Coords, EltTy.bits .f32 = 32 ∨ (Rect.block (s := S2048x2048) S512x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S2048x2048.size a
  hwx2_0 : ∀ i : grid2.Coords, EltTy.bits .bf16 = 32 ∨ (Rect.block (s := S2048x2048) S512x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x2048.size a ≤ S2048x2048.size a
  hwx2_1 : ∀ i : grid2.Coords, EltTy.bits .bf16 = 32 ∨ (Rect.block (s := S2048x2048) S2048x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S2048x2048.size a
  hwx2_3 : ∀ i : grid2.Coords, EltTy.bits .f32 = 32 ∨ (Rect.block (s := S2048x2048) S512x2048.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x128.size a ≤ S2048x2048.size a
  hwx3_0 : ∀ i : grid3.Coords, EltTy.bits .f32 = 32 ∨ (Rect.block (s := S2048x2048) S1024x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x1x2048x128.size a ≤ S2x16x4096x128.size a
  hwx3_1 : ∀ i : grid3.Coords, EltTy.bits .f32 = 32 ∨ (Rect.block (s := S2x16x4096x128) S1x1x2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x1x2048x128.size a ≤ S2x16x4096x128.size a
  hwx3_2 : ∀ i : grid3.Coords, EltTy.bits .f32 = 32 ∨ (Rect.block (s := S2x16x4096x128) S1x1x2048x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x128.size a ≤ S2048x2048.size a
  hwx3_3 : ∀ i : grid3.Coords, EltTy.bits .f32 = 32 ∨ (Rect.block (s := S2048x2048) S1024x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x2048.size a ≤ S2048x2048.size a
  hwx4_0 : ∀ i : grid4.Coords, EltTy.bits .bf16 = 32 ∨ (Rect.block (s := S2048x2048) S512x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S2048x2048.size a ≤ S2048x2048.size a
  hwx4_1 : ∀ i : grid4.Coords, EltTy.bits .bf16 = 32 ∨ (Rect.block (s := S2048x2048) S2048x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S2048x2048.size a
  hwx4_3 : ∀ i : grid4.Coords, EltTy.bits .f32 = 32 ∨ (Rect.block (s := S2048x2048) S512x2048.size (cc4_transform_3 i) (hinb4_3 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v1) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S2048x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S512x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S1024x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S1x1x2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S1x1x2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S1024x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v19) S512x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S2048x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v20) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v21) S512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2x1024x2048 : Shape := ⟨3, ![2, 1024, 2048]⟩
abbrev S2x16x3072x128 : Shape := ⟨4, ![2, 16, 3072, 128]⟩
abbrev S2048x2048 : Shape := ⟨2, ![2048, 2048]⟩
abbrev S2048 : Shape := ⟨1, ![2048]⟩
abbrev S1x1x2048 : Shape := ⟨3, ![1, 1, 2048]⟩
abbrev S2x1024x16x128 : Shape := ⟨4, ![2, 1024, 16, 128]⟩
abbrev S2x16x1024x128 : Shape := ⟨4, ![2, 16, 1024, 128]⟩
abbrev S2x16x4096x128 : Shape := ⟨4, ![2, 16, 4096, 128]⟩
abbrev S2x16x1024x4096 : Shape := ⟨4, ![2, 16, 1024, 4096]⟩
abbrev S_ : Shape := ⟨0, ![]⟩
abbrev S2x16x1024 : Shape := ⟨3, ![2, 16, 1024]⟩
abbrev S2x16x1024x1 : Shape := ⟨4, ![2, 16, 1024, 1]⟩

abbrev nBuf : Space → Nat
  | .hbm => 56
  | .vmem => 0
  | .smem => 0
  | _ => 0

abbrev bufTy : (tb : Table) → Fin (tcTables nBuf tb) → BufTy
  | .hbm, ⟨0, _⟩ => ⟨S2x1024x2048, .f32⟩
  | .hbm, ⟨1, _⟩ => ⟨S2x16x3072x128, .f32⟩
  | .hbm, ⟨2, _⟩ => ⟨S2x16x3072x128, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048, .f32⟩
  | .hbm, ⟨11, _⟩ => ⟨S2x1024x2048, .f32⟩
  | .hbm, ⟨12, _⟩ => ⟨S1x1x2048, .f32⟩
  | .hbm, ⟨13, _⟩ => ⟨S2x1024x2048, .f32⟩
  | .hbm, ⟨14, _⟩ => ⟨S2x1024x2048, .f32⟩
  | .hbm, ⟨15, _⟩ => ⟨S2x1024x16x128, .f32⟩
  | .hbm, ⟨16, _⟩ => ⟨S2x16x1024x128, .f32⟩
  | .hbm, ⟨17, _⟩ => ⟨S2x1024x2048, .f32⟩
  | .hbm, ⟨18, _⟩ => ⟨S1x1x2048, .f32⟩
  | .hbm, ⟨19, _⟩ => ⟨S2x1024x2048, .f32⟩
  | .hbm, ⟨20, _⟩ => ⟨S2x1024x2048, .f32⟩
  | .hbm, ⟨21, _⟩ => ⟨S2x1024x16x128, .f32⟩
  | .hbm, ⟨22, _⟩ => ⟨S2x16x1024x128, .f32⟩
  | .hbm, ⟨23, _⟩ => ⟨S2x1024x2048, .f32⟩
  | .hbm, ⟨24, _⟩ => ⟨S1x1x2048, .f32⟩
  | .hbm, ⟨25, _⟩ => ⟨S2x1024x2048, .f32⟩
  | .hbm, ⟨26, _⟩ => ⟨S2x1024x2048, .f32⟩
  | .hbm, ⟨27, _⟩ => ⟨S2x1024x16x128, .f32⟩
  | .hbm, ⟨28, _⟩ => ⟨S2x16x1024x128, .f32⟩
  | .hbm, ⟨29, _⟩ => ⟨S2x16x4096x128, .f32⟩
  | .hbm, ⟨30, _⟩ => ⟨S2x16x4096x128, .f32⟩
  | .hbm, ⟨31, _⟩ => ⟨S2x16x1024x4096, .f32⟩
  | .hbm, ⟨32, _⟩ => ⟨S_, .f32⟩
  | .hbm, ⟨33, _⟩ => ⟨S2x16x1024x4096, .f32⟩
  | .hbm, ⟨34, _⟩ => ⟨S2x16x1024x4096, .f32⟩
  | .hbm, ⟨35, _⟩ => ⟨S_, .f32⟩
  | .hbm, ⟨36, _⟩ => ⟨S2x16x1024, .f32⟩
  | .hbm, ⟨37, _⟩ => ⟨S_, .f32⟩
  | .hbm, ⟨38, _⟩ => ⟨S2x16x1024, .f32⟩
  | .hbm, ⟨39, _⟩ => ⟨S2x16x1024, .f32⟩
  | .hbm, ⟨40, _⟩ => ⟨S2x16x1024x1, .f32⟩
  | .hbm, ⟨41, _⟩ => ⟨S2x16x1024x4096, .f32⟩
  | .hbm, ⟨42, _⟩ => ⟨S2x16x1024x4096, .f32⟩
  | .hbm, ⟨43, _⟩ => ⟨S2x16x1024x4096, .f32⟩
  | .hbm, ⟨44, _⟩ => ⟨S_, .f32⟩
  | .hbm, ⟨45, _⟩ => ⟨S2x16x1024, .f32⟩
  | .hbm, ⟨46, _⟩ => ⟨S2x16x1024x1, .f32⟩
  | .hbm, ⟨47, _⟩ => ⟨S2x16x1024x4096, .f32⟩
  | .hbm, ⟨48, _⟩ => ⟨S2x16x1024x4096, .f32⟩
  | .hbm, ⟨49, _⟩ => ⟨S2x16x1024x128, .f32⟩
  | .hbm, ⟨50, _⟩ => ⟨S2x1024x16x128, .f32⟩
  | .hbm, ⟨51, _⟩ => ⟨S2x1024x2048, .f32⟩
  | .hbm, ⟨52, _⟩ => ⟨S2x1024x2048, .f32⟩
  | .hbm, ⟨53, _⟩ => ⟨S1x1x2048, .f32⟩
  | .hbm, ⟨54, _⟩ => ⟨S2x1024x2048, .f32⟩
  | .hbm, ⟨55, _⟩ => ⟨S2x1024x2048, .f32⟩
  | _, _ => ⟨S2x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S2x1024x2048_0_1_2 : S1x1x2048.BroadcastsInDim S2x1024x2048 (![0, 1, 2] : Fin 3 → Fin S2x1024x2048.rank)
  shapeCasts_S2x1024x2048_S2x1024x16x128 : S2x1024x2048.ShapeCasts S2x1024x16x128
  transposes_S2x1024x16x128_S2x16x1024x128_0_2_1_3 : S2x1024x16x128.Transposes [0, 2, 1, 3] S2x16x1024x128
  concatenates_S2x16x3072x128_S2x16x1024x128_S2x16x4096x128_d2 : Shape.Concatenates [S2x16x3072x128, S2x16x1024x128] S2x16x4096x128 2
  bcast_S_S2x16x1024x4096 : S_.BroadcastsInDim S2x16x1024x4096 (![] : Fin 0 → Fin S2x16x1024x4096.rank)
  reducesTo_S2x16x1024x4096_S2x16x1024_d3 : S2x16x1024x4096.ReducesTo [3] S2x16x1024
  h_S_ : 0 < S_.numel
  bcast_S_S2x16x1024 : S_.BroadcastsInDim S2x16x1024 (![] : Fin 0 → Fin S2x16x1024.rank)
  bcast_S2x16x1024_S2x16x1024x1_0_1_2 : S2x16x1024.BroadcastsInDim S2x16x1024x1 (![0, 1, 2] : Fin 3 → Fin S2x16x1024x1.rank)
  bcast_S2x16x1024x1_S2x16x1024x4096_0_1_2_3 : S2x16x1024x1.BroadcastsInDim S2x16x1024x4096 (![0, 1, 2, 3] : Fin 4 → Fin S2x16x1024x4096.rank)
  transposes_S2x16x1024x128_S2x1024x16x128_0_2_1_3 : S2x16x1024x128.Transposes [0, 2, 1, 3] S2x1024x16x128
  shapeCasts_S2x1024x16x128_S2x1024x2048 : S2x1024x16x128.ShapeCasts S2x1024x2048
  dot_S2x1024x2048_S2048x2048_S2x1024x2048_2_1_01_0_n_n_wf : DotDims.WF S2x1024x2048 S2048x2048 S2x1024x2048 [2] [1] [0, 1] [0] [] []
  dot_S2x16x1024x128_S2x16x4096x128_S2x16x1024x4096_3_3_2_2_01_01_wf : DotDims.WF S2x16x1024x128 S2x16x4096x128 S2x16x1024x4096 [3] [3] [2] [2] [0, 1] [0, 1]
  dot_S2x16x1024x4096_S2x16x4096x128_S2x16x1024x128_3_2_2_3_01_01_wf : DotDims.WF S2x16x1024x4096 S2x16x4096x128 S2x16x1024x128 [3] [2] [2] [3] [0, 1] [0, 1]

variable [Facts₀]

def dot_S2x1024x2048_S2048x2048_S2x1024x2048_2_1_01_0_n_n : DotDims S2x1024x2048 S2048x2048 S2x1024x2048 where
  lhsContracting := [2]
  rhsContracting := [1]
  lhsNonContracting := [0, 1]
  rhsNonContracting := [0]
  lhsBatch := []
  rhsBatch := []
  wf := dot_S2x1024x2048_S2048x2048_S2x1024x2048_2_1_01_0_n_n_wf
def dot_S2x16x1024x128_S2x16x4096x128_S2x16x1024x4096_3_3_2_2_01_01 : DotDims S2x16x1024x128 S2x16x4096x128 S2x16x1024x4096 where
  lhsContracting := [3]
  rhsContracting := [3]
  lhsNonContracting := [2]
  rhsNonContracting := [2]
  lhsBatch := [0, 1]
  rhsBatch := [0, 1]
  wf := dot_S2x16x1024x128_S2x16x4096x128_S2x16x1024x4096_3_3_2_2_01_01_wf
def dot_S2x16x1024x4096_S2x16x4096x128_S2x16x1024x128_3_2_2_3_01_01 : DotDims S2x16x1024x4096 S2x16x4096x128 S2x16x1024x128 where
  lhsContracting := [3]
  rhsContracting := [2]
  lhsNonContracting := [2]
  rhsNonContracting := [3]
  lhsBatch := [0, 1]
  rhsBatch := [0, 1]
  wf := dot_S2x16x1024x4096_S2x16x4096x128_S2x16x1024x128_3_2_2_3_01_01_wf

class Facts : Prop extends Facts₀ where

variable [Facts]
-- ==== Proof.Linear0.lean ====
/-
  The linear projection of call 0 (the query projection) as a pipelined region: what each grid point's body leaves in its
  output block, as a function of the three input blocks, and the body's triple at a generic point.
-/
import proofs.«157797_j54116587930174_2_alg».proof.Proof.Gen.KernelIdeal.Launch
import proofs.«157797_j54116587930174_2_alg».proof.Proof.Gen.KernelIdeal.Skeleton
import proofs.«157797_j54116587930174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear projection of call 0: one row block of `x · wᵀ + bias` per grid point

Every point loads its three input blocks whole, multiplies, adds the bias row and stores the whole output block; nothing
is kept between points. The region is stated at a parameter `V`, the buffer contents when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or kept it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or kept it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole block of each staged shape. -/
abbrev r0_x : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0
abbrev r0_b : Rect S1x2048 := Rect.unit (s := S1x2048) ![0, 0] S1x2048.size inb_S1x2048_S1x2048_0_0

/-- The output block after the body: the one store's value, a function of the three input blocks. -/
def out0_3 (x0 : Vec F S512x2048 .bf16) (x1 : Vec F S2048x2048 .bf16) (x2 : Vec F S1x2048 .f32) : Vec F S512x2048 .f32 :=
  View.canon [⟨r0_x, k0_pay1 (View.ld x0 r0_x) (View.ld x1 r0_w) (View.ld x2 r0_b)⟩]

/-- The one store covers the block. -/
theorem cover0_3 (p0 : Vec F S512x2048 .f32) (y : S512x2048.Idx) :
    ∃ pc ∈ ([⟨r0_x, p0⟩] : List (View.Piece (Elt F) S512x2048 .f32)), y ∈ pc.1.set :=
  View.cover_of_tiled [⟨r0_x, p0⟩] S512x2048.size (by rfl) y

set_option maxHeartbeats 2000000 in
/-- The body on whole staging memrefs: the inputs come back as they were, the output holds `out0_3` of them. -/
theorem sound_kernel0 (c : Dev nD) (E : Set ℕ) (i : grid0.Coords)
    (arg1 : Memref sig .tc .vmem S512x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body each input's buffer at its
    block and the output's at `out0_3` of the input blocks; the invariant keeps only what the body never touches. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Linear1.lean ====
/-
  The linear projection of call 1 (the key projection) as a pipelined region: what each grid point's body leaves in its
  output block, as a function of the three input blocks, and the body's triple at a generic point.
-/
import proofs.«157797_j54116587930174_2_alg».proof.Proof.Gen.KernelIdeal.Launch
import proofs.«157797_j54116587930174_2_alg».proof.Proof.Gen.KernelIdeal.Skeleton
import proofs.«157797_j54116587930174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear projection of call 1: one row block of `x · wᵀ + bias` per grid point

Every point loads its three input blocks whole, multiplies, adds the bias row and stores the whole output block; nothing
is kept between points. The region is stated at a parameter `V`, the buffer contents when the region is entered. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or kept it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or kept it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole block of each staged shape. -/
abbrev r1_x : Rect S512x2048 := Rect.unit (s := S512x2048) ![0, 0] S512x2048.size inb_S512x2048_S512x2048_0_0
abbrev r1_w : Rect S2048x2048 := Rect.unit (s := S2048x2048) ![0, 0] S2048x2048.size inb_S2048x2048_S2048x2048_0_0
abbrev r1_b : Rect S1x2048 := Rect.unit (s := S1x2048) ![0, 0] S1x2048.size inb_S1x2048_S1x2048_0_0

/-- The output block after the body: the one store's value, a function of the three input blocks. -/
def out1_3 (x0 : Vec F S512x2048 .bf16) (x1 : Vec F S2048x2048 .bf16) (x2 : Vec F S1x2048 .f32) : Vec F S512x2048 .f32 :=
  View.canon [⟨r1_x, k1_pay1 (View.ld x0 r1_x) (View.ld x1 r1_w) (View.ld x2 r1_b)⟩]

/-- The one store covers the block. -/
theorem cover1_3 (p0 : Vec F S512x2048 .f32) (y : S512x2048.Idx) :
    ∃ pc ∈ ([⟨r1_x, p0⟩] : List (View.Piece (Elt F) S512x2048 .f32)), y ∈ pc.1.set :=
  View.cover_of_tiled [⟨r1_x, p0⟩] S512x2048.size (by rfl) y

set_option maxHeartbeats 2000000 in
/-- The body on whole staging memrefs: the inputs come back as they were, the output holds `out1_3` of them. -/
theorem sound_kernel1 (c : Dev nD) (E : Set ℕ) (i : grid1.Coords)
    (arg1 : Memref sig .tc .vmem S512x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body each input's buffer at its
    block and the output's at `out1_3` of the input blocks; the invariant keeps only what the body never touches. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Linear2.lean ====
/-
  The linear projection of call 2 (the value projection) as a pipelined region: what each grid point's body leaves in its
  output block, as a function of the three input blocks, and the body's triple at a generic point.
-/
import proofs.«157797_j54116587930174_2_alg».proof.Proof.Gen.KernelIdeal.Launch
import proofs.«157797_j54116587930174_2_alg».proof.Proof.Gen.KernelIdeal.Skeleton
import proofs.«157797_j54116587930174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear projection of call 2: one row block of `x · wᵀ + bias` per grid point

Every point loads its three input blocks whole, multiplies, adds the bias row and stores the whole output block; nothing
is kept between points. The region is stated at a parameter `V`, the buffer contents when the region is entered. -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the pipeline fetched it there or kept it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the pipeline fetched it there or kept it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole block of each staged shape. -/
abbrev r2_x : Rect S512x2048 := Rect.unit (s := S512x2048) ![0, 0] S512x2048.size inb_S512x2048_S512x2048_0_0
abbrev r2_w : Rect S2048x2048 := Rect.unit (s := S2048x2048) ![0, 0] S2048x2048.size inb_S2048x2048_S2048x2048_0_0
abbrev r2_b : Rect S1x2048 := Rect.unit (s := S1x2048) ![0, 0] S1x2048.size inb_S1x2048_S1x2048_0_0

/-- The output block after the body: the one store's value, a function of the three input blocks. -/
def out2_3 (x0 : Vec F S512x2048 .bf16) (x1 : Vec F S2048x2048 .bf16) (x2 : Vec F S1x2048 .f32) : Vec F S512x2048 .f32 :=
  View.canon [⟨r2_x, k2_pay1 (View.ld x0 r2_x) (View.ld x1 r2_w) (View.ld x2 r2_b)⟩]

/-- The one store covers the block. -/
theorem cover2_3 (p0 : Vec F S512x2048 .f32) (y : S512x2048.Idx) :
    ∃ pc ∈ ([⟨r2_x, p0⟩] : List (View.Piece (Elt F) S512x2048 .f32)), y ∈ pc.1.set :=
  View.cover_of_tiled [⟨r2_x, p0⟩] S512x2048.size (by rfl) y

set_option maxHeartbeats 2000000 in
/-- The body on whole staging memrefs: the inputs come back as they were, the output holds `out2_3` of them. -/
theorem sound_kernel2 (c : Dev nD) (E : Set ℕ) (i : grid2.Coords)
    (arg1 : Memref sig .tc .vmem S512x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body each input's buffer at its
    block and the output's at `out2_3` of the input blocks; the invariant keeps only what the body never touches. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Linear4.lean ====
/-
  The linear projection of call 4 (the output projection) as a pipelined region: what each grid point's body leaves in its
  output block, as a function of the three input blocks, and the body's triple at a generic point.
-/
import proofs.«157797_j54116587930174_2_alg».proof.Proof.Gen.KernelIdeal.Launch
import proofs.«157797_j54116587930174_2_alg».proof.Proof.Gen.KernelIdeal.Skeleton
import proofs.«157797_j54116587930174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear projection of call 4: one row block of `x · wᵀ + bias` per grid point

Every point loads its three input blocks whole, multiplies, adds the bias row and stores the whole output block; nothing
is kept between points. The region is stated at a parameter `V`, the buffer contents when the region is entered. -/

section Region4
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the pipeline fetched it there or kept it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the pipeline fetched it there or kept it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the pipeline fetched it there or kept it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole block of each staged shape. -/
abbrev r4_x : Rect S512x2048 := Rect.unit (s := S512x2048) ![0, 0] S512x2048.size inb_S512x2048_S512x2048_0_0
abbrev r4_w : Rect S2048x2048 := Rect.unit (s := S2048x2048) ![0, 0] S2048x2048.size inb_S2048x2048_S2048x2048_0_0
abbrev r4_b : Rect S1x2048 := Rect.unit (s := S1x2048) ![0, 0] S1x2048.size inb_S1x2048_S1x2048_0_0

/-- The output block after the body: the one store's value, a function of the three input blocks. -/
def out4_3 (x0 : Vec F S512x2048 .bf16) (x1 : Vec F S2048x2048 .bf16) (x2 : Vec F S1x2048 .f32) : Vec F S512x2048 .f32 :=
  View.canon [⟨r4_x, k4_pay1 (View.ld x0 r4_x) (View.ld x1 r4_w) (View.ld x2 r4_b)⟩]

/-- The one store covers the block. -/
theorem cover4_3 (p0 : Vec F S512x2048 .f32) (y : S512x2048.Idx) :
    ∃ pc ∈ ([⟨r4_x, p0⟩] : List (View.Piece (Elt F) S512x2048 .f32)), y ∈ pc.1.set :=
  View.cover_of_tiled [⟨r4_x, p0⟩] S512x2048.size (by rfl) y

set_option maxHeartbeats 2000000 in
/-- The body on whole staging memrefs: the inputs come back as they were, the output holds `out4_3` of them. -/
theorem sound_kernel4 (c : Dev nD) (E : Set ℕ) (i : grid4.Coords)
    (arg1 : Memref sig .tc .vmem S512x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the arrays as the region finds them; after the body each input's buffer at its
    block and the output's at `out4_3` of the input blocks; the invariant keeps only what the body never touches. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.AttnShared.lean ====
/-
  The attention call as a pipelined region, the part its two kinds of grid point share. The grid is (batch, head, key tile)
  with two key tiles per (batch, head): at the first tile the body resets the running maximum, the running sum and the
  accumulator (three scratch buffers it keeps between points) before updating them; at the second it updates them and then
  writes the normalised accumulator into the output block. Here: the windows' blocks, the two branch conditions decided over
  the grid, where the output window is idle, and the invariant with the three scratch buffers named.
-/
import proofs.«157797_j54116587930174_2_alg».proof.Proof.Gen.KernelIdeal.Launch
import proofs.«157797_j54116587930174_2_alg».proof.Proof.Gen.KernelIdeal.Skeleton
import proofs.«157797_j54116587930174_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the pipeline fetched it there or kept it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the pipeline fetched it there or kept it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The two branch conditions, decided over the grid -/

/-- "This is the first key tile": the reset branch's condition, from the grid coordinates. -/
abbrev cond3_0 (i : grid3.Coords) : Prop := (Scalar.cmpi .ne (Scalar.extui (Scalar.cmpi .eq (BitVec.ofNat 32 (i 2).val) 0#32)) 0#32) = 1#1
/-- It holds at the even points. -/
theorem hcond3_0 : ∀ t : Fin cfg3.N, cond3_0 (grid3.coords t) ↔ t.val % 2 = 0 :=
  (by decide +kernel : ∀ t : Fin grid3.N, cond3_0 (grid3.coords t) ↔ t.val % 2 = 0)
/-- "This is the last key tile": the write-out branch's condition. -/
abbrev cond3_1 (i : grid3.Coords) : Prop := k3_cond2 i = 1#1
/-- It holds at the odd points. -/
theorem hcond3_1 : ∀ t : Fin cfg3.N, cond3_1 (grid3.coords t) ↔ t.val % 2 = 1 :=
  (by decide +kernel : ∀ t : Fin grid3.N, cond3_1 (grid3.coords t) ↔ t.val % 2 = 1)

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At a first tile the output window is idle (nothing is stored into it) and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At a last tile it is live. -/
theorem liveAt3_3_B : ∀ t : Fin cfg3.N, ¬cond3_0 (grid3.coords t) → cond3_1 (grid3.coords t) → cfg3.idle 3 (grid3.coords t) = false := by decide +kernel

/-! ## The memrefs the body is called with -/

/-- One staging buffer of the output window, through which its contents are stated. -/
abbrev VO3_3 : View sig .tc .vmem S1024x128 .f32 := (Memref.whole cc3_stg3_0 : Memref sig .tc .vmem S1024x128 .f32).view
abbrev ms3_0 (t : Fin cfg3.N) : Memref sig .tc .vmem S1024x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1x2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x2048x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
/-- The scratch buffers: the running maximum, the running sum, the accumulator. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x128 .f32 := Memref.whole cc3_scratch2
abbrev VS3_0 : View sig .tc .vmem S1024x1 .f32 := scM3_0.view
abbrev VS3_1 : View sig .tc .vmem S1024x1 .f32 := scM3_1.view
abbrev VS3_2 : View sig .tc .vmem S1024x128 .f32 := scM3_2.view

/-- Every other scoped buffer of the core, unopened. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The class invariant with the three scratch buffers taken out as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ restBut3 (F := F) c) ∗ (∃ r, prngReg c r)) := by
  unfold Pipeline.ΦA; rw [scopedRest3_split]; simp only [scM3_0, scM3_1, scM3_2, owns_whole]; try rfl

end Cert.KernelIdeal.Hand

end
-- ==== Proof.AttnRunA.lean ====
/-
  The attention body at a FIRST key tile: it resets the three scratch buffers, then updates them from the point's query,
  key and value blocks, and stores nothing into the output block. What its stores leave in each scratch buffer is found by
  running the body symbolically; the pieces are the run's own.
-/
import proofs.«157797_j54116587930174_2_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first key tile, on whole memrefs: the inputs at their blocks, the output at contents handed back
    untouched, the scratch buffers at anything; it ends with each scratch buffer at its pieces written. -/
noncomputable def kernelRun3_A (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) :
    Σ' (L3 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9) K } := by
  refine ⟨[], ?_, ?_, ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.AttnRunB.lean ====
/-
  The attention body at a LAST key tile: it finds the three scratch buffers as the first tile left them, updates them from
  the point's query, key and value blocks, and stores the accumulator divided by the running sum into the output block.
  What its stores leave in the output block and in each scratch buffer is found by running the body symbolically.
-/
import proofs.«157797_j54116587930174_2_alg».proof.Proof.AttnShared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last key tile, on whole memrefs: the inputs at their blocks, the output at anything, the scratch
    buffers at the contents the point before left; it ends with the output and each scratch buffer at its pieces written. -/
noncomputable def kernelRun3_B (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) :
    Σ' (L3 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9) K } := by
  refine ⟨?_, ?_, ?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.Attn.lean ====
/-
  The attention call's proof data and body obligation. What the output block and the three scratch buffers (running maximum,
  running sum, accumulator) hold after each grid point is one recursion over the points: an even point is a first key tile
  and starts afresh, an odd point is a last key tile and continues from what the point before left in the scratch buffers.
  The region's invariant names those contents, so that the body at an odd point finds them.
-/
import proofs.«157797_j54116587930174_2_alg».proof.Proof.AttnRunA
import proofs.«157797_j54116587930174_2_alg».proof.Proof.AttnRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first key tile nothing is stored into the output block: a placeholder nobody reads (the window is idle there and
    is not written back). -/
def out3_A_3 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) : Vec F S1024x128 .f32 :=
  VO3_3.read (Elt F) (VO3_3.writes (Elt F) VO3_3.junk (kernelRun3_A c i arg3 harg3 arg4 harg4 arg5 harg5 arg6 harg6 arg7 harg7 arg8 harg8 arg9 harg9 hc0 hc1 x0 x1 x2).1)

/-- Case A's stores into scratch buffer 0 cover it. -/
theorem scover3_A_0 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) (y : S1024x1.Idx) :
    ∃ pc ∈ (kernelRun3_A c i arg3 harg3 arg4 harg4 arg5 harg5 arg6 harg6 arg7 harg7 arg8 harg8 arg9 harg9 hc0 hc1 x0 x1 x2).2.1, y ∈ pc.1.set :=
  View.cover_of_tiledL (kernelRun3_A c i arg3 harg3 arg4 harg4 arg5 harg5 arg6 harg6 arg7 harg7 arg8 harg8 arg9 harg9 hc0 hc1 x0 x1 x2).2.1 S1024x1.size (by sl_kernel_rfl) y

/-- What case A leaves in scratch buffer 0. -/
def sout3_A_0 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) : Vec F S1024x1 .f32 :=
  VS3_0.read (Elt F) (VS3_0.writes (Elt F) VS3_0.junk (kernelRun3_A c i arg3 harg3 arg4 harg4 arg5 harg5 arg6 harg6 arg7 harg7 arg8 harg8 arg9 harg9 hc0 hc1 x0 x1 x2).2.1)

/-- Case A's stores into scratch buffer 1 cover it. -/
theorem scover3_A_1 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) (y : S1024x1.Idx) :
    ∃ pc ∈ (kernelRun3_A c i arg3 harg3 arg4 harg4 arg5 harg5 arg6 harg6 arg7 harg7 arg8 harg8 arg9 harg9 hc0 hc1 x0 x1 x2).2.2.1, y ∈ pc.1.set :=
  View.cover_of_tiledL (kernelRun3_A c i arg3 harg3 arg4 harg4 arg5 harg5 arg6 harg6 arg7 harg7 arg8 harg8 arg9 harg9 hc0 hc1 x0 x1 x2).2.2.1 S1024x1.size (by sl_kernel_rfl) y

/-- What case A leaves in scratch buffer 1. -/
def sout3_A_1 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) : Vec F S1024x1 .f32 :=
  VS3_1.read (Elt F) (VS3_1.writes (Elt F) VS3_1.junk (kernelRun3_A c i arg3 harg3 arg4 harg4 arg5 harg5 arg6 harg6 arg7 harg7 arg8 harg8 arg9 harg9 hc0 hc1 x0 x1 x2).2.2.1)

/-- Case A's stores into scratch buffer 2 cover it. -/
theorem scover3_A_2 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) (y : S1024x128.Idx) :
    ∃ pc ∈ (kernelRun3_A c i arg3 harg3 arg4 harg4 arg5 harg5 arg6 harg6 arg7 harg7 arg8 harg8 arg9 harg9 hc0 hc1 x0 x1 x2).2.2.2.1, y ∈ pc.1.set :=
  View.cover_of_tiledL (kernelRun3_A c i arg3 harg3 arg4 harg4 arg5 harg5 arg6 harg6 arg7 harg7 arg8 harg8 arg9 harg9 hc0 hc1 x0 x1 x2).2.2.2.1 S1024x128.size (by sl_kernel_rfl) y

/-- What case A leaves in scratch buffer 2. -/
def sout3_A_2 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) : Vec F S1024x128 .f32 :=
  VS3_2.read (Elt F) (VS3_2.writes (Elt F) VS3_2.junk (kernelRun3_A c i arg3 harg3 arg4 harg4 arg5 harg5 arg6 harg6 arg7 harg7 arg8 harg8 arg9 harg9 hc0 hc1 x0 x1 x2).2.2.2.1)

/-- At a last key tile the body's one store into the output block covers it. -/
theorem cover3_B_3 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) (y : S1024x128.Idx) :
    ∃ pc ∈ (kernelRun3_B c i arg3 harg3 arg4 harg4 arg5 harg5 arg6 harg6 arg7 harg7 arg8 harg8 arg9 harg9 hc0 hc1 x0 x1 x2 xs0 xs1 xs2).1, y ∈ pc.1.set :=
  View.cover_of_tiledL (kernelRun3_B c i arg3 harg3 arg4 harg4 arg5 harg5 arg6 harg6 arg7 harg7 arg8 harg8 arg9 harg9 hc0 hc1 x0 x1 x2 xs0 xs1 xs2).1 S1024x128.size (by sl_kernel_rfl) y

/-- What a last key tile leaves in the output block. -/
def out3_B_3 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) : Vec F S1024x128 .f32 :=
  VO3_3.read (Elt F) (VO3_3.writes (Elt F) VO3_3.junk (kernelRun3_B c i arg3 harg3 arg4 harg4 arg5 harg5 arg6 harg6 arg7 harg7 arg8 harg8 arg9 harg9 hc0 hc1 x0 x1 x2 xs0 xs1 xs2).1)

/-- Case B's stores into scratch buffer 0 cover it. -/
theorem scover3_B_0 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) (y : S1024x1.Idx) :
    ∃ pc ∈ (kernelRun3_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.1 S1024x1.size (by sl_kernel_rfl) y

/-- What case B leaves in scratch buffer 0. -/
def sout3_B_0 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) : Vec F S1024x1 .f32 :=
  VS3_0.read (Elt F) (VS3_0.writes (Elt F) VS3_0.junk (kernelRun3_B c i arg3 harg3 arg4 harg4 arg5 harg5 arg6 harg6 arg7 harg7 arg8 harg8 arg9 harg9 hc0 hc1 x0 x1 x2 xs0 xs1 xs2).2.1)

/-- Case B's stores into scratch buffer 1 cover it. -/
theorem scover3_B_1 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) (y : S1024x1.Idx) :
    ∃ pc ∈ (kernelRun3_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.1 S1024x1.size (by sl_kernel_rfl) y

/-- What case B leaves in scratch buffer 1. -/
def sout3_B_1 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) : Vec F S1024x1 .f32 :=
  VS3_1.read (Elt F) (VS3_1.writes (Elt F) VS3_1.junk (kernelRun3_B c i arg3 harg3 arg4 harg4 arg5 harg5 arg6 harg6 arg7 harg7 arg8 harg8 arg9 harg9 hc0 hc1 x0 x1 x2 xs0 xs1 xs2).2.2.1)

/-- Case B's stores into scratch buffer 2 cover it. -/
theorem scover3_B_2 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) (y : S1024x128.Idx) :
    ∃ pc ∈ (kernelRun3_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.2.1 S1024x128.size (by sl_kernel_rfl) y

/-- What case B leaves in scratch buffer 2. -/
def sout3_B_2 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) : Vec F S1024x128 .f32 :=
  VS3_2.read (Elt F) (VS3_2.writes (Elt F) VS3_2.junk (kernelRun3_B c i arg3 harg3 arg4 harg4 arg5 harg5 arg6 harg6 arg7 harg7 arg8 harg8 arg9 harg9 hc0 hc1 x0 x1 x2 xs0 xs1 xs2).2.2.2.1)

section Region3
variable (V : (c : Dev nD) → (b : Ref sig .tc) → Buf (Elt F) ((c : Thread nD τ).loc b))

/-! ## What the output block and the scratch buffers hold after each point -/

theorem odd_of_not_even {n : ℕ} (h : ¬n % 2 = 0) : n % 2 = 1 := by omega
theorem not_odd_of_even {n : ℕ} (h : n % 2 = 0) : ¬n % 2 = 1 := by omega

/-- After the body at position `n`: the output block, then the running maximum, the running sum and the accumulator. -/
def outsAt3 (c : Dev nD) : (n : ℕ) → n < cfg3.N → Vec F S1024x128 .f32 × Vec F S1024x1 .f32 × Vec F S1024x1 .f32 × Vec F S1024x128 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => not_odd_of_even (Nat.zero_mod 2) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => not_odd_of_even (Nat.zero_mod 2) ((hcond3_1 ⟨0, hn⟩).mp h)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => not_odd_of_even (Nat.zero_mod 2) ((hcond3_1 ⟨0, hn⟩).mp h)) (iblk3 V c 0 ⟨0, hn⟩) (iblk3 V c 1 ⟨0, hn⟩) (iblk3 V c 2 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => not_odd_of_even (Nat.zero_mod 2) ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => not_odd_of_even h0 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => not_odd_of_even h0 ((hcond3_1 ⟨n + 1, hn⟩).mp h)) (iblk3 V c 0 ⟨n + 1, hn⟩) (iblk3 V c 1 ⟨n + 1, hn⟩) (iblk3 V c 2 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => not_odd_of_even h0 ((hcond3_1 ⟨n + 1, hn⟩).mp h)) (iblk3 V c 0 ⟨n + 1, hn⟩) (iblk3 V c 1 ⟨n + 1, hn⟩) (iblk3 V c 2 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => not_odd_of_even h0 ((hcond3_1 ⟨n + 1, hn⟩).mp h)) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (odd_of_not_even h0)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (odd_of_not_even h0)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (odd_of_not_even h0)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (odd_of_not_even h0)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)

/-- At an even point: a first key tile's contents. -/
theorem outsAt3_A (c : Dev nD) (t : Fin cfg3.N) (h0 : t.val % 2 = 0) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => not_odd_of_even h0 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => not_odd_of_even h0 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => not_odd_of_even h0 ((hcond3_1 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => not_odd_of_even h0 ((hcond3_1 t).mp h)) (iblk3 V c 0 t) (iblk3 V c 1 t) (iblk3 V c 2 t)) := by
  obtain ⟨n, hn⟩ := t
  cases n with
  | zero => exact rfl
  | succ n => exact (dif_pos h0).trans rfl

/-- At an odd point: a last key tile's contents, over what the point before left in the scratch buffers. -/
theorem outsAt3_B (c : Dev nD) (t : Fin cfg3.N) (h0 : ¬t.val % 2 = 0) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr (odd_of_not_even h0)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr (odd_of_not_even h0)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr (odd_of_not_even h0)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr (odd_of_not_even h0)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The invariant -/

/-- Before position `n`: at the start every scratch buffer holds anything; afterwards each holds what the point before
    left in it. Beside them, untouched: every other scoped buffer and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2))
      ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2))
      ∗ restBut3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2))
      ∗ restBut3 (F := F) c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
/-- The body at any point: the inputs' memrefs hold their blocks; an even point is a first key tile, an odd point a last
    one; the invariant hands the body the scratch buffers at what the point before left (at anything at the very first
    point) and takes them back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 64 := lt_of_lt_of_eq t.isLt (show cfg3.N = 64 from N_3)
  by_cases h0 : t.val % 2 = 0
  · have hc0 : cond3_0 (grid3.coords t) := (hcond3_0 t).mpr h0
    have hc1 : ¬cond3_1 (grid3.coords t) := fun h => not_odd_of_even h0 ((hcond3_1 t).mp h)
    rw [Dat.leavesExact_idle (dat3 V c) 3 t (idleAt3_3_A t hc0 hc1) (noFlush3_3_A t hc0 hc1)]
    rw [outsAt3_A V c t h0]
    unfold sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hrest⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ hc0 hc1 (iblk3 V c 0 t) (iblk3 V c 1 t) (iblk3 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ hc0 hc1 (iblk3 V c 0 t) (iblk3 V c 1 t) (iblk3 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hc0 : ¬cond3_0 (grid3.coords t) := fun h => h0 ((hcond3_0 t).mp h)
    have hc1 : cond3_1 (grid3.coords t) := (hcond3_1 t).mpr (odd_of_not_even h0)
    have hz : t.val ≠ 0 := fun e => h0 (by rw [e])
    rw [show (dat3 V c).leavesExact 3 t = owns (c : Thread nD τ) (ms3_3 t) fullShare ((dat3 V c).after 3 t) from by
      unfold Dat.leavesExact; rw [liveAt3_3_B t hc0 hc1], after3_3]
    rw [outsAt3_B V c t h0]
    unfold out3_B_3 sout3_B_0 sout3_B_1 sout3_B_2; (try dsimp only)
    rw [PhiS3_castSucc V c t, PhiS3_pos V c _ _ hz]
    iintro ⟨⟨⟨⟨HS0, HS1, HS2⟩, Hrest⟩, Hg⟩, Ho, ⟨%d0, H0⟩, ⟨%d1, H1⟩, ⟨%d2, H2⟩, ⟨%d3, H3⟩⟩
    iapply ((kernelRun3_B c (grid3.coords t) _ _ _ _ _ _ _ _ _ _ _ _ _ _ hc0 hc1 (iblk3 V c 0 t) (iblk3 V c 1 t) (iblk3 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 c _ _ _ _ _ _ _ _ _ _ _ _ _ _ _ _ _ _ _ _ _ _ _)
          unfold owns; iexists _; isplitr
          swap; · iexact HS2
          ipureintro; exact View.read_writes_of_cover _ _ _ _ _ (scover3_B_2 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the scratch buffers' named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Region3

end Cert.KernelIdeal.Hand

end
-- ==== Proof.Run.lean ====
/-
  The whole program as one run: six stretches of host operations around five pipelined regions. The buffer contents at
  each boundary are a fold from the launch memory: a host stretch applies its operations, a region replaces its arrays by
  what its write-backs leave and keeps every other buffer. Each region is entered from "every unscoped buffer at the
  boundary's contents, the generator register at some state, nothing owed" and left in the same shape at the next
  boundary's contents; the attention region's invariant additionally names its three scratch buffers between points.
  The run ends with every unscoped buffer at the last boundary's contents; the arguments, which no stretch writes and no
  region stages as an output, read back as launched.
-/
import proofs.«157797_j54116587930174_2_alg».proof.Proof.Linear0
import proofs.«157797_j54116587930174_2_alg».proof.Proof.Linear1
import proofs.«157797_j54116587930174_2_alg».proof.Proof.Linear2
import proofs.«157797_j54116587930174_2_alg».proof.Proof.Linear4
import proofs.«157797_j54116587930174_2_alg».proof.Proof.Attn
import proofs.«157797_j54116587930174_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem W1_of (c : Dev nD) (r : Ref sig .tc) (h : r ∉ hostOps0_W) : W1 m ρ c r = W0 m ρ c r :=
  StableHlo.after_of_writes_sub hostOps0 _ hostOps0_writes h

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem W3_of (c : Dev nD) (r : Ref sig .tc) (h : r ∉ hostOps1_W) : W3 m ρ c r = W2 m ρ c r :=
  StableHlo.after_of_writes_sub hostOps1 _ hostOps1_writes h

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
theorem W5_of (c : Dev nD) (r : Ref sig .tc) (h : r ∉ hostOps2_W) : W5 m ρ c r = W4 m ρ c r :=
  StableHlo.after_of_writes_sub hostOps2 _ hostOps2_writes h

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
theorem W7_of (c : Dev nD) (r : Ref sig .tc) (h : r ∉ hostOps3_W) : W7 m ρ c r = W6 m ρ c r :=
  StableHlo.after_of_writes_sub hostOps3 _ hostOps3_writes h

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
theorem W9_of (c : Dev nD) (r : Ref sig .tc) (h : r ∉ hostOps4_W) : W9 m ρ c r = W8 m ρ c r :=
  StableHlo.after_of_writes_sub hostOps4 _ hostOps4_writes h

/-- After the last host stretch: what the program returns with. -/
abbrev W11 : Dev nD → Valuation τ sig (Elt F) := fun c => StableHlo.after hostOps5 (W10 m ρ c)
theorem W11_of (c : Dev nD) (r : Ref sig .tc) (h : r ∉ hostOps5_W) : W11 m ρ c r = W10 m ρ c r :=
  StableHlo.after_of_writes_sub hostOps5 _ hostOps5_writes h

/-- A buffer that no host stretch writes and no region stages reaches the end as launched. -/
theorem W11_keep (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) (a4 : ∀ w, Pipeline.arrRef spec4 w ≠ b) :
    W11 m ρ c b = m ((c : Thread nD τ).loc b) :=
  (W11_of m ρ c b h5).trans <| (W10_of_ne m ρ c b a4).trans <| (W9_of m ρ c b h4).trans <| (W8_of_ne m ρ c b a3).trans <|
    (W7_of m ρ c b h3).trans <| (W6_of_ne m ρ c b a2).trans <| (W5_of m ρ c b h2).trans <| (W4_of_ne m ρ c b a1).trans <|
    (W3_of m ρ c b h1).trans <| (W2_of_ne m ρ c b a0).trans <| (W1_of m ρ c b h0).trans rfl
theorem W11_main_arg0 (c : Dev nD) : W11 m ρ c main_arg0 = m ((c : Thread nD τ).loc main_arg0) :=
  W11_keep m ρ c main_arg0 (by decide) (by decide) (by decide) (by decide) (by decide) (by decide) (by decide) (by decide) (by decide) (by decide) (by decide)
theorem W11_main_arg1 (c : Dev nD) : W11 m ρ c main_arg1 = m ((c : Thread nD τ).loc main_arg1) :=
  W11_keep m ρ c main_arg1 (by decide) (by decide) (by decide) (by decide) (by decide) (by decide) (by decide) (by decide) (by decide) (by decide) (by decide)
theorem W11_main_arg2 (c : Dev nD) : W11 m ρ c main_arg2 = m ((c : Thread nD τ).loc main_arg2) :=
  W11_keep m ρ c main_arg2 (by decide) (by decide) (by decide) (by decide) (by decide) (by decide) (by decide) (by decide) (by decide) (by decide) (by decide)
theorem W11_main_arg3 (c : Dev nD) : W11 m ρ c main_arg3 = m ((c : Thread nD τ).loc main_arg3) :=
  W11_keep m ρ c main_arg3 (by decide) (by decide) (by decide) (by decide) (by decide) (by decide) (by decide) (by decide) (by decide) (by decide) (by decide)
theorem W11_main_arg4 (c : Dev nD) : W11 m ρ c main_arg4 = m ((c : Thread nD τ).loc main_arg4) :=
  W11_keep m ρ c main_arg4 (by decide) (by decide) (by decide) (by decide) (by decide) (by decide) (by decide) (by decide) (by decide) (by decide) (by decide)
theorem W11_main_arg5 (c : Dev nD) : W11 m ρ c main_arg5 = m ((c : Thread nD τ).loc main_arg5) :=
  W11_keep m ρ c main_arg5 (by decide) (by decide) (by decide) (by decide) (by decide) (by decide) (by decide) (by decide) (by decide) (by decide) (by decide)
theorem W11_main_arg6 (c : Dev nD) : W11 m ρ c main_arg6 = m ((c : Thread nD τ).loc main_arg6) :=
  W11_keep m ρ c main_arg6 (by decide) (by decide) (by decide) (by decide) (by decide) (by decide) (by decide) (by decide) (by decide) (by decide) (by decide)
theorem W11_main_arg7 (c : Dev nD) : W11 m ρ c main_arg7 = m ((c : Thread nD τ).loc main_arg7) :=
  W11_keep m ρ c main_arg7 (by decide) (by decide) (by decide) (by decide) (by decide) (by decide) (by decide) (by decide) (by decide) (by decide) (by decide)
theorem W11_main_arg8 (c : Dev nD) : W11 m ρ c main_arg8 = m ((c : Thread nD τ).loc main_arg8) :=
  W11_keep m ρ c main_arg8 (by decide) (by decide) (by decide) (by decide) (by decide) (by decide) (by decide) (by decide) (by decide) (by decide) (by decide)
theorem W11_main_arg9 (c : Dev nD) : W11 m ρ c main_arg9 = m ((c : Thread nD τ).loc main_arg9) :=
  W11_keep m ρ c main_arg9 (by decide) (by decide) (by decide) (by decide) (by decide) (by decide) (by decide) (by decide) (by decide) (by decide) (by decide)
theorem W11_main_arg10 (c : Dev nD) : W11 m ρ c main_arg10 = m ((c : Thread nD τ).loc main_arg10) :=
  W11_keep m ρ c main_arg10 (by decide) (by decide) (by decide) (by decide) (by decide) (by decide) (by decide) (by decide) (by decide) (by decide) (by decide)

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = (dat3 (V7 m ρ) c).Φ (Fin.last cfg3.N) from rfl]
    have h := hout3 (V7 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => (show iprop(StableHlo.held (c : Thread nD τ) (Pipeline.ucRefs τ sig) (W11 m ρ c) ∗ R c)
            ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME, off the run: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩)
    (run_all m ρ)

end Cert.KernelIdeal.Hand

end
-- ==== Proof.WLinear0.lean ====
/-
  The linear projection of call 0 (the query projection, at the word-level program) as a pipelined region: what each grid point's body leaves in its
  output block, as a function of the three input blocks, and the body's triple at a generic point.
-/
import proofs.«157797_j54116587930174_2_alg».proof.Proof.Gen.Kernel.Launch
import proofs.«157797_j54116587930174_2_alg».proof.Proof.Gen.Kernel.Skeleton
import proofs.«157797_j54116587930174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear projection of call 0: one row block of `x · wᵀ + bias` per grid point

Every point loads its three input blocks whole, multiplies, adds the bias row and stores the whole output block; nothing
is kept between points. The region is stated at a parameter `V`, the buffer contents when the region is entered. -/

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or kept it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or kept it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or kept it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole block of each staged shape. -/
abbrev r0_x : Rect S512x2048 := Rect.unit (s := S512x2048) ![0, 0] S512x2048.size inb_S512x2048_S512x2048_0_0
abbrev r0_w : Rect S2048x2048 := Rect.unit (s := S2048x2048) ![0, 0] S2048x2048.size inb_S2048x2048_S2048x2048_0_0
abbrev r0_b : Rect S1x2048 := Rect.unit (s := S1x2048) ![0, 0] S1x2048.size inb_S1x2048_S1x2048_0_0

/-- The output block after the body: the one store's value, a function of the three input blocks. -/
def out0_3 (x0 : Vec F S512x2048 .bf16) (x1 : Vec F S2048x2048 .bf16) (x2 : Vec F S1x2048 .f32) : Vec F S512x2048 .f32 :=
  View.canon [⟨r0_x, k0_pay1 (View.ld x0 r0_x) (View.ld x1 r0_w) (View.ld x2 r0_b)⟩]

/-- The one store covers the block. -/
theorem cover0_3 (p0 : Vec F S512x2048 .f32) (y : S512x2048.Idx) :
    ∃ pc ∈ ([⟨r0_x, p0⟩] : List (View.Piece (Elt F) S512x2048 .f32)), y ∈ pc.1.set :=
  View.cover_of_tiled [⟨r0_x, p0⟩] S512x2048.size (by rfl) y

set_option maxHeartbeats 2000000 in
/-- The body on whole staging memrefs: the inputs come back as they were, the output holds `out0_3` of them. -/
theorem sound_kernel0 (c : Dev nD) (E : Set ℕ) (i : grid0.Coords)
    (arg1 : Memref sig .tc .vmem S512x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as the region finds them; after the body each input's buffer at its
    block and the output's at `out0_3` of the input blocks; the invariant keeps only what the body never touches. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.WLinear1.lean ====
/-
  The linear projection of call 1 (the key projection, at the word-level program) as a pipelined region: what each grid point's body leaves in its
  output block, as a function of the three input blocks, and the body's triple at a generic point.
-/
import proofs.«157797_j54116587930174_2_alg».proof.Proof.Gen.Kernel.Launch
import proofs.«157797_j54116587930174_2_alg».proof.Proof.Gen.Kernel.Skeleton
import proofs.«157797_j54116587930174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear projection of call 1: one row block of `x · wᵀ + bias` per grid point

Every point loads its three input blocks whole, multiplies, adds the bias row and stores the whole output block; nothing
is kept between points. The region is stated at a parameter `V`, the buffer contents when the region is entered. -/

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or kept it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or kept it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or kept it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole block of each staged shape. -/
abbrev r1_x : Rect S512x2048 := Rect.unit (s := S512x2048) ![0, 0] S512x2048.size inb_S512x2048_S512x2048_0_0
abbrev r1_w : Rect S2048x2048 := Rect.unit (s := S2048x2048) ![0, 0] S2048x2048.size inb_S2048x2048_S2048x2048_0_0
abbrev r1_b : Rect S1x2048 := Rect.unit (s := S1x2048) ![0, 0] S1x2048.size inb_S1x2048_S1x2048_0_0

/-- The output block after the body: the one store's value, a function of the three input blocks. -/
def out1_3 (x0 : Vec F S512x2048 .bf16) (x1 : Vec F S2048x2048 .bf16) (x2 : Vec F S1x2048 .f32) : Vec F S512x2048 .f32 :=
  View.canon [⟨r1_x, k1_pay1 (View.ld x0 r1_x) (View.ld x1 r1_w) (View.ld x2 r1_b)⟩]

/-- The one store covers the block. -/
theorem cover1_3 (p0 : Vec F S512x2048 .f32) (y : S512x2048.Idx) :
    ∃ pc ∈ ([⟨r1_x, p0⟩] : List (View.Piece (Elt F) S512x2048 .f32)), y ∈ pc.1.set :=
  View.cover_of_tiled [⟨r1_x, p0⟩] S512x2048.size (by rfl) y

set_option maxHeartbeats 2000000 in
/-- The body on whole staging memrefs: the inputs come back as they were, the output holds `out1_3` of them. -/
theorem sound_kernel1 (c : Dev nD) (E : Set ℕ) (i : grid1.Coords)
    (arg1 : Memref sig .tc .vmem S512x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The region's proof data on core `c`: the arrays as the region finds them; after the body each input's buffer at its
    block and the output's at `out1_3` of the input blocks; the invariant keeps only what the body never touches. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.WLinear2.lean ====
/-
  The linear projection of call 2 (the value projection, at the word-level program) as a pipelined region: what each grid point's body leaves in its
  output block, as a function of the three input blocks, and the body's triple at a generic point.
-/
import proofs.«157797_j54116587930174_2_alg».proof.Proof.Gen.Kernel.Launch
import proofs.«157797_j54116587930174_2_alg».proof.Proof.Gen.Kernel.Skeleton
import proofs.«157797_j54116587930174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear projection of call 2: one row block of `x · wᵀ + bias` per grid point

Every point loads its three input blocks whole, multiplies, adds the bias row and stores the whole output block; nothing
is kept between points. The region is stated at a parameter `V`, the buffer contents when the region is entered. -/

section Region2
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or kept it. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the pipeline fetched it there or kept it. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the pipeline fetched it there or kept it. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole block of each staged shape. -/
abbrev r2_x : Rect S512x2048 := Rect.unit (s := S512x2048) ![0, 0] S512x2048.size inb_S512x2048_S512x2048_0_0
abbrev r2_w : Rect S2048x2048 := Rect.unit (s := S2048x2048) ![0, 0] S2048x2048.size inb_S2048x2048_S2048x2048_0_0
abbrev r2_b : Rect S1x2048 := Rect.unit (s := S1x2048) ![0, 0] S1x2048.size inb_S1x2048_S1x2048_0_0

/-- The output block after the body: the one store's value, a function of the three input blocks. -/
def out2_3 (x0 : Vec F S512x2048 .bf16) (x1 : Vec F S2048x2048 .bf16) (x2 : Vec F S1x2048 .f32) : Vec F S512x2048 .f32 :=
  View.canon [⟨r2_x, k2_pay1 (View.ld x0 r2_x) (View.ld x1 r2_w) (View.ld x2 r2_b)⟩]

/-- The one store covers the block. -/
theorem cover2_3 (p0 : Vec F S512x2048 .f32) (y : S512x2048.Idx) :
    ∃ pc ∈ ([⟨r2_x, p0⟩] : List (View.Piece (Elt F) S512x2048 .f32)), y ∈ pc.1.set :=
  View.cover_of_tiled [⟨r2_x, p0⟩] S512x2048.size (by rfl) y

set_option maxHeartbeats 2000000 in
/-- The body on whole staging memrefs: the inputs come back as they were, the output holds `out2_3` of them. -/
theorem sound_kernel2 (c : Dev nD) (E : Set ℕ) (i : grid2.Coords)
    (arg1 : Memref sig .tc .vmem S512x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The region's proof data on core `c`: the arrays as the region finds them; after the body each input's buffer at its
    block and the output's at `out2_3` of the input blocks; the invariant keeps only what the body never touches. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.WLinear4.lean ====
/-
  The linear projection of call 4 (the output projection, at the word-level program) as a pipelined region: what each grid point's body leaves in its
  output block, as a function of the three input blocks, and the body's triple at a generic point.
-/
import proofs.«157797_j54116587930174_2_alg».proof.Proof.Gen.Kernel.Launch
import proofs.«157797_j54116587930174_2_alg».proof.Proof.Gen.Kernel.Skeleton
import proofs.«157797_j54116587930174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear projection of call 4: one row block of `x · wᵀ + bias` per grid point

Every point loads its three input blocks whole, multiplies, adds the bias row and stores the whole output block; nothing
is kept between points. The region is stated at a parameter `V`, the buffer contents when the region is entered. -/

section Region4
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, whether the pipeline fetched it there or kept it. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, whether the pipeline fetched it there or kept it. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, whether the pipeline fetched it there or kept it. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- The whole block of each staged shape. -/
abbrev r4_x : Rect S512x2048 := Rect.unit (s := S512x2048) ![0, 0] S512x2048.size inb_S512x2048_S512x2048_0_0
abbrev r4_w : Rect S2048x2048 := Rect.unit (s := S2048x2048) ![0, 0] S2048x2048.size inb_S2048x2048_S2048x2048_0_0
abbrev r4_b : Rect S1x2048 := Rect.unit (s := S1x2048) ![0, 0] S1x2048.size inb_S1x2048_S1x2048_0_0

/-- The output block after the body: the one store's value, a function of the three input blocks. -/
def out4_3 (x0 : Vec F S512x2048 .bf16) (x1 : Vec F S2048x2048 .bf16) (x2 : Vec F S1x2048 .f32) : Vec F S512x2048 .f32 :=
  View.canon [⟨r4_x, k4_pay1 (View.ld x0 r4_x) (View.ld x1 r4_w) (View.ld x2 r4_b)⟩]

/-- The one store covers the block. -/
theorem cover4_3 (p0 : Vec F S512x2048 .f32) (y : S512x2048.Idx) :
    ∃ pc ∈ ([⟨r4_x, p0⟩] : List (View.Piece (Elt F) S512x2048 .f32)), y ∈ pc.1.set :=
  View.cover_of_tiled [⟨r4_x, p0⟩] S512x2048.size (by rfl) y

set_option maxHeartbeats 2000000 in
/-- The body on whole staging memrefs: the inputs come back as they were, the output holds `out4_3` of them. -/
theorem sound_kernel4 (c : Dev nD) (E : Set ℕ) (i : grid4.Coords)
    (arg1 : Memref sig .tc .vmem S512x2048 .bf16) (harg1 : arg1.IsWhole) (arg2 : Memref sig .tc .vmem S2048x2048 .bf16) (harg2 : arg2.IsWhole)
    (arg3 : Memref sig .tc .vmem S1x2048 .f32) (harg3 : arg3.IsWhole) (arg4 : Memref sig .tc .vmem S512x2048 .f32) (harg4 : arg4.IsWhole)
    (x0 : Vec F S512x2048 .bf16) (x1 : Vec F S2048x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-- The region's proof data on core `c`: the arrays as the region finds them; after the body each input's buffer at its
    block and the output's at `out4_3` of the input blocks; the invariant keeps only what the body never touches. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (iblk4 V c 0 t) (iblk4 V c 1 t) (iblk4 V c 2 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.WAttnShared.lean ====
/-
  The attention call as a pipelined region, the part its two kinds of grid point share. The grid is (batch, head, key tile)
  with two key tiles per (batch, head): at the first tile the body resets the running maximum, the running sum and the
  accumulator (three scratch buffers it keeps between points) before updating them; at the second it updates them and then
  writes the normalised accumulator into the output block. Here: the windows' blocks, the two branch conditions decided over
  the grid, where the output window is idle, and the invariant with the three scratch buffers named.
-/
import proofs.«157797_j54116587930174_2_alg».proof.Proof.Gen.Kernel.Launch
import proofs.«157797_j54116587930174_2_alg».proof.Proof.Gen.Kernel.Skeleton
import proofs.«157797_j54116587930174_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point, whether the pipeline fetched it there or kept it. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point, whether the pipeline fetched it there or kept it. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point, whether the pipeline fetched it there or kept it. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region3

/-! ## The two branch conditions, decided over the grid -/

/-- "This is the first key tile": the reset branch's condition, from the grid coordinates. -/
abbrev cond3_0 (i : grid3.Coords) : Prop := (Scalar.cmpi .ne (Scalar.extui (Scalar.cmpi .eq (BitVec.ofNat 32 (i 2).val) 0#32)) 0#32) = 1#1
/-- It holds at the even points. -/
theorem hcond3_0 : ∀ t : Fin cfg3.N, cond3_0 (grid3.coords t) ↔ t.val % 2 = 0 :=
  (by decide +kernel : ∀ t : Fin grid3.N, cond3_0 (grid3.coords t) ↔ t.val % 2 = 0)
/-- "This is the last key tile": the write-out branch's condition. -/
abbrev cond3_1 (i : grid3.Coords) : Prop := k3_cond2 i = 1#1
/-- It holds at the odd points. -/
theorem hcond3_1 : ∀ t : Fin cfg3.N, cond3_1 (grid3.coords t) ↔ t.val % 2 = 1 :=
  (by decide +kernel : ∀ t : Fin grid3.N, cond3_1 (grid3.coords t) ↔ t.val % 2 = 1)

/-- The inputs are never idle. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- At a first tile the output window is idle (nothing is stored into it) and is not written back. -/
theorem idleAt3_3_A : ∀ t : Fin cfg3.N, cond3_0 (grid3.coords t) → ¬cond3_1 (grid3.coords t) → cfg3.idle 3 (grid3.coords t) = true := by decide +kernel
theorem noFlush3_3_A : ∀ t : Fin cfg3.N, cond3_0 (grid3.coords t) → ¬cond3_1 (grid3.coords t) → (cfg3.win 3).flush t = false := by decide +kernel
/-- At a last tile it is live. -/
theorem liveAt3_3_B : ∀ t : Fin cfg3.N, ¬cond3_0 (grid3.coords t) → cond3_1 (grid3.coords t) → cfg3.idle 3 (grid3.coords t) = false := by decide +kernel

/-! ## The memrefs the body is called with -/

/-- One staging buffer of the output window, through which its contents are stated. -/
abbrev VO3_3 : View sig .tc .vmem S1024x128 .f32 := (Memref.whole cc3_stg3_0 : Memref sig .tc .vmem S1024x128 .f32).view
abbrev ms3_0 (t : Fin cfg3.N) : Memref sig .tc .vmem S1024x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x1x2048x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x2048x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x128 .f32 := win3_3.stage (cfg3.slots t 3)
abbrev hs3_3 (t : Fin cfg3.N) : (ms3_3 t).IsWhole := hstage3_3 ((cfg3.slots t 3).cast nbuf3_3)
/-- The scratch buffers: the running maximum, the running sum, the accumulator. -/
abbrev scM3_0 : Memref sig .tc .vmem S1024x1 .f32 := Memref.whole cc3_scratch0
abbrev scM3_1 : Memref sig .tc .vmem S1024x1 .f32 := Memref.whole cc3_scratch1
abbrev scM3_2 : Memref sig .tc .vmem S1024x128 .f32 := Memref.whole cc3_scratch2
abbrev VS3_0 : View sig .tc .vmem S1024x1 .f32 := scM3_0.view
abbrev VS3_1 : View sig .tc .vmem S1024x1 .f32 := scM3_1.view
abbrev VS3_2 : View sig .tc .vmem S1024x128 .f32 := scM3_2.view

/-- Every other scoped buffer of the core, unopened. -/
abbrev restBut3 (c : Dev nD) : sProp 𝕄 :=
  Pipeline.scopedRestBut (Ix := Unit) (Name := ℕ) (U := UR sig nD τ) (Lvl := ℕ) (Val := Elt F) spec3 c [cc3_scratch0, cc3_scratch1, cc3_scratch2]

/-- The class invariant with the three scratch buffers taken out as memrefs owned at some contents. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d) ∗ (∃ d, owns (c : Thread nD τ) scM3_2 fullShare d))
          ∗ restBut3 (F := F) c) ∗ (∃ r, prngReg c r)) := by
  unfold Pipeline.ΦA; rw [scopedRest3_split]; simp only [scM3_0, scM3_1, scM3_2, owns_whole]; try rfl

end Cert.Kernel.Hand

end
-- ==== Proof.WAttnRunA.lean ====
/-
  The attention body at a FIRST key tile: it resets the three scratch buffers, then updates them from the point's query,
  key and value blocks, and stores nothing into the output block. What its stores leave in each scratch buffer is found by
  running the body symbolically; the pieces are the run's own.
-/
import proofs.«157797_j54116587930174_2_alg».proof.Proof.WAttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a first key tile, on whole memrefs: the inputs at their blocks, the output at contents handed back
    untouched, the scratch buffers at anything; it ends with each scratch buffer at its pieces written. -/
noncomputable def kernelRun3_A (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) :
    Σ' (L3 : List (View.Piece (Elt F) S1024x128 .f32)) (LS0 : List (View.Piece (Elt F) S1024x1 .f32)) (LS1 : List (View.Piece (Elt F) S1024x1 .f32)), { LS2 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9) K } := by
  refine ⟨[], ?_, ?_, ?_, fun xi3 E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.WAttnRunB.lean ====
/-
  The attention body at a LAST key tile: it finds the three scratch buffers as the first tile left them, updates them from
  the point's query, key and value blocks, and stores the accumulator divided by the running sum into the output block.
  What its stores leave in the output block and in each scratch buffer is found by running the body symbolically.
-/
import proofs.«157797_j54116587930174_2_alg».proof.Proof.WAttnShared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a last key tile, on whole memrefs: the inputs at their blocks, the output at anything, the scratch
    buffers at the contents the point before left; it ends with the output and each scratch buffer at its pieces written. -/
noncomputable def kernelRun3_B (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) :
    Σ' (L3 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc3__attn_kernel i arg3 harg3 arg4 harg4 arg5 harg5 arg6 harg6 arg7 harg7 arg8 harg8 arg9 harg9) K } := by
  refine ⟨?_, ?_, ?_, ?_, fun E K => ?run⟩
  case run =>
    simp only [cc3__attn_kernel_eq_skeleton]; unfold cc3__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.WAttn.lean ====
/-
  The attention call's proof data and body obligation. What the output block and the three scratch buffers (running maximum,
  running sum, accumulator) hold after each grid point is one recursion over the points: an even point is a first key tile
  and starts afresh, an odd point is a last key tile and continues from what the point before left in the scratch buffers.
  The region's invariant names those contents, so that the body at an odd point finds them.
-/
import proofs.«157797_j54116587930174_2_alg».proof.Proof.WAttnRunA
import proofs.«157797_j54116587930174_2_alg».proof.Proof.WAttnRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first key tile nothing is stored into the output block: a placeholder nobody reads (the window is idle there and
    is not written back). -/
def out3_A_3 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) : Vec F S1024x128 .f32 :=
  VO3_3.read (Elt F) (VO3_3.writes (Elt F) VO3_3.junk (kernelRun3_A c i arg3 harg3 arg4 harg4 arg5 harg5 arg6 harg6 arg7 harg7 arg8 harg8 arg9 harg9 hc0 hc1 x0 x1 x2).1)

/-- Case A's stores into scratch buffer 0 cover it. -/
theorem scover3_A_0 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) (y : S1024x1.Idx) :
    ∃ pc ∈ (kernelRun3_A c i arg3 harg3 arg4 harg4 arg5 harg5 arg6 harg6 arg7 harg7 arg8 harg8 arg9 harg9 hc0 hc1 x0 x1 x2).2.1, y ∈ pc.1.set :=
  View.cover_of_tiledL (kernelRun3_A c i arg3 harg3 arg4 harg4 arg5 harg5 arg6 harg6 arg7 harg7 arg8 harg8 arg9 harg9 hc0 hc1 x0 x1 x2).2.1 S1024x1.size (by sl_kernel_rfl) y

/-- What case A leaves in scratch buffer 0. -/
def sout3_A_0 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) : Vec F S1024x1 .f32 :=
  VS3_0.read (Elt F) (VS3_0.writes (Elt F) VS3_0.junk (kernelRun3_A c i arg3 harg3 arg4 harg4 arg5 harg5 arg6 harg6 arg7 harg7 arg8 harg8 arg9 harg9 hc0 hc1 x0 x1 x2).2.1)

/-- Case A's stores into scratch buffer 1 cover it. -/
theorem scover3_A_1 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) (y : S1024x1.Idx) :
    ∃ pc ∈ (kernelRun3_A c i arg3 harg3 arg4 harg4 arg5 harg5 arg6 harg6 arg7 harg7 arg8 harg8 arg9 harg9 hc0 hc1 x0 x1 x2).2.2.1, y ∈ pc.1.set :=
  View.cover_of_tiledL (kernelRun3_A c i arg3 harg3 arg4 harg4 arg5 harg5 arg6 harg6 arg7 harg7 arg8 harg8 arg9 harg9 hc0 hc1 x0 x1 x2).2.2.1 S1024x1.size (by sl_kernel_rfl) y

/-- What case A leaves in scratch buffer 1. -/
def sout3_A_1 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) : Vec F S1024x1 .f32 :=
  VS3_1.read (Elt F) (VS3_1.writes (Elt F) VS3_1.junk (kernelRun3_A c i arg3 harg3 arg4 harg4 arg5 harg5 arg6 harg6 arg7 harg7 arg8 harg8 arg9 harg9 hc0 hc1 x0 x1 x2).2.2.1)

/-- Case A's stores into scratch buffer 2 cover it. -/
theorem scover3_A_2 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) (y : S1024x128.Idx) :
    ∃ pc ∈ (kernelRun3_A c i arg3 harg3 arg4 harg4 arg5 harg5 arg6 harg6 arg7 harg7 arg8 harg8 arg9 harg9 hc0 hc1 x0 x1 x2).2.2.2.1, y ∈ pc.1.set :=
  View.cover_of_tiledL (kernelRun3_A c i arg3 harg3 arg4 harg4 arg5 harg5 arg6 harg6 arg7 harg7 arg8 harg8 arg9 harg9 hc0 hc1 x0 x1 x2).2.2.2.1 S1024x128.size (by sl_kernel_rfl) y

/-- What case A leaves in scratch buffer 2. -/
def sout3_A_2 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) : Vec F S1024x128 .f32 :=
  VS3_2.read (Elt F) (VS3_2.writes (Elt F) VS3_2.junk (kernelRun3_A c i arg3 harg3 arg4 harg4 arg5 harg5 arg6 harg6 arg7 harg7 arg8 harg8 arg9 harg9 hc0 hc1 x0 x1 x2).2.2.2.1)

/-- At a last key tile the body's one store into the output block covers it. -/
theorem cover3_B_3 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) (y : S1024x128.Idx) :
    ∃ pc ∈ (kernelRun3_B c i arg3 harg3 arg4 harg4 arg5 harg5 arg6 harg6 arg7 harg7 arg8 harg8 arg9 harg9 hc0 hc1 x0 x1 x2 xs0 xs1 xs2).1, y ∈ pc.1.set :=
  View.cover_of_tiledL (kernelRun3_B c i arg3 harg3 arg4 harg4 arg5 harg5 arg6 harg6 arg7 harg7 arg8 harg8 arg9 harg9 hc0 hc1 x0 x1 x2 xs0 xs1 xs2).1 S1024x128.size (by sl_kernel_rfl) y

/-- What a last key tile leaves in the output block. -/
def out3_B_3 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) : Vec F S1024x128 .f32 :=
  VO3_3.read (Elt F) (VO3_3.writes (Elt F) VO3_3.junk (kernelRun3_B c i arg3 harg3 arg4 harg4 arg5 harg5 arg6 harg6 arg7 harg7 arg8 harg8 arg9 harg9 hc0 hc1 x0 x1 x2 xs0 xs1 xs2).1)

/-- Case B's stores into scratch buffer 0 cover it. -/
theorem scover3_B_0 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) (y : S1024x1.Idx) :
    ∃ pc ∈ (kernelRun3_B c i arg3 harg3 arg4 harg4 arg5 harg5 arg6 harg6 arg7 harg7 arg8 harg8 arg9 harg9 hc0 hc1 x0 x1 x2 xs0 xs1 xs2).2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.1 S1024x1.size (by sl_kernel_rfl) y

/-- What case B leaves in scratch buffer 0. -/
def sout3_B_0 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) : Vec F S1024x1 .f32 :=
  VS3_0.read (Elt F) (VS3_0.writes (Elt F) VS3_0.junk (kernelRun3_B c i arg3 harg3 arg4 harg4 arg5 harg5 arg6 harg6 arg7 harg7 arg8 harg8 arg9 harg9 hc0 hc1 x0 x1 x2 xs0 xs1 xs2).2.1)

/-- Case B's stores into scratch buffer 1 cover it. -/
theorem scover3_B_1 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) (y : S1024x1.Idx) :
    ∃ pc ∈ (kernelRun3_B c i arg3 harg3 arg4 harg4 arg5 harg5 arg6 harg6 arg7 harg7 arg8 harg8 arg9 harg9 hc0 hc1 x0 x1 x2 xs0 xs1 xs2).2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.1 S1024x1.size (by sl_kernel_rfl) y

/-- What case B leaves in scratch buffer 1. -/
def sout3_B_1 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) : Vec F S1024x1 .f32 :=
  VS3_1.read (Elt F) (VS3_1.writes (Elt F) VS3_1.junk (kernelRun3_B c i arg3 harg3 arg4 harg4 arg5 harg5 arg6 harg6 arg7 harg7 arg8 harg8 arg9 harg9 hc0 hc1 x0 x1 x2 xs0 xs1 xs2).2.2.1)

/-- Case B's stores into scratch buffer 2 cover it. -/
theorem scover3_B_2 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) (y : S1024x128.Idx) :
    ∃ pc ∈ (kernelRun3_B c i arg3 harg3 arg4 harg4 arg5 harg5 arg6 harg6 arg7 harg7 arg8 harg8 arg9 harg9 hc0 hc1 x0 x1 x2 xs0 xs1 xs2).2.2.2.1, y ∈ pc.1.set :=
  View.cover_of_tiledL (kernelRun3_B c i arg3 harg3 arg4 harg4 arg5 harg5 arg6 harg6 arg7 harg7 arg8 harg8 arg9 harg9 hc0 hc1 x0 x1 x2 xs0 xs1 xs2).2.2.2.1 S1024x128.size (by sl_kernel_rfl) y

/-- What case B leaves in scratch buffer 2. -/
def sout3_B_2 (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) : Vec F S1024x128 .f32 :=
  VS3_2.read (Elt F) (VS3_2.writes (Elt F) VS3_2.junk (kernelRun3_B c i arg3 harg3 arg4 harg4 arg5 harg5 arg6 harg6 arg7 harg7 arg8 harg8 arg9 harg9 hc0 hc1 x0 x1 x2 xs0 xs1 xs2).2.2.2.1)

section Region3
variable (V : (c : Dev nD) → (b : Ref sig .tc) → Buf (Elt F) ((c : Thread nD τ).loc b))

/-! ## What the output block and the scratch buffers hold after each point -/

theorem odd_of_not_even {n : ℕ} (h : ¬n % 2 = 0) : n % 2 = 1 := by omega
theorem not_odd_of_even {n : ℕ} (h : n % 2 = 0) : ¬n % 2 = 1 := by omega

/-- After the body at position `n`: the output block, then the running maximum, the running sum and the accumulator. -/
def outsAt3 (c : Dev nD) : (n : ℕ) → n < cfg3.N → Vec F S1024x128 .f32 × Vec F S1024x1 .f32 × Vec F S1024x1 .f32 × Vec F S1024x128 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => not_odd_of_even (Nat.zero_mod 2) ((hcond3_1 ⟨0, hn⟩).mp h)) (iblk3 V c 0 ⟨0, hn⟩) (iblk3 V c 1 ⟨0, hn⟩) (iblk3 V c 2 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => not_odd_of_even (Nat.zero_mod 2) ((hcond3_1 ⟨0, hn⟩).mp h)) (iblk3 V c 0 ⟨0, hn⟩) (iblk3 V c 1 ⟨0, hn⟩) (iblk3 V c 2 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => not_odd_of_even (Nat.zero_mod 2) ((hcond3_1 ⟨0, hn⟩).mp h)) (iblk3 V c 0 ⟨0, hn⟩) (iblk3 V c 1 ⟨0, hn⟩) (iblk3 V c 2 ⟨0, hn⟩), sout3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) scM3_0 (Memref.isWhole_whole _) scM3_1 (Memref.isWhole_whole _) scM3_2 (Memref.isWhole_whole _) ((hcond3_0 ⟨0, hn⟩).mpr (Nat.zero_mod _)) (fun h => not_odd_of_even (Nat.zero_mod 2) ((hcond3_1 ⟨0, hn⟩).mp h)) (iblk3 V c 0 ⟨0, hn⟩) (iblk3 V c 1 ⟨0, hn⟩) (iblk3 V c 2 ⟨0, hn⟩))
  | n + 1, hn =>
    if h0 : (n + 1) % 2 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => not_odd_of_even h0 ((hcond3_1 ⟨n + 1, hn⟩).mp h)) (iblk3 V c 0 ⟨n + 1, hn⟩) (iblk3 V c 1 ⟨n + 1, hn⟩) (iblk3 V c 2 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => not_odd_of_even h0 ((hcond3_1 ⟨n + 1, hn⟩).mp h)) (iblk3 V c 0 ⟨n + 1, hn⟩) (iblk3 V c 1 ⟨n + 1, hn⟩) (iblk3 V c 2 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => not_odd_of_even h0 ((hcond3_1 ⟨n + 1, hn⟩).mp h)) (iblk3 V c 0 ⟨n + 1, hn⟩) (iblk3 V c 1 ⟨n + 1, hn⟩) (iblk3 V c 2 ⟨n + 1, hn⟩), sout3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) ((hcond3_0 ⟨n + 1, hn⟩).mpr h0) (fun h => not_odd_of_even h0 ((hcond3_1 ⟨n + 1, hn⟩).mp h)) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (odd_of_not_even h0)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (odd_of_not_even h0)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (odd_of_not_even h0)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2, sout3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) scM3_0 (Memref.isWhole_whole _) scM3_1 (Memref.isWhole_whole _) scM3_2 (Memref.isWhole_whole _) (fun h => h0 ((hcond3_0 ⟨n + 1, hn⟩).mp h)) ((hcond3_1 ⟨n + 1, hn⟩).mpr (odd_of_not_even h0)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2.1 (outsAt3 c n (Nat.lt_of_succ_lt hn)).2.2.2)

/-- At an even point: a first key tile's contents. -/
theorem outsAt3_A (c : Dev nD) (t : Fin cfg3.N) (h0 : t.val % 2 = 0) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => not_odd_of_even h0 ((hcond3_1 t).mp h)) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => not_odd_of_even h0 ((hcond3_1 t).mp h)) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => not_odd_of_even h0 ((hcond3_1 t).mp h)) (iblk3 V c 0 t) (iblk3 V c 1 t) (iblk3 V c 2 t), sout3_A_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) ((hcond3_0 t).mpr h0) (fun h => not_odd_of_even h0 ((hcond3_1 t).mp h)) (iblk3 V c 0 t) (iblk3 V c 1 t) (iblk3 V c 2 t)) := by
  obtain ⟨n, hn⟩ := t
  cases n with
  | zero => exact rfl
  | succ n => exact (dif_pos h0).trans rfl

/-- At an odd point: a last key tile's contents, over what the point before left in the scratch buffers. -/
theorem outsAt3_B (c : Dev nD) (t : Fin cfg3.N) (h0 : ¬t.val % 2 = 0) :
    outsAt3 V c t.val t.isLt = (out3_B_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr (odd_of_not_even h0)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr (odd_of_not_even h0)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr (odd_of_not_even h0)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2, sout3_B_2 c (grid3.coords t) (ms3_0 t) (hs3_0 t) (ms3_1 t) (hs3_1 t) (ms3_2 t) (hs3_2 t) (ms3_3 t) (hs3_3 t) scM3_0 (Memref.isWhole_whole _) scM3_1 (Memref.isWhole_whole _) scM3_2 (Memref.isWhole_whole _) (fun h => h0 ((hcond3_0 t).mp h)) ((hcond3_1 t).mpr (odd_of_not_even h0)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2.1 (outsAt3 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-! ## The invariant -/

/-- Before position `n`: at the start every scratch buffer holds anything; afterwards each holds what the point before
    left in it. Beside them, untouched: every other scoped buffer and the generator register. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2))
      ∗ restBut3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare ((outsAt3 V c n hn).2.1) ∗ owns (c : Thread nD τ) scM3_1 fullShare ((outsAt3 V c n hn).2.2.1) ∗ owns (c : Thread nD τ) scM3_2 fullShare ((outsAt3 V c n hn).2.2.2))
      ∗ restBut3 (F := F) c) ∗ (∃ r, prngReg c r)) := rfl

theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.1) ∗ owns (c : Thread nD τ) scM3_1 fullShare ((outsAt3 V c (n - 1) (by omega)).2.2.1) ∗ owns (c : Thread nD τ) scM3_2 fullShare ((outsAt3 V c (n - 1) (by omega)).2.2.2))
      ∗ restBut3 (F := F) c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

theorem leaves3_0 (c : Dev nD) (t : Fin cfg3.N) : (dat3 V c).leavesExact 0 t = owns (c : Thread nD τ) (ms3_0 t) fullShare (iblk3 V c 0 t) := by
  unfold Dat.leavesExact; rw [liveAt3_0 t, after3_0]
theorem leaves3_1 (c : Dev nD) (t : Fin cfg3.N) : (dat3 V c).leavesExact 1 t = owns (c : Thread nD τ) (ms3_1 t) fullShare (iblk3 V c 1 t) := by
  unfold Dat.leavesExact; rw [liveAt3_1 t, after3_1]
theorem leaves3_2 (c : Dev nD) (t : Fin cfg3.N) : (dat3 V c).leavesExact 2 t = owns (c : Thread nD τ) (ms3_2 t) fullShare (iblk3 V c 2 t) := by
  unfold Dat.leavesExact; rw [liveAt3_2 t, after3_2]

set_option maxHeartbeats 4800000 in
/-- The body at any point: the inputs' memrefs hold their blocks; an even point is a first key tile, an odd point a last
    one; the invariant hands the body the scratch buffers at what the point before left (at anything at the very first
    point) and takes them back at this point's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2]
  have hN : t.val < 64 := lt_of_lt_of_eq t.isLt (show cfg3.N = 64 from N_3)
  by_cases h0 : t.val % 2 = 0
  · have hc0 : cond3_0 (grid3.coords t) := (hcond3_0 t).mpr h0
    have hc1 : ¬cond3_1 (grid3.coords t) := fun h => not_odd_of_even h0 ((hcond3_1 t).mp h)
    rw [Dat.leavesExact_idle (dat3 V c) 3 t (idleAt3_3_A t hc0 hc1) (noFlush3_3_A t hc0 hc1)]
    rw [outsAt3_A V c t h0]
    unfold sout3_A_0 sout3_A_1 sout3_A_2; (try dsimp only)
    by_cases hz : t.val = 0
    · rw [PhiS3_castSucc V c t, PhiS3_zero V c _ _ hz, PhiA3_eq]
      iintro ⟨⟨⟨⟨HS0, HS1, HS2⟩, Hrest⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ hc0 hc1 (iblk3 V c 0 t) (iblk3 V c 1 t) (iblk3 V c 2 t)).2.2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨⟨HS0, HS1, HS2⟩, Hrest⟩, Hg⟩, Ho, ⟨%d0, H0⟩, ⟨%d1, H1⟩, ⟨%d2, H2⟩, ⟨%d3, H3⟩⟩
      iapply ((kernelRun3_A c (grid3.coords t) _ _ _ _ _ _ _ _ _ _ _ _ _ _ hc0 hc1 (iblk3 V c 0 t) (iblk3 V c 1 t) (iblk3 V c 2 t)).2.2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2 Hrest Hg]
      · isplitl [HS0 HS1 HS2 Hrest]
        · isplitl [HS0 HS1 HS2]
          · isplitl [HS0]
            · unfold owns; iexists _; isplitr
              swap; · iexact HS0
              ipureintro; exact View.read_writes_of_cover _ _ _ _ _ (scover3_A_0 c _ _ _ _ _ _ _ _ _ _ _ _ _ _ _ _ _ _ _ _)
            isplitl [HS1]
            · unfold owns; iexists _; isplitr
              swap; · iexact HS1
              ipureintro; exact View.read_writes_of_cover _ _ _ _ _ (scover3_A_1 c _ _ _ _ _ _ _ _ _ _ _ _ _ _ _ _ _ _ _ _)
            unfold owns; iexists _; isplitr
            swap; · iexact HS2
            ipureintro; exact View.read_writes_of_cover _ _ _ _ _ (scover3_A_2 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hc0 : ¬cond3_0 (grid3.coords t) := fun h => h0 ((hcond3_0 t).mp h)
    have hc1 : cond3_1 (grid3.coords t) := (hcond3_1 t).mpr (odd_of_not_even h0)
    have hz : t.val ≠ 0 := fun e => h0 (by rw [e])
    rw [show (dat3 V c).leavesExact 3 t = owns (c : Thread nD τ) (ms3_3 t) fullShare ((dat3 V c).after 3 t) from by
      unfold Dat.leavesExact; rw [liveAt3_3_B t hc0 hc1], after3_3]
    rw [outsAt3_B V c t h0]
    unfold out3_B_3 sout3_B_0 sout3_B_1 sout3_B_2; (try dsimp only)
    rw [PhiS3_castSucc V c t, PhiS3_pos V c _ _ hz]
    iintro ⟨⟨⟨⟨HS0, HS1, HS2⟩, Hrest⟩, Hg⟩, Ho, ⟨%d0, H0⟩, ⟨%d1, H1⟩, ⟨%d2, H2⟩, ⟨%d3, H3⟩⟩
    iapply ((kernelRun3_B c (grid3.coords t) _ _ _ _ _ _ _ _ _ _ _ _ _ _ hc0 hc1 (iblk3 V c 0 t) (iblk3 V c 1 t) (iblk3 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%es0, HS0⟩, ⟨%es1, HS1⟩, ⟨%es2, HS2⟩⟩
    isplitl [HS0 HS1 HS2 Hrest Hg]
    · isplitl [HS0 HS1 HS2 Hrest]
      · isplitl [HS0 HS1 HS2]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _)
          isplitl [HS1]
          · unfold owns; iexists _; isplitr
            swap; · iexact HS1
            ipureintro; exact View.read_writes_of_cover _ _ _ _ _ (scover3_B_1 c _ _ _ _ _ _ _ _ _ _ _ _ _ _ _ _ _ _ _ _ _ _ _)
          unfold owns; iexists _; isplitr
          swap; · iexact HS2
          ipureintro; exact View.read_writes_of_cover _ _ _ _ _ (scover3_B_2 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_B_3 c _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is entered with is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the scratch buffers' named contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 64 := N_3; omega), PhiA3_eq]
  iintro ⟨⟨⟨HS0, HS1, HS2⟩, Hrest⟩, Hg⟩
  isplitl [HS0 HS1 HS2 Hrest]
  · isplitl [HS0 HS1 HS2]
    · isplitl [HS0]; · iexists _; iexact HS0
      isplitl [HS1]; · iexists _; iexact HS1
      iexists _; iexact HS2
    iexact Hrest
  iexact Hg

end Region3

end Cert.Kernel.Hand

end
-- ==== Proof.WRun.lean ====
/-
  The whole program as one run: six stretches of host operations around five pipelined regions. The buffer contents at
  each boundary are a fold from the launch memory: a host stretch applies its operations, a region replaces its arrays by
  what its write-backs leave and keeps every other buffer. Each region is entered from "every unscoped buffer at the
  boundary's contents, the generator register at some state, nothing owed" and left in the same shape at the next
  boundary's contents; the attention region's invariant additionally names its three scratch buffers between points.
  The run ends with every unscoped buffer at the last boundary's contents; the arguments, which no stretch writes and no
  region stages as an output, read back as launched.
-/
import proofs.«157797_j54116587930174_2_alg».proof.Proof.WLinear0
import proofs.«157797_j54116587930174_2_alg».proof.Proof.WLinear1
import proofs.«157797_j54116587930174_2_alg».proof.Proof.WLinear2
import proofs.«157797_j54116587930174_2_alg».proof.Proof.WLinear4
import proofs.«157797_j54116587930174_2_alg».proof.Proof.WAttn
import proofs.«157797_j54116587930174_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)

/-- After host stretch 0 (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
theorem W1_of (c : Dev nD) (r : Ref sig .tc) (h : r ∉ hostOps0_W) : W1 m ρ c r = W0 m ρ c r :=
  StableHlo.after_of_writes_sub hostOps0 _ hostOps0_writes h

/-- After host stretch 1 (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
theorem W3_of (c : Dev nD) (r : Ref sig .tc) (h : r ∉ hostOps1_W) : W3 m ρ c r = W2 m ρ c r :=
  StableHlo.after_of_writes_sub hostOps1 _ hostOps1_writes h

/-- After host stretch 2 (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
theorem W5_of (c : Dev nD) (r : Ref sig .tc) (h : r ∉ hostOps2_W) : W5 m ρ c r = W4 m ρ c r :=
  StableHlo.after_of_writes_sub hostOps2 _ hostOps2_writes h

/-- After host stretch 3 (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
theorem W7_of (c : Dev nD) (r : Ref sig .tc) (h : r ∉ hostOps3_W) : W7 m ρ c r = W6 m ρ c r :=
  StableHlo.after_of_writes_sub hostOps3 _ hostOps3_writes h

/-- After host stretch 4 (region 4's entry). -/
abbrev W9 : Dev nD → Valuation τ sig (Elt F) := fun c => StableHlo.after hostOps4 (W8 m ρ c)
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
theorem W9_of (c : Dev nD) (r : Ref sig .tc) (h : r ∉ hostOps4_W) : W9 m ρ c r = W8 m ρ c r :=
  StableHlo.after_of_writes_sub hostOps4 _ hostOps4_writes h

/-- After the last host stretch: what the program returns with. -/
abbrev W11 : Dev nD → Valuation τ sig (Elt F) := fun c => StableHlo.after hostOps5 (W10 m ρ c)
theorem W11_of (c : Dev nD) (r : Ref sig .tc) (h : r ∉ hostOps5_W) : W11 m ρ c r = W10 m ρ c r :=
  StableHlo.after_of_writes_sub hostOps5 _ hostOps5_writes h

/-- A buffer that no host stretch writes and no region stages reaches the end as launched. -/
theorem W11_keep (c : Dev nD) (b : Ref sig .tc)
    (h0 : b ∉ hostOps0_W) (h1 : b ∉ hostOps1_W) (h2 : b ∉ hostOps2_W) (h3 : b ∉ hostOps3_W) (h4 : b ∉ hostOps4_W) (h5 : b ∉ hostOps5_W)
    (a0 : ∀ w, Pipeline.arrRef spec0 w ≠ b) (a1 : ∀ w, Pipeline.arrRef spec1 w ≠ b) (a2 : ∀ w, Pipeline.arrRef spec2 w ≠ b)
    (a3 : ∀ w, Pipeline.arrRef spec3 w ≠ b) (a4 : ∀ w, Pipeline.arrRef spec4 w ≠ b) :
    W11 m ρ c b = m ((c : Thread nD τ).loc b) :=
  (W11_of m ρ c b h5).trans <| (W10_of_ne m ρ c b a4).trans <| (W9_of m ρ c b h4).trans <| (W8_of_ne m ρ c b a3).trans <|
    (W7_of m ρ c b h3).trans <| (W6_of_ne m ρ c b a2).trans <| (W5_of m ρ c b h2).trans <| (W4_of_ne m ρ c b a1).trans <|
    (W3_of m ρ c b h1).trans <| (W2_of_ne m ρ c b a0).trans <| (W1_of m ρ c b h0).trans rfl
theorem W11_main_arg0 (c : Dev nD) : W11 m ρ c main_arg0 = m ((c : Thread nD τ).loc main_arg0) :=
  W11_keep m ρ c main_arg0 (by decide) (by decide) (by decide) (by decide) (by decide) (by decide) (by decide) (by decide) (by decide) (by decide) (by decide)
theorem W11_main_arg1 (c : Dev nD) : W11 m ρ c main_arg1 = m ((c : Thread nD τ).loc main_arg1) :=
  W11_keep m ρ c main_arg1 (by decide) (by decide) (by decide) (by decide) (by decide) (by decide) (by decide) (by decide) (by decide) (by decide) (by decide)
theorem W11_main_arg2 (c : Dev nD) : W11 m ρ c main_arg2 = m ((c : Thread nD τ).loc main_arg2) :=
  W11_keep m ρ c main_arg2 (by decide) (by decide) (by decide) (by decide) (by decide) (by decide) (by decide) (by decide) (by decide) (by decide) (by decide)
theorem W11_main_arg3 (c : Dev nD) : W11 m ρ c main_arg3 = m ((c : Thread nD τ).loc main_arg3) :=
  W11_keep m ρ c main_arg3 (by decide) (by decide) (by decide) (by decide) (by decide) (by decide) (by decide) (by decide) (by decide) (by decide) (by decide)
theorem W11_main_arg4 (c : Dev nD) : W11 m ρ c main_arg4 = m ((c : Thread nD τ).loc main_arg4) :=
  W11_keep m ρ c main_arg4 (by decide) (by decide) (by decide) (by decide) (by decide) (by decide) (by decide) (by decide) (by decide) (by decide) (by decide)
theorem W11_main_arg5 (c : Dev nD) : W11 m ρ c main_arg5 = m ((c : Thread nD τ).loc main_arg5) :=
  W11_keep m ρ c main_arg5 (by decide) (by decide) (by decide) (by decide) (by decide) (by decide) (by decide) (by decide) (by decide) (by decide) (by decide)
theorem W11_main_arg6 (c : Dev nD) : W11 m ρ c main_arg6 = m ((c : Thread nD τ).loc main_arg6) :=
  W11_keep m ρ c main_arg6 (by decide) (by decide) (by decide) (by decide) (by decide) (by decide) (by decide) (by decide) (by decide) (by decide) (by decide)
theorem W11_main_arg7 (c : Dev nD) : W11 m ρ c main_arg7 = m ((c : Thread nD τ).loc main_arg7) :=
  W11_keep m ρ c main_arg7 (by decide) (by decide) (by decide) (by decide) (by decide) (by decide) (by decide) (by decide) (by decide) (by decide) (by decide)
theorem W11_main_arg8 (c : Dev nD) : W11 m ρ c main_arg8 = m ((c : Thread nD τ).loc main_arg8) :=
  W11_keep m ρ c main_arg8 (by decide) (by decide) (by decide) (by decide) (by decide) (by decide) (by decide) (by decide) (by decide) (by decide) (by decide)
theorem W11_main_arg9 (c : Dev nD) : W11 m ρ c main_arg9 = m ((c : Thread nD τ).loc main_arg9) :=
  W11_keep m ρ c main_arg9 (by decide) (by decide) (by decide) (by decide) (by decide) (by decide) (by decide) (by decide) (by decide) (by decide) (by decide)
theorem W11_main_arg10 (c : Dev nD) : W11 m ρ c main_arg10 = m ((c : Thread nD τ).loc main_arg10) :=
  W11_keep m ρ c main_arg10 (by decide) (by decide) (by decide) (by decide) (by decide) (by decide) (by decide) (by decide) (by decide) (by decide) (by decide)

/-! ## The proof data family and the thread state -/

abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = (dat3 (V7 m ρ) c).Φ (Fin.last cfg3.N) from rfl]
    have h := hout3 (V7 m ρ) c
    unfold Pipeline.ΦA at h
    iintro Hphi
    ihave H := h $$ Hphi
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W9`, left at `W10`. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]

theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => (show iprop(StableHlo.held (c : Thread nD τ) (Pipeline.ucRefs τ sig) (W11 m ρ c) ∗ R c)
            ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME, off the run: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c),
     (h c _ (mem_uc main_arg5 (by decide))).trans (W11_main_arg5 m ρ c),
     (h c _ (mem_uc main_arg6 (by decide))).trans (W11_main_arg6 m ρ c),
     (h c _ (mem_uc main_arg7 (by decide))).trans (W11_main_arg7 m ρ c),
     (h c _ (mem_uc main_arg8 (by decide))).trans (W11_main_arg8 m ρ c),
     (h c _ (mem_uc main_arg9 (by decide))).trans (W11_main_arg9 m ρ c),
     (h c _ (mem_uc main_arg10 (by decide))).trans (W11_main_arg10 m ρ c)⟩)
    (run_all m ρ)

end Cert.Kernel.Hand

end
-- ==== Proof.LinVal.lean ====
/-
  A linear layer on two-dimensional arrays, entry by entry, and the arithmetic of one block of it: at the ideal values the
  body's matrix product into a zero accumulator is the plain sum over the contracted axis, the change of float format is
  the identity, and the bias row is added to every row of the block.
-/
import proofs.«157797_j54116587930174_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Entry (r, e) of `x · wᵀ + bias`. -/
def lin2 (x : S2048x2048.Idx → EReal) (w : S2048x2048.Idx → EReal) (b : S1x2048.Idx → EReal) : S2048x2048.Idx → EReal :=
  fun i => (∑ k : Fin 2048, x (ix2 (n0 := 2048) (n1 := 2048) ⟨(i 0).val, (i 0).isLt⟩ k) * w (ix2 (n0 := 2048) (n1 := 2048) ⟨(i 1).val, (i 1).isLt⟩ k))
    + b (ix2 (n0 := 1) (n1 := 2048) 0 ⟨(i 1).val, (i 1).isLt⟩)

/-- A block of the linear layer, read through embeddings of the blocks into their arrays: if the input block's row `p`
    and the weight's row `q` sit where entry `j` of the output says, the block's entry is the layer's entry `j`. -/
theorem lin_block (Xa Wa : S2048x2048.Idx → EReal) (Ba : S1x2048.Idx → EReal)
    (em0 : S512x2048.Idx → S2048x2048.Idx) (em1 : S2048x2048.Idx → S2048x2048.Idx) (em2 : S1x2048.Idx → S1x2048.Idx)
    (j : S2048x2048.Idx) (p : Fin 512) (q : Fin 2048)
    (h0 : ∀ k : Fin 2048, em0 (ix2 p k) = ix2 (n0 := 2048) (n1 := 2048) ⟨(j 0).val, (j 0).isLt⟩ k)
    (h1 : ∀ k : Fin 2048, em1 (ix2 q k) = ix2 (n0 := 2048) (n1 := 2048) ⟨(j 1).val, (j 1).isLt⟩ k)
    (h2 : em2 (ix2 0 q) = ix2 (n0 := 1) (n1 := 2048) 0 ⟨(j 1).val, (j 1).isLt⟩) :
    (∑ k : Fin 2048, Xa (em0 (ix2 p k)) * Wa (em1 (ix2 q k))) + Ba (em2 (ix2 0 q)) = lin2 Xa Wa Ba j := by
  unfold lin2; simp only [h0, h1, h2]

theorem hz2 : (![0, 0] : Fin 2 → Nat) = fun _ => 0 := funext fun a => by fin_cases a <;> rfl

/-- The matrix product's operand indices: the left operand is read at (row of the output, contracted index), -/
theorem lin_lhs0 (i : S512x2048.Idx) (qq : dot_S512x2048_S2048x2048_S512x2048_1_1_0_0_n_n.contr.Idx) : (dot_S512x2048_S2048x2048_S512x2048_1_1_0_0_n_n.lhsIdx i qq 0).val = (i 0).val := by
  unfold DotDims.lhsIdx
  rw [dif_neg (show ¬(0 : Fin S512x2048.rank) ∈ dot_S512x2048_S2048x2048_S512x2048_1_1_0_0_n_n.lhsBatch by decide), dif_pos (show (0 : Fin S512x2048.rank) ∈ dot_S512x2048_S2048x2048_S512x2048_1_1_0_0_n_n.lhsNonContracting by decide)]
  rfl
theorem lin_lhs1 (i : S512x2048.Idx) (qq : dot_S512x2048_S2048x2048_S512x2048_1_1_0_0_n_n.contr.Idx) : (dot_S512x2048_S2048x2048_S512x2048_1_1_0_0_n_n.lhsIdx i qq 1).val = (qq ⟨0, by decide⟩).val :=
  dot_S512x2048_S2048x2048_S512x2048_1_1_0_0_n_n.lhsIdx_val_of_single rfl i qq
/-- and the right operand at (column of the output, contracted index): the weight is used transposed. -/
theorem lin_rhs0 (i : S512x2048.Idx) (qq : dot_S512x2048_S2048x2048_S512x2048_1_1_0_0_n_n.contr.Idx) : (dot_S512x2048_S2048x2048_S512x2048_1_1_0_0_n_n.rhsIdx i qq 0).val = (i 1).val := by
  unfold DotDims.rhsIdx
  rw [dif_neg (show ¬(0 : Fin S2048x2048.rank) ∈ dot_S512x2048_S2048x2048_S512x2048_1_1_0_0_n_n.rhsBatch by decide), dif_pos (show (0 : Fin S2048x2048.rank) ∈ dot_S512x2048_S2048x2048_S512x2048_1_1_0_0_n_n.rhsNonContracting by decide)]
  rfl
theorem lin_rhs1 (i : S512x2048.Idx) (qq : dot_S512x2048_S2048x2048_S512x2048_1_1_0_0_n_n.contr.Idx) : (dot_S512x2048_S2048x2048_S512x2048_1_1_0_0_n_n.rhsIdx i qq 1).val = (qq ⟨0, by decide⟩).val :=
  dot_S512x2048_S2048x2048_S512x2048_1_1_0_0_n_n.rhsIdx_val_of_single rfl i qq

/-- One block of call 0: row `p` of the block against row `q` of the weight, plus the bias at `q`. -/
theorem pay0_apply (x0 : Vec Ideal S512x2048 .bf16) (x1 : Vec Ideal S2048x2048 .bf16) (x2 : Vec Ideal S1x2048 .f32) (p : Fin 512) (q : Fin 2048) :
    k0_pay1 (F := Ideal) x0 x1 x2 (ix2 p q) = (∑ k : Fin 2048, x0 (ix2 p k) * x1 (ix2 q k)) + x2 (ix2 0 q) := by
  unfold k0_pay1
  simp only [shapeCast_self]
  rw [addf_apply]
  congr 1
  · simp only [matmul]
    rw [Ideal.matmul_constant_zero_apply, ← Equiv.sum_comp (contrEquiv1 dot_S512x2048_S2048x2048_S512x2048_1_1_0_0_n_n 2048 rfl rfl).symm]
    refine Finset.sum_congr rfl fun k _ => ?_
    have hk := contrEquiv1_symm_val dot_S512x2048_S2048x2048_S512x2048_1_1_0_0_n_n 2048 rfl rfl k
    have el : dot_S512x2048_S2048x2048_S512x2048_1_1_0_0_n_n.lhsIdx (ix2 p q) ((contrEquiv1 dot_S512x2048_S2048x2048_S512x2048_1_1_0_0_n_n 2048 rfl rfl).symm k) = ix2 p k :=
      funext fun a => Fin.ext (by
        match a with
        | ⟨0, _⟩ => exact lin_lhs0 _ _
        | ⟨1, _⟩ => exact (lin_lhs1 _ _).trans hk)
    have er : dot_S512x2048_S2048x2048_S512x2048_1_1_0_0_n_n.rhsIdx (ix2 p q) ((contrEquiv1 dot_S512x2048_S2048x2048_S512x2048_1_1_0_0_n_n 2048 rfl rfl).symm k) = ix2 q k :=
      funext fun a => Fin.ext (by
        match a with
        | ⟨0, _⟩ => exact lin_rhs0 _ _
        | ⟨1, _⟩ => exact (lin_rhs1 _ _).trans hk)
    rw [el, er]
  · exact broadcastTo_apply x2 broadcasts_S1x2048_S512x2048 (ix2 p q) (ix2 0 q) (fun a => match a with
      | ⟨0, _⟩ => by show (0 : ℕ) = if (1 : ℕ) = 1 then 0 else _; rw [if_pos rfl]
      | ⟨1, _⟩ => by show q.val = if (2048 : ℕ) = 1 then 0 else q.val; rw [if_neg (by decide)])

/-- One block of call 1: row `p` of the block against row `q` of the weight, plus the bias at `q`. -/
theorem pay1_apply (x0 : Vec Ideal S512x2048 .bf16) (x1 : Vec Ideal S2048x2048 .bf16) (x2 : Vec Ideal S1x2048 .f32) (p : Fin 512) (q : Fin 2048) :
    k1_pay1 (F := Ideal) x0 x1 x2 (ix2 p q) = (∑ k : Fin 2048, x0 (ix2 p k) * x1 (ix2 q k)) + x2 (ix2 0 q) := by
  unfold k1_pay1
  simp only [shapeCast_self]
  rw [addf_apply]
  congr 1
  · simp only [matmul]
    rw [Ideal.matmul_constant_zero_apply, ← Equiv.sum_comp (contrEquiv1 dot_S512x2048_S2048x2048_S512x2048_1_1_0_0_n_n 2048 rfl rfl).symm]
    refine Finset.sum_congr rfl fun k _ => ?_
    have hk := contrEquiv1_symm_val dot_S512x2048_S2048x2048_S512x2048_1_1_0_0_n_n 2048 rfl rfl k
    have el : dot_S512x2048_S2048x2048_S512x2048_1_1_0_0_n_n.lhsIdx (ix2 p q) ((contrEquiv1 dot_S512x2048_S2048x2048_S512x2048_1_1_0_0_n_n 2048 rfl rfl).symm k) = ix2 p k :=
      funext fun a => Fin.ext (by
        match a with
        | ⟨0, _⟩ => exact lin_lhs0 _ _
        | ⟨1, _⟩ => exact (lin_lhs1 _ _).trans hk)
    have er : dot_S512x2048_S2048x2048_S512x2048_1_1_0_0_n_n.rhsIdx (ix2 p q) ((contrEquiv1 dot_S512x2048_S2048x2048_S512x2048_1_1_0_0_n_n 2048 rfl rfl).symm k) = ix2 q k :=
      funext fun a => Fin.ext (by
        match a with
        | ⟨0, _⟩ => exact lin_rhs0 _ _
        | ⟨1, _⟩ => exact (lin_rhs1 _ _).trans hk)
    rw [el, er]
  · exact broadcastTo_apply x2 broadcasts_S1x2048_S512x2048 (ix2 p q) (ix2 0 q) (fun a => match a with
      | ⟨0, _⟩ => by show (0 : ℕ) = if (1 : ℕ) = 1 then 0 else _; rw [if_pos rfl]
      | ⟨1, _⟩ => by show q.val = if (2048 : ℕ) = 1 then 0 else q.val; rw [if_neg (by decide)])

/-- One block of call 2: row `p` of the block against row `q` of the weight, plus the bias at `q`. -/
theorem pay2_apply (x0 : Vec Ideal S512x2048 .bf16) (x1 : Vec Ideal S2048x2048 .bf16) (x2 : Vec Ideal S1x2048 .f32) (p : Fin 512) (q : Fin 2048) :
    k2_pay1 (F := Ideal) x0 x1 x2 (ix2 p q) = (∑ k : Fin 2048, x0 (ix2 p k) * x1 (ix2 q k)) + x2 (ix2 0 q) := by
  unfold k2_pay1
  simp only [shapeCast_self]
  rw [addf_apply]
  congr 1
  · simp only [matmul]
    rw [Ideal.matmul_constant_zero_apply, ← Equiv.sum_comp (contrEquiv1 dot_S512x2048_S2048x2048_S512x2048_1_1_0_0_n_n 2048 rfl rfl).symm]
    refine Finset.sum_congr rfl fun k _ => ?_
    have hk := contrEquiv1_symm_val dot_S512x2048_S2048x2048_S512x2048_1_1_0_0_n_n 2048 rfl rfl k
    have el : dot_S512x2048_S2048x2048_S512x2048_1_1_0_0_n_n.lhsIdx (ix2 p q) ((contrEquiv1 dot_S512x2048_S2048x2048_S512x2048_1_1_0_0_n_n 2048 rfl rfl).symm k) = ix2 p k :=
      funext fun a => Fin.ext (by
        match a with
        | ⟨0, _⟩ => exact lin_lhs0 _ _
        | ⟨1, _⟩ => exact (lin_lhs1 _ _).trans hk)
    have er : dot_S512x2048_S2048x2048_S512x2048_1_1_0_0_n_n.rhsIdx (ix2 p q) ((contrEquiv1 dot_S512x2048_S2048x2048_S512x2048_1_1_0_0_n_n 2048 rfl rfl).symm k) = ix2 q k :=
      funext fun a => Fin.ext (by
        match a with
        | ⟨0, _⟩ => exact lin_rhs0 _ _
        | ⟨1, _⟩ => exact (lin_rhs1 _ _).trans hk)
    rw [el, er]
  · exact broadcastTo_apply x2 broadcasts_S1x2048_S512x2048 (ix2 p q) (ix2 0 q) (fun a => match a with
      | ⟨0, _⟩ => by show (0 : ℕ) = if (1 : ℕ) = 1 then 0 else _; rw [if_pos rfl]
      | ⟨1, _⟩ => by show q.val = if (2048 : ℕ) = 1 then 0 else q.val; rw [if_neg (by decide)])

/-- One block of call 4: row `p` of the block against row `q` of the weight, plus the bias at `q`. -/
theorem pay4_apply (x0 : Vec Ideal S512x2048 .bf16) (x1 : Vec Ideal S2048x2048 .bf16) (x2 : Vec Ideal S1x2048 .f32) (p : Fin 512) (q : Fin 2048) :
    k4_pay1 (F := Ideal) x0 x1 x2 (ix2 p q) = (∑ k : Fin 2048, x0 (ix2 p k) * x1 (ix2 q k)) + x2 (ix2 0 q) := by
  unfold k4_pay1
  simp only [shapeCast_self]
  rw [addf_apply]
  congr 1
  · simp only [matmul]
    rw [Ideal.matmul_constant_zero_apply, ← Equiv.sum_comp (contrEquiv1 dot_S512x2048_S2048x2048_S512x2048_1_1_0_0_n_n 2048 rfl rfl).symm]
    refine Finset.sum_congr rfl fun k _ => ?_
    have hk := contrEquiv1_symm_val dot_S512x2048_S2048x2048_S512x2048_1_1_0_0_n_n 2048 rfl rfl k
    have el : dot_S512x2048_S2048x2048_S512x2048_1_1_0_0_n_n.lhsIdx (ix2 p q) ((contrEquiv1 dot_S512x2048_S2048x2048_S512x2048_1_1_0_0_n_n 2048 rfl rfl).symm k) = ix2 p k :=
      funext fun a => Fin.ext (by
        match a with
        | ⟨0, _⟩ => exact lin_lhs0 _ _
        | ⟨1, _⟩ => exact (lin_lhs1 _ _).trans hk)
    have er : dot_S512x2048_S2048x2048_S512x2048_1_1_0_0_n_n.rhsIdx (ix2 p q) ((contrEquiv1 dot_S512x2048_S2048x2048_S512x2048_1_1_0_0_n_n 2048 rfl rfl).symm k) = ix2 q k :=
      funext fun a => Fin.ext (by
        match a with
        | ⟨0, _⟩ => exact lin_rhs0 _ _
        | ⟨1, _⟩ => exact (lin_rhs1 _ _).trans hk)
    rw [el, er]
  · exact broadcastTo_apply x2 broadcasts_S1x2048_S512x2048 (ix2 p q) (ix2 0 q) (fun a => match a with
      | ⟨0, _⟩ => by show (0 : ℕ) = if (1 : ℕ) = 1 then 0 else _; rw [if_pos rfl]
      | ⟨1, _⟩ => by show q.val = if (2048 : ℕ) = 1 then 0 else q.val; rw [if_neg (by decide)])

end Cert.KernelIdeal.Hand

end
-- ==== Proof.LinFinal0.lean ====
/-
  The array the linear projection of call 0 leaves: every block of 512 rows is written once, by the point of that block,
  so the whole array is `x · wᵀ + bias` of the arrays the region found.
-/
import proofs.«157797_j54116587930174_2_alg».proof.Proof.Linear0
import proofs.«157797_j54116587930174_2_alg».proof.Proof.LinVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

/-- The printed index maps, decided over the grid: the input and output blocks are row block `t`; the weight and the bias
    are one block each. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the linear layer of the arrays as the region finds them. -/
theorem flushed0_eq (c : Dev nD) (t : Fin cfg0.N) :
    (dat0 V c).flushed 3 t = ((cfg0.win 3).blk t).view.read (Elt Ideal) (lin2 (V c main_v1) (V c main_v2) (V c main_v6)) := by
  show (cfg0.win 3).cut (grid0.coords t) ((dat0 V c).after 3 t) = _
  rw [after0_3]
  unfold out0_3
  rw [View.canon_unit_zero hz2]
  simp only [View.ld_unit_zero (S := S512x2048) hz2, View.ld_unit_zero (S := S2048x2048) hz2, View.ld_unit_zero (S := S1x2048) hz2]
  obtain ⟨e0, e1, e2, e3, e4, e5, e6, e7⟩ := idx_facts0 t
  funext j
  obtain ⟨p, q, rfl⟩ : ∃ (p : Fin 512) (q : Fin 2048), j = ix2 p q := ⟨j 0, j 1, eq_ix2 j⟩
  show k0_pay1 (F := Ideal) (iblk0 V c 0 t) (iblk0 V c 1 t) (iblk0 V c 2 t) (ix2 p q)
    = lin2 (V c main_v1) (V c main_v2) (V c main_v6) (((cfg0.win 3).blk t).view.emb (ix2 p q))
  rw [pay0_apply]
  refine lin_block (V c main_v1) (V c main_v2) (V c main_v6) ((cfg0.win 0).blk t).view.emb ((cfg0.win 1).blk t).view.emb ((cfg0.win 2).blk t).view.emb
    (((cfg0.win 3).blk t).view.emb (ix2 p q)) p q (fun k => ?_) (fun k => ?_) ?_
  · funext a; apply Fin.ext
    match a with
    | ⟨0, _⟩ => show win0_0.index t (0 : Fin 2) * 512 + 1 * p.val = win0_3.index t (0 : Fin 2) * 512 + 1 * p.val; omega
    | ⟨1, _⟩ => show win0_0.index t (1 : Fin 2) * 2048 + 1 * k.val = k.val; omega
  · funext a; apply Fin.ext
    match a with
    | ⟨0, _⟩ => show win0_1.index t (0 : Fin 2) * 2048 + 1 * q.val = win0_3.index t (1 : Fin 2) * 2048 + 1 * q.val; omega
    | ⟨1, _⟩ => show win0_1.index t (1 : Fin 2) * 2048 + 1 * k.val = k.val; omega
  · funext a; apply Fin.ext
    match a with
    | ⟨0, _⟩ => show win0_2.index t (0 : Fin 2) * 1 + 1 * 0 = 0; omega
    | ⟨1, _⟩ => show win0_2.index t (1 : Fin 2) * 2048 + 1 * q.val = win0_3.index t (1 : Fin 2) * 2048 + 1 * q.val; omega

/-- An index of the array is in point `t`'s block iff each coordinate is in the block's range on its axis. -/
theorem mem_blk0 (t : Fin cfg0.N) (i : S2048x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v7).slice (win0_3.rect t)).set ↔ _
  rw [View.set_slice_whole, Rect.mem_set_unit]
  exact Iff.rfl

/-- Every row lies in the block of the point `row / 512`. -/
theorem cover0 (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  have ht : (i 0).val / 512 < cfg0.N := by show (i 0).val / 512 < grid0.N; rw [N_0]; omega
  refine ⟨⟨(i 0).val / 512, ht⟩, flush0_3 _, ?_⟩
  rw [mem_blk0]
  obtain ⟨e0, e1, e2, e3, e4, e5, e6, e7⟩ := idx_facts0 ⟨(i 0).val / 512, ht⟩
  have e6' : win0_3.index ⟨(i 0).val / 512, ht⟩ (0 : Fin 2) = (i 0).val / 512 := e6
  intro a
  match a with
  | ⟨0, _⟩ => show win0_3.index ⟨(i 0).val / 512, ht⟩ (0 : Fin 2) * 512 ≤ (i 0).val ∧ (i 0).val < win0_3.index ⟨(i 0).val / 512, ht⟩ (0 : Fin 2) * 512 + 512; omega
  | ⟨1, _⟩ => show win0_3.index ⟨(i 0).val / 512, ht⟩ (1 : Fin 2) * 2048 ≤ (i 1).val ∧ (i 1).val < win0_3.index ⟨(i 0).val / 512, ht⟩ (1 : Fin 2) * 2048 + 2048; omega

/-- THE ARRAY after the region. -/
theorem final0 (c : Dev nD) : (dat0 V c).arrAt 3 cfg0.N = lin2 (V c main_v1) (V c main_v2) (V c main_v6) :=
  (dat0 V c).arrAt_eq_of_cover 3 _ (fun t _ => flushed0_eq V c t) (cover0)

end

end Cert.KernelIdeal.Hand

end
-- ==== Proof.LinFinal1.lean ====
/-
  The array the linear projection of call 1 leaves: every block of 512 rows is written once, by the point of that block,
  so the whole array is `x · wᵀ + bias` of the arrays the region found.
-/
import proofs.«157797_j54116587930174_2_alg».proof.Proof.Linear1
import proofs.«157797_j54116587930174_2_alg».proof.Proof.LinVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

/-- The printed index maps, decided over the grid: the input and output blocks are row block `t`; the weight and the bias
    are one block each. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the linear layer of the arrays as the region finds them. -/
theorem flushed1_eq (c : Dev nD) (t : Fin cfg1.N) :
    (dat1 V c).flushed 3 t = ((cfg1.win 3).blk t).view.read (Elt Ideal) (lin2 (V c main_v1) (V c main_v3) (V c main_v8)) := by
  show (cfg1.win 3).cut (grid1.coords t) ((dat1 V c).after 3 t) = _
  rw [after1_3]
  unfold out1_3
  rw [View.canon_unit_zero hz2]
  simp only [View.ld_unit_zero (S := S512x2048) hz2, View.ld_unit_zero (S := S2048x2048) hz2, View.ld_unit_zero (S := S1x2048) hz2]
  obtain ⟨e0, e1, e2, e3, e4, e5, e6, e7⟩ := idx_facts1 t
  funext j
  obtain ⟨p, q, rfl⟩ : ∃ (p : Fin 512) (q : Fin 2048), j = ix2 p q := ⟨j 0, j 1, eq_ix2 j⟩
  show k1_pay1 (F := Ideal) (iblk1 V c 0 t) (iblk1 V c 1 t) (iblk1 V c 2 t) (ix2 p q)
    = lin2 (V c main_v1) (V c main_v3) (V c main_v8) (((cfg1.win 3).blk t).view.emb (ix2 p q))
  rw [pay1_apply]
  refine lin_block (V c main_v1) (V c main_v3) (V c main_v8) ((cfg1.win 0).blk t).view.emb ((cfg1.win 1).blk t).view.emb ((cfg1.win 2).blk t).view.emb
    (((cfg1.win 3).blk t).view.emb (ix2 p q)) p q (fun k => ?_) (fun k => ?_) ?_
  · funext a; apply Fin.ext
    match a with
    | ⟨0, _⟩ => show win1_0.index t (0 : Fin 2) * 512 + 1 * p.val = win1_3.index t (0 : Fin 2) * 512 + 1 * p.val; omega
    | ⟨1, _⟩ => show win1_0.index t (1 : Fin 2) * 2048 + 1 * k.val = k.val; omega
  · funext a; apply Fin.ext
    match a with
    | ⟨0, _⟩ => show win1_1.index t (0 : Fin 2) * 2048 + 1 * q.val = win1_3.index t (1 : Fin 2) * 2048 + 1 * q.val; omega
    | ⟨1, _⟩ => show win1_1.index t (1 : Fin 2) * 2048 + 1 * k.val = k.val; omega
  · funext a; apply Fin.ext
    match a with
    | ⟨0, _⟩ => show win1_2.index t (0 : Fin 2) * 1 + 1 * 0 = 0; omega
    | ⟨1, _⟩ => show win1_2.index t (1 : Fin 2) * 2048 + 1 * q.val = win1_3.index t (1 : Fin 2) * 2048 + 1 * q.val; omega

/-- An index of the array is in point `t`'s block iff each coordinate is in the block's range on its axis. -/
theorem mem_blk1 (t : Fin cfg1.N) (i : S2048x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v9).slice (win1_3.rect t)).set ↔ _
  rw [View.set_slice_whole, Rect.mem_set_unit]
  exact Iff.rfl

/-- Every row lies in the block of the point `row / 512`. -/
theorem cover1 (i : S2048x2048.Idx) : ∃ t : Fin cfg1.N, (cfg1.win 3).flush t = true ∧ i ∈ ((cfg1.win 3).blk t).view.set := by
  have hi0 : (i 0).val < 2048 := (i 0).isLt
  have hi1 : (i 1).val < 2048 := (i 1).isLt
  have ht : (i 0).val / 512 < cfg1.N := by show (i 0).val / 512 < grid1.N; rw [N_1]; omega
  refine ⟨⟨(i 0).val / 512, ht⟩, flush1_3 _, ?_⟩
  rw [mem_blk1]
  obtain ⟨e0, e1, e2, e3, e4, e5, e6, e7⟩ := idx_facts1 ⟨(i 0).val / 512, ht⟩
  have e6' : win1_3.index ⟨(i 0).val / 512, ht⟩ (0 : Fin 2) = (i 0).val / 512 := e6
  intro a
  match a with
  | ⟨0, _⟩ => show win1_3.index ⟨(i 0).val / 512, ht⟩ (0 : Fin 2) * 512 ≤ (i 0).val ∧ (i 0).val < win1_3.index ⟨(i 0).val / 512, ht⟩ (0 : Fin 2) * 512 + 512; omega
  | ⟨1, _⟩ => show win1_3.index ⟨(i 0).val / 512, ht⟩ (1 : Fin 2) * 2048 ≤ (i 1).val ∧ (i 1).val < win1_3.index ⟨(i 0).val / 512, ht⟩ (1 : Fin 2) * 2048 + 2048; omega

/-- THE ARRAY after the region. -/
theorem final1 (c : Dev nD) : (dat1 V c).arrAt 3 cfg1.N = lin2 (V c main_v1) (V c main_v3) (V c main_v8) :=
  (dat1 V c).arrAt_eq_of_cover 3 _ (fun t _ => flushed1_eq V c t) (cover1)

end

end Cert.KernelIdeal.Hand

end
-- ==== Proof.LinFinal2.lean ====
/-
  The array the linear projection of call 2 leaves: every block of 512 rows is written once, by the point of that block,
  so the whole array is `x · wᵀ + bias` of the arrays the region found.
-/
import proofs.«157797_j54116587930174_2_alg».proof.Proof.Linear2
import proofs.«157797_j54116587930174_2_alg».proof.Proof.LinVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

/-- The printed index maps, decided over the grid: the input and output blocks are row block `t`; the weight and the bias
    are one block each. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the linear layer of the arrays as the region finds them. -/
theorem flushed2_eq (c : Dev nD) (t : Fin cfg2.N) :
    (dat2 V c).flushed 3 t = ((cfg2.win 3).blk t).view.read (Elt Ideal) (lin2 (V c main_v1) (V c main_v4) (V c main_v10)) := by
  show (cfg2.win 3).cut (grid2.coords t) ((dat2 V c).after 3 t) = _
  rw [after2_3]
  unfold out2_3
  rw [View.canon_unit_zero hz2]
  simp only [View.ld_unit_zero (S := S512x2048) hz2, View.ld_unit_zero (S := S2048x2048) hz2, View.ld_unit_zero (S := S1x2048) hz2]
  obtain ⟨e0, e1, e2, e3, e4, e5, e6, e7⟩ := idx_facts2 t
  funext j
  obtain ⟨p, q, rfl⟩ : ∃ (p : Fin 512) (q : Fin 2048), j = ix2 p q := ⟨j 0, j 1, eq_ix2 j⟩
  show k2_pay1 (F := Ideal) (iblk2 V c 0 t) (iblk2 V c 1 t) (iblk2 V c 2 t) (ix2 p q)
    = lin2 (V c main_v1) (V c main_v4) (V c main_v10) (((cfg2.win 3).blk t).view.emb (ix2 p q))
  rw [pay2_apply]
  refine lin_block (V c main_v1) (V c main_v4) (V c main_v10) ((cfg2.win 0).blk t).view.emb ((cfg2.win 1).blk t).view.emb ((cfg2.win 2).blk t).view.emb
    (((cfg2.win 3).blk t).view.emb (ix2 p q)) p q (fun k => ?_) (fun k => ?_) ?_
  · funext a; apply Fin.ext
    match a with
    | ⟨0, _⟩ => show win2_0.index t (0 : Fin 2) * 512 + 1 * p.val = win2_3.index t (0 : Fin 2) * 512 + 1 * p.val; omega
    | ⟨1, _⟩ => show win2_0.index t (1 : Fin 2) * 2048 + 1 * k.val = k.val; omega
  · funext a; apply Fin.ext
    match a with
    | ⟨0, _⟩ => show win2_1.index t (0 : Fin 2) * 2048 + 1 * q.val = win2_3.index t (1 : Fin 2) * 2048 + 1 * q.val; omega
    | ⟨1, _⟩ => show win2_1.index t (1 : Fin 2) * 2048 + 1 * k.val = k.val; omega
  · funext a; apply Fin.ext
    match a with
    | ⟨0, _⟩ => show win2_2.index t (0 : Fin 2) * 1 + 1 * 0 = 0; omega
    | ⟨1, _⟩ => show win2_2.index t (1 : Fin 2) * 2048 + 1 * q.val = win2_3.index t (1 : Fin 2) * 2048 + 1 * q.val; omega

/-- An index of the array is in point `t`'s block iff each coordinate is in the block's range on its axis. -/
theorem mem_blk2 (t : Fin cfg2.N) (i : S2048x2048.Idx) :
    i ∈ ((cfg2.win 3).blk t).view.set ↔ ∀ a : Fin 2, win2_3.index t a * S512x2048.size a ≤ (i a).val ∧ (i a).val < win2_3.index t a * S512x2048.size a + S512x2048.size a := by
  show i ∈ ((View.whole main_v11).slice (win2_3.rect t)).set ↔ _
  rw [View.set_slice_whole, Rect.mem_set_unit]
  exact Iff.rfl

/-- Every row lies in the block of the point `row / 512`. -/
theorem cover2 (i : S2048x2048.Idx) : ∃ t : Fin cfg2.N, (cfg2.win 3).flush t = true ∧ i ∈ ((cfg2.win 3).blk t).view.set := by
  have hi0 : (i 0).val < 2048 := (i 0).isLt
  have hi1 : (i 1).val < 2048 := (i 1).isLt
  have ht : (i 0).val / 512 < cfg2.N := by show (i 0).val / 512 < grid2.N; rw [N_2]; omega
  refine ⟨⟨(i 0).val / 512, ht⟩, flush2_3 _, ?_⟩
  rw [mem_blk2]
  obtain ⟨e0, e1, e2, e3, e4, e5, e6, e7⟩ := idx_facts2 ⟨(i 0).val / 512, ht⟩
  have e6' : win2_3.index ⟨(i 0).val / 512, ht⟩ (0 : Fin 2) = (i 0).val / 512 := e6
  intro a
  match a with
  | ⟨0, _⟩ => show win2_3.index ⟨(i 0).val / 512, ht⟩ (0 : Fin 2) * 512 ≤ (i 0).val ∧ (i 0).val < win2_3.index ⟨(i 0).val / 512, ht⟩ (0 : Fin 2) * 512 + 512; omega
  | ⟨1, _⟩ => show win2_3.index ⟨(i 0).val / 512, ht⟩ (1 : Fin 2) * 2048 ≤ (i 1).val ∧ (i 1).val < win2_3.index ⟨(i 0).val / 512, ht⟩ (1 : Fin 2) * 2048 + 2048; omega

/-- THE ARRAY after the region. -/
theorem final2 (c : Dev nD) : (dat2 V c).arrAt 3 cfg2.N = lin2 (V c main_v1) (V c main_v4) (V c main_v10) :=
  (dat2 V c).arrAt_eq_of_cover 3 _ (fun t _ => flushed2_eq V c t) (cover2)

end

end Cert.KernelIdeal.Hand

end
-- ==== Proof.LinFinal4.lean ====
/-
  The array the linear projection of call 4 leaves: every block of 512 rows is written once, by the point of that block,
  so the whole array is `x · wᵀ + bias` of the arrays the region found.
-/
import proofs.«157797_j54116587930174_2_alg».proof.Proof.Linear4
import proofs.«157797_j54116587930174_2_alg».proof.Proof.LinVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

/-- The printed index maps, decided over the grid: the input and output blocks are row block `t`; the weight and the bias
    are one block each. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of the linear layer of the arrays as the region finds them. -/
theorem flushed4_eq (c : Dev nD) (t : Fin cfg4.N) :
    (dat4 V c).flushed 3 t = ((cfg4.win 3).blk t).view.read (Elt Ideal) (lin2 (V c main_v19) (V c main_v5) (V c main_v20)) := by
  show (cfg4.win 3).cut (grid4.coords t) ((dat4 V c).after 3 t) = _
  rw [after4_3]
  unfold out4_3
  rw [View.canon_unit_zero hz2]
  simp only [View.ld_unit_zero (S := S512x2048) hz2, View.ld_unit_zero (S := S2048x2048) hz2, View.ld_unit_zero (S := S1x2048) hz2]
  obtain ⟨e0, e1, e2, e3, e4, e5, e6, e7⟩ := idx_facts4 t
  funext j
  obtain ⟨p, q, rfl⟩ : ∃ (p : Fin 512) (q : Fin 2048), j = ix2 p q := ⟨j 0, j 1, eq_ix2 j⟩
  show k4_pay1 (F := Ideal) (iblk4 V c 0 t) (iblk4 V c 1 t) (iblk4 V c 2 t) (ix2 p q)
    = lin2 (V c main_v19) (V c main_v5) (V c main_v20) (((cfg4.win 3).blk t).view.emb (ix2 p q))
  rw [pay4_apply]
  refine lin_block (V c main_v19) (V c main_v5) (V c main_v20) ((cfg4.win 0).blk t).view.emb ((cfg4.win 1).blk t).view.emb ((cfg4.win 2).blk t).view.emb
    (((cfg4.win 3).blk t).view.emb (ix2 p q)) p q (fun k => ?_) (fun k => ?_) ?_
  · funext a; apply Fin.ext
    match a with
    | ⟨0, _⟩ => show win4_0.index t (0 : Fin 2) * 512 + 1 * p.val = win4_3.index t (0 : Fin 2) * 512 + 1 * p.val; omega
    | ⟨1, _⟩ => show win4_0.index t (1 : Fin 2) * 2048 + 1 * k.val = k.val; omega
  · funext a; apply Fin.ext
    match a with
    | ⟨0, _⟩ => show win4_1.index t (0 : Fin 2) * 2048 + 1 * q.val = win4_3.index t (1 : Fin 2) * 2048 + 1 * q.val; omega
    | ⟨1, _⟩ => show win4_1.index t (1 : Fin 2) * 2048 + 1 * k.val = k.val; omega
  · funext a; apply Fin.ext
    match a with
    | ⟨0, _⟩ => show win4_2.index t (0 : Fin 2) * 1 + 1 * 0 = 0; omega
    | ⟨1, _⟩ => show win4_2.index t (1 : Fin 2) * 2048 + 1 * q.val = win4_3.index t (1 : Fin 2) * 2048 + 1 * q.val; omega

/-- An index of the array is in point `t`'s block iff each coordinate is in the block's range on its axis. -/
theorem mem_blk4 (t : Fin cfg4.N) (i : S2048x2048.Idx) :
    i ∈ ((cfg4.win 3).blk t).view.set ↔ ∀ a : Fin 2, win4_3.index t a * S512x2048.size a ≤ (i a).val ∧ (i a).val < win4_3.index t a * S512x2048.size a + S512x2048.size a := by
  show i ∈ ((View.whole main_v21).slice (win4_3.rect t)).set ↔ _
  rw [View.set_slice_whole, Rect.mem_set_unit]
  exact Iff.rfl

/-- Every row lies in the block of the point `row / 512`. -/
theorem cover4 (i : S2048x2048.Idx) : ∃ t : Fin cfg4.N, (cfg4.win 3).flush t = true ∧ i ∈ ((cfg4.win 3).blk t).view.set := by
  have hi0 : (i 0).val < 2048 := (i 0).isLt
  have hi1 : (i 1).val < 2048 := (i 1).isLt
  have ht : (i 0).val / 512 < cfg4.N := by show (i 0).val / 512 < grid4.N; rw [N_4]; omega
  refine ⟨⟨(i 0).val / 512, ht⟩, flush4_3 _, ?_⟩
  rw [mem_blk4]
  obtain ⟨e0, e1, e2, e3, e4, e5, e6, e7⟩ := idx_facts4 ⟨(i 0).val / 512, ht⟩
  have e6' : win4_3.index ⟨(i 0).val / 512, ht⟩ (0 : Fin 2) = (i 0).val / 512 := e6
  intro a
  match a with
  | ⟨0, _⟩ => show win4_3.index ⟨(i 0).val / 512, ht⟩ (0 : Fin 2) * 512 ≤ (i 0).val ∧ (i 0).val < win4_3.index ⟨(i 0).val / 512, ht⟩ (0 : Fin 2) * 512 + 512; omega
  | ⟨1, _⟩ => show win4_3.index ⟨(i 0).val / 512, ht⟩ (1 : Fin 2) * 2048 ≤ (i 1).val ∧ (i 1).val < win4_3.index ⟨(i 0).val / 512, ht⟩ (1 : Fin 2) * 2048 + 2048; omega

/-- THE ARRAY after the region. -/
theorem final4 (c : Dev nD) : (dat4 V c).arrAt 3 cfg4.N = lin2 (V c main_v19) (V c main_v5) (V c main_v20) :=
  (dat4 V c).arrAt_eq_of_cover 3 _ (fun t _ => flushed4_eq V c t) (cover4)

end

end Cert.KernelIdeal.Hand

end
-- ==== Proof.AttnPieces.lean ====
/-
  What the attention body's stores leave, as compositions of its arithmetic. At a first key tile the three scratch buffers
  are reset and then updated, so each ends holding the update applied to the reset values (−∞ for the running maximum,
  zero for the running sum and the accumulator). At a last key tile the output block ends holding the updated accumulator
  divided by the updated running sum, the updates applied to what the scratch buffers held on entry.
-/
import proofs.«157797_j54116587930174_2_alg».proof.Proof.Attn
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz4 : (![0, 0, 0, 0] : Fin 4 → Nat) = fun _ => 0 := funext fun a => by fin_cases a <;> rfl
theorem hz2' : (![0, 0] : Fin 2 → Nat) = fun _ => 0 := funext fun a => by fin_cases a <;> rfl

/-- After a first key tile the running maximum is the tile's row maximum taken from −∞. -/
theorem sout3_A_0_eq (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) :
    sout3_A_0 c i arg3 harg3 arg4 harg4 arg5 harg5 arg6 harg6 arg7 harg7 arg8 harg8 arg9 harg9 hc0 hc1 x0 x1 x2 = k3_pay2 (k3_pay8 x0 x1 (k3_pay4 (F := F))) := by
  have hz2 := hz2'
  unfold sout3_A_0
  rw [View.read_writes_eq_canon _ _ _ (scover3_A_0 c i arg3 harg3 arg4 harg4 arg5 harg5 arg6 harg6 arg7 harg7 arg8 harg8 arg9 harg9 hc0 hc1 x0 x1 x2)]
  unfold kernelRun3_A
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1024x128) hz2, View.ld_unit_zero (S := S1024x1) hz2, View.ld_unit_zero (S := S1x1x2048x128) hz4,
    View.readCov_unit_zero arg7.view hz2, View.readCov_unit_zero arg8.view hz2, View.readCov_unit_zero arg9.view hz2]

/-- After a first key tile the running sum is the tile's sum of exponentials, the reset value rescaled away. -/
theorem sout3_A_1_eq (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) :
    sout3_A_1 c i arg3 harg3 arg4 harg4 arg5 harg5 arg6 harg6 arg7 harg7 arg8 harg8 arg9 harg9 hc0 hc1 x0 x1 x2 = k3_pay11 x0 x1 (k3_pay4 (F := F)) (k3_pay5 (F := F)) := by
  have hz2 := hz2'
  unfold sout3_A_1
  rw [View.read_writes_eq_canon _ _ _ (scover3_A_1 c i arg3 harg3 arg4 harg4 arg5 harg5 arg6 harg6 arg7 harg7 arg8 harg8 arg9 harg9 hc0 hc1 x0 x1 x2)]
  unfold kernelRun3_A
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1024x128) hz2, View.ld_unit_zero (S := S1024x1) hz2, View.ld_unit_zero (S := S1x1x2048x128) hz4,
    View.readCov_unit_zero arg7.view hz2, View.readCov_unit_zero arg8.view hz2, View.readCov_unit_zero arg9.view hz2]

/-- After a first key tile the accumulator is the tile's weighted sum of value rows. -/
theorem sout3_A_2_eq (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond3_0 i) (hc1 : ¬cond3_1 i)
    (x0 : Vec F S1024x128 .f32) (x1 : Vec F S1x1x2048x128 .f32) (x2 : Vec F S1x1x2048x128 .f32) :
    sout3_A_2 c i arg3 harg3 arg4 harg4 arg5 harg5 arg6 harg6 arg7 harg7 arg8 harg8 arg9 harg9 hc0 hc1 x0 x1 x2
      = k3_pay1 (k3_pay9 x0 x1 (k3_pay4 (F := F))) (k3_pay12 x2) (k3_pay13 x0 x1 (k3_pay4 (F := F))) (k3_pay6 (F := F)) := by
  have hz2 := hz2'
  unfold sout3_A_2
  rw [View.read_writes_eq_canon _ _ _ (scover3_A_2 c i arg3 harg3 arg4 harg4 arg5 harg5 arg6 harg6 arg7 harg7 arg8 harg8 arg9 harg9 hc0 hc1 x0 x1 x2)]
  unfold kernelRun3_A
  dsimp only
  sl_unfold_run_names
  rw [View.canon_cons_unit_zero hz2]
  simp only [View.readAt_eq_ld, harg3.read_unread, harg4.read_unread, harg5.read_unread, harg7.read_unread, harg8.read_unread, harg9.read_unread,
    View.ld_unit_zero (S := S1024x128) hz2, View.ld_unit_zero (S := S1024x1) hz2, View.ld_unit_zero (S := S1x1x2048x128) hz4,
    View.readCov_unit_zero arg7.view hz2, View.readCov_unit_zero arg8.view hz2, View.readCov_unit_zero arg9.view hz2]

/-- After a last key tile the output block is the updated accumulator divided by the updated running sum. -/
theorem out3_B_3_eq (c : Dev nD) (i : grid3.Coords) (arg3 : Memref sig .tc .vmem S1024x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond3_0 i) (hc1 : cond3_1 i)
    (x0 : Vec F S1024x128 .f32) (x1 : Vec F S1x1x2048x128 .f32) (x2 : Vec F S1x1x2048x128 .f32)
    (xs0 : Vec F S1024x1 .f32) (xs1 : Vec F S1024x1 .f32) (xs2 : Vec F S1024x128 .f32) :
    out3_B_3 c i arg3 harg3 arg4 harg4 arg5 harg5 arg6 harg6 arg7 harg7 arg8 harg8 arg9 harg9 hc0 hc1 x0 x1 x2 xs0 xs1 xs2
      = k3_pay3 (k3_pay1 (k3_pay9 x0 x1 xs0) (k3_pay12 x2) (k3_pay13 x0 x1 xs0) xs2) (k3_pay11 x0 x1 xs0 xs1) := by
  have hz2 := hz2'
  unfold out3_B_3
  rw [View.read_writes_eq_canon _ _ _ (cover3_B_3 c i arg3 harg3 arg4 harg4 arg5 harg5 arg6 harg6 arg7 harg7 arg8 harg8 arg9 harg9 hc0 hc1 x0 x1 x2 xs0 xs1 xs2)]
  unfold kernelRun3_B
  dsimp only
  sl_unfold_run_names
  rw [View.canon_unit_zero hz2]
  simp only [View.readAt_eq_ld, harg3.read_unread, harg4.read_unread, harg5.read_unread, harg7.read_unread, harg8.read_unread, harg9.read_unread,
    View.ld_unit_zero (S := S1024x128) hz2, View.ld_unit_zero (S := S1024x1) hz2, View.ld_unit_zero (S := S1x1x2048x128) hz4,
    View.readCov_unit_zero arg7.view hz2, View.readCov_unit_zero arg8.view hz2, View.readCov_unit_zero arg9.view hz2]

end Cert.KernelIdeal.Hand

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Spec.lean ====
/-
  What the program computes, entry by entry, over the extended reals: multi-head attention over a key/value cache.

  A linear layer sends row (b, s) of its input to `∑ₖ X b s k · w e k + bias e` in column e. The keys (and likewise the
  values) of head h are columns h·128 … h·128+127 of the key projection of this step's input, appended after 3072 cached
  rows. Query row s of head h scores key row k by the scaled inner product of their 128 lanes; the output of the head is
  the average of the value rows weighted by the softmax of the scores; the heads' outputs, side by side, go through the
  output layer.

  The weighted average is written in two arrangements. `softAvg` subtracts the maximum over all 4096 keys, exponentiates,
  normalises and then sums. `onlineAvg` goes through the keys in two tiles of 2048, keeping a running maximum, a running
  sum of exponentials and a running weighted sum, rescaling the latter two when the maximum moves, and divides at the end.
-/
import Idealize.ShloMosaic.PureOps.Ideal
import Idealize.ShloMosaic.Lib.ValueIdx

noncomputable section

namespace Cert.Spec

open Idealize.ShloMosaic Idealize.ShloMosaic.ValueIdx

abbrev SX : Shape := ⟨3, ![2, 1024, 2048]⟩
abbrev SW : Shape := ⟨2, ![2048, 2048]⟩
abbrev SB : Shape := ⟨1, ![2048]⟩
abbrev SP : Shape := ⟨4, ![2, 16, 3072, 128]⟩

/-- An array of activations by coordinates: batch, position, feature. -/
abbrev Act : Type := Fin 2 → Fin 1024 → Fin 2048 → EReal
/-- A key or value cache by coordinates: batch, head, row, lane. -/
abbrev Cache : Type := Fin 2 → Fin 16 → Fin 4096 → Fin 128 → EReal

/-- Lane `d` of head `h` as a feature column. -/
def col (h : Fin 16) (d : Fin 128) : Fin 2048 := ⟨h.val * 128 + d.val, by omega⟩
/-- The head and the lane of a feature column. -/
def hd (c : Fin 2048) : Fin 16 := ⟨c.val / 128, by omega⟩
def ln (c : Fin 2048) : Fin 128 := ⟨c.val % 128, Nat.mod_lt _ (by norm_num)⟩

theorem col_hd_ln (c : Fin 2048) : col (hd c) (ln c) = c := Fin.ext (by simp only [col, hd, ln]; omega)

/-- The input array by coordinates. -/
def actOf (x : SX.Idx → EReal) : Act := fun b s k => x (ix3 b s k)

/-- A linear layer at one entry. -/
def lin (X : Act) (w : SW.Idx → EReal) (bias : SB.Idx → EReal) : Act := fun b s e =>
  (∑ k : Fin 2048, X b s k * w (ix2 e k)) + bias (ix1 e)

/-- The cache after the step: 3072 cached rows, then this step's 1024 projected rows. -/
def cache (past : SP.Idx → EReal) (new : Act) : Cache := fun b h k d =>
  if hk : k.val < 3072 then past (ix4 b h ⟨k.val, hk⟩ d) else new b ⟨k.val - 3072, by omega⟩ (col h d)

/-- The score of query row `s` of head `h` against key row `k`. -/
def score (scale : EReal) (Q : Act) (Kc : Cache) (b : Fin 2) (h : Fin 16) (s : Fin 1024) (k : Fin 4096) : EReal :=
  (∑ e : Fin 128, Q b s (col h e) * Kc b h k e) * scale

/-- The softmax-weighted average of `v` under the scores `sc`: normalise, then sum. -/
def softAvg (sc v : Fin 4096 → EReal) : EReal :=
  ∑ k, Ideal.div (Ideal.exp (sc k - Finset.univ.fold max ⊥ sc)) (∑ j, Ideal.exp (sc j - Finset.univ.fold max ⊥ sc)) * v k

/-- Row `k` of tile `j`. -/
def tileIdx (j : Fin 2) (k : Fin 2048) : Fin 4096 := ⟨j.val * 2048 + k.val, by omega⟩

/-- The running maximum after the first tile, and after the second. -/
def m1 (sc : Fin 4096 → EReal) : EReal := max ⊥ (Finset.univ.fold max ⊥ fun k : Fin 2048 => sc (tileIdx 0 k))
def m2 (sc : Fin 4096 → EReal) : EReal := max (m1 sc) (Finset.univ.fold max ⊥ fun k : Fin 2048 => sc (tileIdx 1 k))
/-- The running sum of exponentials after the first tile, and after the second. -/
def l1 (sc : Fin 4096 → EReal) : EReal := Ideal.exp (⊥ - m1 sc) * 0 + ∑ k : Fin 2048, Ideal.exp (sc (tileIdx 0 k) - m1 sc)
def l2 (sc : Fin 4096 → EReal) : EReal := Ideal.exp (m1 sc - m2 sc) * l1 sc + ∑ k : Fin 2048, Ideal.exp (sc (tileIdx 1 k) - m2 sc)
/-- The running weighted sum after the first tile, and after the second. -/
def acc1 (sc v : Fin 4096 → EReal) : EReal :=
  Ideal.exp (⊥ - m1 sc) * 0 + ∑ k : Fin 2048, Ideal.exp (sc (tileIdx 0 k) - m1 sc) * v (tileIdx 0 k)
def acc2 (sc v : Fin 4096 → EReal) : EReal :=
  Ideal.exp (m1 sc - m2 sc) * acc1 sc v + ∑ k : Fin 2048, Ideal.exp (sc (tileIdx 1 k) - m2 sc) * v (tileIdx 1 k)

/-- The same average, accumulated over two tiles of keys and divided at the end. -/
def onlineAvg (sc v : Fin 4096 → EReal) : EReal := Ideal.div (acc2 sc v) (l2 sc)

/-- The heads' outputs side by side, for a given arrangement `avg` of the weighted average. -/
def heads (avg : (Fin 4096 → EReal) → (Fin 4096 → EReal) → EReal) (scale : EReal) (Q : Act) (Kc Vc : Cache) : Act := fun b s c =>
  avg (score scale Q Kc b (hd c) s) (fun k => Vc b (hd c) k (ln c))

/-- The program's first result. -/
def out (avg : (Fin 4096 → EReal) → (Fin 4096 → EReal) → EReal) (scale : EReal) (x : SX.Idx → EReal) (pk pv : SP.Idx → EReal)
    (wq : SW.Idx → EReal) (bq : SB.Idx → EReal) (wk : SW.Idx → EReal) (bk : SB.Idx → EReal)
    (wv : SW.Idx → EReal) (bv : SB.Idx → EReal) (wo : SW.Idx → EReal) (bo : SB.Idx → EReal) : Act :=
  lin (heads avg scale (lin (actOf x) wq bq) (cache pk (lin (actOf x) wk bk)) (cache pv (lin (actOf x) wv bv))) wo bo

end Cert.Spec

end
-- ==== Proof.Ker2.lean ====
/-
  The attention on two-dimensional slabs, as the kernel program lays it out: activations are 2048 rows (batch · 1024 +
  position) by 2048 feature columns (head · 128 + lane). The entry at (row, column) is the two-tile weighted average of
  the value rows of the column's head, under the scores of the row's query against that head's key rows.
-/
import proofs.«157797_j54116587930174_2_alg».proof.Proof.LinVal
import proofs.«157797_j54116587930174_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The batch and the position of a row of a slab. -/
def rowB (r : Fin 2048) : Fin 2 := ⟨r.val / 1024, by omega⟩
def rowS (r : Fin 2048) : Fin 1024 := ⟨r.val % 1024, Nat.mod_lt _ (by norm_num)⟩
/-- The row of a batch and a position. -/
def rowOf (b : Fin 2) (s : Fin 1024) : Fin 2048 := ⟨b.val * 1024 + s.val, by omega⟩

theorem rowOf_rowB_rowS (r : Fin 2048) : rowOf (rowB r) (rowS r) = r := Fin.ext (by simp only [rowOf, rowB, rowS]; omega)
theorem rowB_rowOf (b : Fin 2) (s : Fin 1024) : rowB (rowOf b s) = b := Fin.ext (by simp only [rowOf, rowB]; omega)
theorem rowS_rowOf (b : Fin 2) (s : Fin 1024) : rowS (rowOf b s) = s := Fin.ext (by simp only [rowOf, rowS]; omega)

/-- The scale of the scores, as the program spells it. -/
abbrev scaleW : EReal := Ideal.ofBits .f32 0x3DB504F3#32

/-- The score of query row `r` against key row `kk` of head `h`, on slabs. -/
def score2 (Q : S2048x2048.Idx → EReal) (Kc : S2x16x4096x128.Idx → EReal) (r : Fin 2048) (h : Fin 16) (kk : Fin 4096) : EReal :=
  (∑ e : Fin 128, Q (ix2 r (Spec.col h e)) * Kc (ix4 (rowB r) h kk e)) * scaleW

/-- The attention output slab at (row, column), accumulated over two tiles of keys. -/
def attn2 (Q : S2048x2048.Idx → EReal) (Kc Vc : S2x16x4096x128.Idx → EReal) : S2048x2048.Idx → EReal := fun i =>
  Spec.onlineAvg (score2 Q Kc ⟨(i 0).val, (i 0).isLt⟩ (Spec.hd ⟨(i 1).val, (i 1).isLt⟩))
    (fun kk => Vc (ix4 (rowB ⟨(i 0).val, (i 0).isLt⟩) (Spec.hd ⟨(i 1).val, (i 1).isLt⟩) kk (Spec.ln ⟨(i 1).val, (i 1).isLt⟩)))

end Cert.KernelIdeal.Hand

end
-- ==== Proof.AttnVal.lean ====
/-
  The attention body's arithmetic, entry by entry, over the extended reals. The body goes through the keys of one head
  in tiles of 2048 rows and keeps, per query row, a running maximum m of the scores, a running sum l of exponentials
  and, per lane, a running weighted sum acc of the value rows.

  At the ideal values every change of float format is the identity and a matrix product into a zero accumulator is the
  plain sum over the contracted axis, so for one tile: the score of query row r against key row k is the inner product
  of their 128 lanes times the scale; the new maximum is M = max m (max over the tile's scores of the row); the factor
  exp (m - M) rescales l and acc; the tile adds ∑ₖ exp (score r k - M) to l and ∑ₖ exp (score r k - M) · v k d to acc;
  and at the end the output is acc / l. The running values start at -∞, 0 and 0.

  Applied twice — the second tile to what the first left — this is the two-tile arrangement of the softmax-weighted
  average, term for term.
-/
import proofs.«157797_j54116587930174_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«157797_j54116587930174_2_alg».proof.Proof.LibColumns
import proofs.«157797_j54116587930174_2_alg».proof.Proof.Ker2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The word 0xFF800000 denotes -∞. -/
theorem neg_inf_word : Ideal.ofBits .f32 0xFF800000#32 = (⊥ : EReal) := by
  simp [Ideal.ofBits, Ideal.ieee]

/-- The running maximum starts at -∞ in every row. -/
theorem attn_pay4_apply (r : Fin 1024) : k3_pay4 (F := Ideal) (ix2 r (0 : Fin 1)) = (⊥ : EReal) := by
  unfold k3_pay4
  simp only [shapeCast_self]
  rw [broadcast_apply]
  exact neg_inf_word

/-- The running sum of exponentials starts at 0 in every row. -/
theorem pay5_apply (r : Fin 1024) : k3_pay5 (F := Ideal) (ix2 r (0 : Fin 1)) = (0 : EReal) := by
  unfold k3_pay5
  simp only [shapeCast_self]
  rw [broadcast_apply]
  exact Ideal.ofBits_zero_f32

/-- The running weighted sum starts at 0 in every entry. -/
theorem pay6_apply (r : Fin 1024) (d : Fin 128) : k3_pay6 (F := Ideal) (ix2 r d) = (0 : EReal) := by
  unfold k3_pay6
  simp only [shapeCast_self]
  rw [broadcast_apply]
  exact Ideal.ofBits_zero_f32

/-- The new running maximum is stored as it is. -/
theorem attn_pay2_apply (v : FVec Ideal S1024x1 .f32) : k3_pay2 (F := Ideal) v = v := by
  unfold k3_pay2
  simp only [shapeCast_self]

/-- Row k of the value tile, the two unit axes dropped and the format change the identity. -/
theorem pay12_apply (vv : Vec Ideal S1x1x2048x128 .f32) (k : Fin 2048) (d : Fin 128) :
    k3_pay12 (F := Ideal) vv (ix2 k d) = vv (ix4 (0 : Fin 1) (0 : Fin 1) k d) := by
  unfold k3_pay12
  rw [truncf_apply]
  refine shapeCast_apply vv shapeCasts_S1x1x2048x128_S2048x128 (ix2 k d) (ix4 (0 : Fin 1) (0 : Fin 1) k d) ?_
  rw [Shape.rowMajor_val_four, Shape.rowMajor_val_two]
  show ((0 * 1 + 0) * 2048 + k.val) * 128 + d.val = k.val * 128 + d.val
  omega

/-- The score of query row r against key row k of the tile: the inner product of their 128 lanes, scaled. -/
def tileScore (q : Vec Ideal S1024x128 .f32) (kk : Vec Ideal S1x1x2048x128 .f32) (r : Fin 1024) (k : Fin 2048) : EReal :=
  (∑ e : Fin 128, q (ix2 r e) * kk (ix4 (0 : Fin 1) (0 : Fin 1) k e)) * Ideal.ofBits .f32 0x3DB504F3#32

/-- The key tile with its two unit axes dropped, read at (k, e). -/
theorem tile_cast_apply (vv : Vec Ideal S1x1x2048x128 .f32) (k : Fin 2048) (d : Fin 128) :
    shapeCast S2048x128 vv shapeCasts_S1x1x2048x128_S2048x128 (ix2 k d) = vv (ix4 (0 : Fin 1) (0 : Fin 1) k d) := by
  refine shapeCast_apply vv shapeCasts_S1x1x2048x128_S2048x128 (ix2 k d) (ix4 (0 : Fin 1) (0 : Fin 1) k d) ?_
  rw [Shape.rowMajor_val_four, Shape.rowMajor_val_two]
  show ((0 * 1 + 0) * 2048 + k.val) * 128 + d.val = k.val * 128 + d.val
  omega

/-- The score product's operand indices: the queries are read at (row of the output, contracted lane), -/
theorem qk_lhs0 (i : S1024x2048.Idx) (qq : dot_S1024x128_S2048x128_S1024x2048_1_1_0_0_n_n.contr.Idx) : (dot_S1024x128_S2048x128_S1024x2048_1_1_0_0_n_n.lhsIdx i qq 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem qk_lhs1 (i : S1024x2048.Idx) (qq : dot_S1024x128_S2048x128_S1024x2048_1_1_0_0_n_n.contr.Idx) : (dot_S1024x128_S2048x128_S1024x2048_1_1_0_0_n_n.lhsIdx i qq 1).val = (qq ⟨0, by decide⟩).val :=
  dot_S1024x128_S2048x128_S1024x2048_1_1_0_0_n_n.lhsIdx_val_of_single rfl i qq
/-- and the keys at (column of the output, contracted lane): the key tile is used transposed. -/
theorem qk_rhs0 (i : S1024x2048.Idx) (qq : dot_S1024x128_S2048x128_S1024x2048_1_1_0_0_n_n.contr.Idx) : (dot_S1024x128_S2048x128_S1024x2048_1_1_0_0_n_n.rhsIdx i qq 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem qk_rhs1 (i : S1024x2048.Idx) (qq : dot_S1024x128_S2048x128_S1024x2048_1_1_0_0_n_n.contr.Idx) : (dot_S1024x128_S2048x128_S1024x2048_1_1_0_0_n_n.rhsIdx i qq 1).val = (qq ⟨0, by decide⟩).val :=
  dot_S1024x128_S2048x128_S1024x2048_1_1_0_0_n_n.rhsIdx_val_of_single rfl i qq

/-- The tile of scores at (r, k). -/
theorem pay7_apply (q : Vec Ideal S1024x128 .f32) (kk : Vec Ideal S1x1x2048x128 .f32) (r : Fin 1024) (k : Fin 2048) :
    k3_pay7 (F := Ideal) q kk (ix2 r k) = tileScore q kk r k := by
  unfold k3_pay7 tileScore
  simp only [shapeCast_self]
  rw [mulf_apply, broadcast_apply]
  congr 1
  simp only [matmul]
  rw [Ideal.matmul_constant_zero_apply, ← Equiv.sum_comp (contrEquiv1 dot_S1024x128_S2048x128_S1024x2048_1_1_0_0_n_n 128 rfl rfl).symm]
  refine Finset.sum_congr rfl fun e _ => ?_
  have hk := contrEquiv1_symm_val dot_S1024x128_S2048x128_S1024x2048_1_1_0_0_n_n 128 rfl rfl e
  have el : dot_S1024x128_S2048x128_S1024x2048_1_1_0_0_n_n.lhsIdx (ix2 r k) ((contrEquiv1 dot_S1024x128_S2048x128_S1024x2048_1_1_0_0_n_n 128 rfl rfl).symm e) = ix2 r e :=
    funext fun a => Fin.ext (by
      match a with
      | ⟨0, _⟩ => exact qk_lhs0 _ _
      | ⟨1, _⟩ => exact (qk_lhs1 _ _).trans hk)
  have er : dot_S1024x128_S2048x128_S1024x2048_1_1_0_0_n_n.rhsIdx (ix2 r k) ((contrEquiv1 dot_S1024x128_S2048x128_S1024x2048_1_1_0_0_n_n 128 rfl rfl).symm e) = ix2 k e :=
    funext fun a => Fin.ext (by
      match a with
      | ⟨0, _⟩ => exact qk_rhs0 _ _
      | ⟨1, _⟩ => exact (qk_rhs1 _ _).trans hk)
  rw [el, er, truncf_apply, truncf_apply, tile_cast_apply]

/-- Row r of the score tile with column k inserted is the entry (r, k). -/
theorem row_lift (r : Fin 1024) (k : Fin 2048) : reduces_S1024x2048_S1024.lift (ix1 r) k = ix2 r k :=
  funext fun a => Fin.ext (by
    match a with
    | ⟨0, _⟩ => rfl
    | ⟨1, _⟩ => rfl)

/-- The new running maximum of row r: the old one against the maximum of the tile's scores in that row. -/
theorem pay8_apply (q : Vec Ideal S1024x128 .f32) (kk : Vec Ideal S1x1x2048x128 .f32) (mp : Vec Ideal S1024x1 .f32) (r : Fin 1024) :
    k3_pay8 (F := Ideal) q kk mp (ix2 r (0 : Fin 1))
      = max (mp (ix2 r 0)) (Finset.univ.fold max ⊥ fun k : Fin 2048 => tileScore q kk r k) := by
  unfold k3_pay8
  rw [maximumf_apply]
  refine congrArg (max (mp (ix2 r (0 : Fin 1)))) ?_
  rw [shapeCast_a_a1_apply]
  refine (Ideal.multiReduction_maximumf_single (k3_pay7 (F := Ideal) q kk) _ reduces_S1024x2048_S1024 _ _ (ix1 r)).trans ?_
  show Finset.fold max (Ideal.ofBits .f32 0xFF800000#32) (fun k : Fin 2048 => k3_pay7 (F := Ideal) q kk (reduces_S1024x2048_S1024.lift (ix1 r) k)) Finset.univ = _
  rw [neg_inf_word]
  refine congrArg (fun f : Fin 2048 → EReal => Finset.fold max (⊥ : EReal) f Finset.univ) (funext fun k => ?_)
  rw [row_lift, pay7_apply]

/-- The factor by which row r's running sums are rescaled when its maximum moves. -/
theorem pay9_apply (q : Vec Ideal S1024x128 .f32) (kk : Vec Ideal S1x1x2048x128 .f32) (mp : Vec Ideal S1024x1 .f32) (r : Fin 1024) :
    k3_pay9 (F := Ideal) q kk mp (ix2 r (0 : Fin 1))
      = Ideal.exp (mp (ix2 r 0) - k3_pay8 (F := Ideal) q kk mp (ix2 r 0)) := by
  unfold k3_pay9
  show FloatOps.exp (F := Ideal) (subf mp (k3_pay8 (F := Ideal) q kk mp) (ix2 r (0 : Fin 1))) = _
  rw [Ideal.exp_def, subf_apply]

/-- The exponential of the score at (r, k) less row r's new running maximum. -/
theorem pay10_apply (q : Vec Ideal S1024x128 .f32) (kk : Vec Ideal S1x1x2048x128 .f32) (mp : Vec Ideal S1024x1 .f32) (r : Fin 1024) (k : Fin 2048) :
    k3_pay10 (F := Ideal) q kk mp (ix2 r k)
      = Ideal.exp (tileScore q kk r k - k3_pay8 (F := Ideal) q kk mp (ix2 r 0)) := by
  unfold k3_pay10
  show FloatOps.exp (F := Ideal) (subf (k3_pay7 (F := Ideal) q kk) (broadcastTo S1024x2048 (k3_pay8 (F := Ideal) q kk mp) broadcasts_S1024x1_S1024x2048) (ix2 r k)) = _
  rw [Ideal.exp_def, subf_apply, pay7_apply, broadcastTo_a1_ab_apply]

/-- The same exponentials, the format change being the identity. -/
theorem pay13_apply (q : Vec Ideal S1024x128 .f32) (kk : Vec Ideal S1x1x2048x128 .f32) (mp : Vec Ideal S1024x1 .f32) (r : Fin 1024) (k : Fin 2048) :
    k3_pay13 (F := Ideal) q kk mp (ix2 r k) = k3_pay10 (F := Ideal) q kk mp (ix2 r k) := by
  unfold k3_pay13
  rw [truncf_apply]

/-- The new running sum of exponentials of row r: the old one rescaled, plus the tile's exponentials in that row. -/
theorem pay11_apply (q : Vec Ideal S1024x128 .f32) (kk : Vec Ideal S1x1x2048x128 .f32) (mp lp : Vec Ideal S1024x1 .f32) (r : Fin 1024) :
    k3_pay11 (F := Ideal) q kk mp lp (ix2 r (0 : Fin 1))
      = k3_pay9 (F := Ideal) q kk mp (ix2 r 0) * lp (ix2 r 0) + ∑ k : Fin 2048, k3_pay10 (F := Ideal) q kk mp (ix2 r k) := by
  unfold k3_pay11
  simp only [shapeCast_self]
  rw [addf_apply, mulf_apply]
  refine congrArg (k3_pay9 (F := Ideal) q kk mp (ix2 r (0 : Fin 1)) * lp (ix2 r (0 : Fin 1)) + ·) ?_
  rw [shapeCast_a_a1_apply]
  refine (Ideal.multiReduction_add_single (k3_pay10 (F := Ideal) q kk mp) _ reduces_S1024x2048_S1024 _ _ (ix1 r)).trans ?_
  exact Finset.sum_congr rfl fun k _ => congrArg (k3_pay10 (F := Ideal) q kk mp) (row_lift r k)

/-- The weighted-sum product's operand indices: the weights are read at (row of the output, contracted key row), -/
theorem pv_lhs0 (i : S1024x128.Idx) (qq : dot_S1024x2048_S2048x128_S1024x128_1_0_0_1_n_n.contr.Idx) : (dot_S1024x2048_S2048x128_S1024x128_1_0_0_1_n_n.lhsIdx i qq 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem pv_lhs1 (i : S1024x128.Idx) (qq : dot_S1024x2048_S2048x128_S1024x128_1_0_0_1_n_n.contr.Idx) : (dot_S1024x2048_S2048x128_S1024x128_1_0_0_1_n_n.lhsIdx i qq 1).val = (qq ⟨0, by decide⟩).val :=
  dot_S1024x2048_S2048x128_S1024x128_1_0_0_1_n_n.lhsIdx_val_of_single rfl i qq
/-- and the values at (contracted key row, column of the output). -/
theorem pv_rhs0 (i : S1024x128.Idx) (qq : dot_S1024x2048_S2048x128_S1024x128_1_0_0_1_n_n.contr.Idx) : (dot_S1024x2048_S2048x128_S1024x128_1_0_0_1_n_n.rhsIdx i qq 0).val = (qq ⟨0, by decide⟩).val :=
  dot_S1024x2048_S2048x128_S1024x128_1_0_0_1_n_n.rhsIdx_val_of_single rfl i qq
theorem pv_rhs1 (i : S1024x128.Idx) (qq : dot_S1024x2048_S2048x128_S1024x128_1_0_0_1_n_n.contr.Idx) : (dot_S1024x2048_S2048x128_S1024x128_1_0_0_1_n_n.rhsIdx i qq 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The new running weighted sum at (r, d): the old one rescaled by row r's factor, plus the tile's weights against
    column d of the value tile. -/
theorem attn_pay1_apply (a : FVec Ideal S1024x1 .f32) (vb : FVec Ideal S2048x128 .bf16) (pb : FVec Ideal S1024x2048 .bf16)
    (accp : Vec Ideal S1024x128 .f32) (r : Fin 1024) (d : Fin 128) :
    k3_pay1 (F := Ideal) a vb pb accp (ix2 r d)
      = a (ix2 r 0) * accp (ix2 r d) + ∑ k : Fin 2048, pb (ix2 r k) * vb (ix2 k d) := by
  unfold k3_pay1
  simp only [shapeCast_self]
  rw [addf_apply, mulf_apply, broadcastTo_a1_ab_apply]
  refine congrArg (a (ix2 r (0 : Fin 1)) * accp (ix2 r d) + ·) ?_
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r d) ((contrEquiv1 dot_S1024x2048_S2048x128_S1024x128_1_0_0_1_n_n 2048 rfl rfl).symm k) = ix2 r k :=
    funext fun ax => Fin.ext (by
      match ax with
      | ⟨0, _⟩ => exact pv_lhs0 _ _
      | ⟨1, _⟩ => exact (pv_lhs1 _ _).trans hk)
  have er : dot_S1024x2048_S2048x128_S1024x128_1_0_0_1_n_n.rhsIdx (ix2 r d) ((contrEquiv1 dot_S1024x2048_S2048x128_S1024x128_1_0_0_1_n_n 2048 rfl rfl).symm k) = ix2 k d :=
    funext fun ax => Fin.ext (by
      match ax with
      | ⟨0, _⟩ => exact (pv_rhs0 _ _).trans hk
      | ⟨1, _⟩ => exact pv_rhs1 _ _)
  rw [el, er]

/-- The output at (r, d): the weighted sum divided by row r's sum of exponentials. -/
theorem pay3_apply (acc : Vec Ideal S1024x128 .f32) (l : Vec Ideal S1024x1 .f32) (r : Fin 1024) (d : Fin 128) :
    k3_pay3 (F := Ideal) acc l (ix2 r d) = Ideal.div (acc (ix2 r d)) (l (ix2 r 0)) := by
  unfold k3_pay3
  rw [divf_apply, broadcastTo_a1_ab_apply]

/-- One tile's update of row r's running maximum and sum of exponentials and of the running weighted sum at (r, d), in
    terms of the tile's scores s in that row and of column d of its value rows w: the maximum moves to
    M = max m (max over the tile of s), and both sums are rescaled by exp (m - M) before the tile's terms are added. -/
theorem tile_update (q : Vec Ideal S1024x128 .f32) (kk vv : Vec Ideal S1x1x2048x128 .f32) (mp lp : Vec Ideal S1024x1 .f32)
    (accp : Vec Ideal S1024x128 .f32) (r : Fin 1024) (d : Fin 128) (s w : Fin 2048 → EReal) (m l a : EReal)
    (hs : ∀ k : Fin 2048, tileScore q kk r k = s k) (hw : ∀ k : Fin 2048, vv (ix4 (0 : Fin 1) (0 : Fin 1) k d) = w k)
    (hm : mp (ix2 r (0 : Fin 1)) = m) (hl : lp (ix2 r (0 : Fin 1)) = l) (ha : accp (ix2 r d) = a) :
    k3_pay8 (F := Ideal) q kk mp (ix2 r (0 : Fin 1)) = max m (Finset.univ.fold max ⊥ s)
    ∧ k3_pay11 (F := Ideal) q kk mp lp (ix2 r (0 : Fin 1))
        = Ideal.exp (m - max m (Finset.univ.fold max ⊥ s)) * l
          + ∑ k : Fin 2048, Ideal.exp (s k - max m (Finset.univ.fold max ⊥ s))
    ∧ k3_pay1 (F := Ideal) (k3_pay9 q kk mp) (k3_pay12 vv) (k3_pay13 q kk mp) accp (ix2 r d)
        = Ideal.exp (m - max m (Finset.univ.fold max ⊥ s)) * a
          + ∑ k : Fin 2048, Ideal.exp (s k - max m (Finset.univ.fold max ⊥ s)) * w k := by
  have h8 : k3_pay8 (F := Ideal) q kk mp (ix2 r (0 : Fin 1)) = max m (Finset.univ.fold max ⊥ s) := by
    rw [pay8_apply, hm, show (fun k : Fin 2048 => tileScore q kk r k) = s from funext hs]
  have h9 : k3_pay9 (F := Ideal) q kk mp (ix2 r (0 : Fin 1)) = Ideal.exp (m - max m (Finset.univ.fold max ⊥ s)) := by
    rw [pay9_apply, hm, h8]
  have h10 : ∀ k : Fin 2048, k3_pay10 (F := Ideal) q kk mp (ix2 r k) = Ideal.exp (s k - max m (Finset.univ.fold max ⊥ s)) :=
    fun k => by rw [pay10_apply, hs, h8]
  refine ⟨h8, ?_, ?_⟩
  · rw [pay11_apply, h9, hl]
    exact congrArg (Ideal.exp (m - max m (Finset.univ.fold max ⊥ s)) * l + ·) (Finset.sum_congr rfl fun k _ => h10 k)
  · rw [attn_pay1_apply, h9, ha]
    exact congrArg (Ideal.exp (m - max m (Finset.univ.fold max ⊥ s)) * a + ·)
      (Finset.sum_congr rfl fun k _ => by rw [pay13_apply, h10, pay12_apply, hw])

/-- What the last of two key tiles leaves at entry (r, d) of the output block — its updates applied to what the first
    tile left, from the initial -∞, 0, 0 — is the two-tile weighted average of the slabs at the entry the block's (r, d)
    stands for, given that the query rows, the two key tiles and the two value tiles are the slabs' rows there. -/
theorem attn_block (Q : S2048x2048.Idx → EReal) (Kc Vc : S2x16x4096x128.Idx → EReal)
    (q0 q1 : Vec Ideal S1024x128 .f32) (kk0 kk1 vv0 vv1 : Vec Ideal S1x1x2048x128 .f32)
    (j : S2048x2048.Idx) (r : Fin 1024) (d : Fin 128)
    (hq0 : ∀ e : Fin 128, q0 (ix2 r e) = Q (ix2 (n0 := 2048) (n1 := 2048) ⟨(j 0).val, (j 0).isLt⟩ (Spec.col (Spec.hd ⟨(j 1).val, (j 1).isLt⟩) e)))
    (hq1 : ∀ e : Fin 128, q1 (ix2 r e) = Q (ix2 (n0 := 2048) (n1 := 2048) ⟨(j 0).val, (j 0).isLt⟩ (Spec.col (Spec.hd ⟨(j 1).val, (j 1).isLt⟩) e)))
    (hk0 : ∀ (k : Fin 2048) (e : Fin 128), kk0 (ix4 (0 : Fin 1) (0 : Fin 1) k e) = Kc (ix4 (rowB ⟨(j 0).val, (j 0).isLt⟩) (Spec.hd ⟨(j 1).val, (j 1).isLt⟩) (Spec.tileIdx 0 k) e))
    (hk1 : ∀ (k : Fin 2048) (e : Fin 128), kk1 (ix4 (0 : Fin 1) (0 : Fin 1) k e) = Kc (ix4 (rowB ⟨(j 0).val, (j 0).isLt⟩) (Spec.hd ⟨(j 1).val, (j 1).isLt⟩) (Spec.tileIdx 1 k) e))
    (hv0 : ∀ k : Fin 2048, vv0 (ix4 (0 : Fin 1) (0 : Fin 1) k d) = Vc (ix4 (rowB ⟨(j 0).val, (j 0).isLt⟩) (Spec.hd ⟨(j 1).val, (j 1).isLt⟩) (Spec.tileIdx 0 k) (Spec.ln ⟨(j 1).val, (j 1).isLt⟩)))
    (hv1 : ∀ k : Fin 2048, vv1 (ix4 (0 : Fin 1) (0 : Fin 1) k d) = Vc (ix4 (rowB ⟨(j 0).val, (j 0).isLt⟩) (Spec.hd ⟨(j 1).val, (j 1).isLt⟩) (Spec.tileIdx 1 k) (Spec.ln ⟨(j 1).val, (j 1).isLt⟩))) :
    k3_pay3 (F := Ideal)
        (k3_pay1 (k3_pay9 q1 kk1 (k3_pay2 (k3_pay8 q0 kk0 (k3_pay4 (F := Ideal))))) (k3_pay12 vv1) (k3_pay13 q1 kk1 (k3_pay2 (k3_pay8 q0 kk0 (k3_pay4 (F := Ideal)))))
          (k3_pay1 (k3_pay9 q0 kk0 (k3_pay4 (F := Ideal))) (k3_pay12 vv0) (k3_pay13 q0 kk0 (k3_pay4 (F := Ideal))) (k3_pay6 (F := Ideal))))
        (k3_pay11 q1 kk1 (k3_pay2 (k3_pay8 q0 kk0 (k3_pay4 (F := Ideal)))) (k3_pay11 q0 kk0 (k3_pay4 (F := Ideal)) (k3_pay5 (F := Ideal)))) (ix2 r d)
      = attn2 Q Kc Vc j := by
  -- the tiles' scores are the slabs' scores
  have hS0 : ∀ k : Fin 2048, tileScore q0 kk0 r k
      = score2 Q Kc ⟨(j 0).val, (j 0).isLt⟩ (Spec.hd ⟨(j 1).val, (j 1).isLt⟩) (Spec.tileIdx 0 k) := fun k => by
    unfold tileScore score2
    exact congrArg (· * scaleW) (Finset.sum_congr rfl fun e _ => by rw [hq0 e, hk0 k e])
  have hS1 : ∀ k : Fin 2048, tileScore q1 kk1 r k
      = score2 Q Kc ⟨(j 0).val, (j 0).isLt⟩ (Spec.hd ⟨(j 1).val, (j 1).isLt⟩) (Spec.tileIdx 1 k) := fun k => by
    unfold tileScore score2
    exact congrArg (· * scaleW) (Finset.sum_congr rfl fun e _ => by rw [hq1 e, hk1 k e])
  -- the first tile, from -∞, 0, 0
  obtain ⟨hM1, hL1, hA1⟩ := tile_update q0 kk0 vv0 (k3_pay4 (F := Ideal)) (k3_pay5 (F := Ideal)) (k3_pay6 (F := Ideal)) r d
    (fun k => score2 Q Kc ⟨(j 0).val, (j 0).isLt⟩ (Spec.hd ⟨(j 1).val, (j 1).isLt⟩) (Spec.tileIdx 0 k))
    (fun k => Vc (ix4 (rowB ⟨(j 0).val, (j 0).isLt⟩) (Spec.hd ⟨(j 1).val, (j 1).isLt⟩) (Spec.tileIdx 0 k) (Spec.ln ⟨(j 1).val, (j 1).isLt⟩)))
    ⊥ 0 0 hS0 hv0 (attn_pay4_apply r) (pay5_apply r) (pay6_apply r d)
  -- the second tile, from what the first left
  obtain ⟨hM2, hL2, hA2⟩ := tile_update q1 kk1 vv1 (k3_pay2 (k3_pay8 (F := Ideal) q0 kk0 (k3_pay4 (F := Ideal)))) (k3_pay11 (F := Ideal) q0 kk0 (k3_pay4 (F := Ideal)) (k3_pay5 (F := Ideal)))
    (k3_pay1 (F := Ideal) (k3_pay9 q0 kk0 (k3_pay4 (F := Ideal))) (k3_pay12 vv0) (k3_pay13 q0 kk0 (k3_pay4 (F := Ideal))) (k3_pay6 (F := Ideal))) r d
    (fun k => score2 Q Kc ⟨(j 0).val, (j 0).isLt⟩ (Spec.hd ⟨(j 1).val, (j 1).isLt⟩) (Spec.tileIdx 1 k))
    (fun k => Vc (ix4 (rowB ⟨(j 0).val, (j 0).isLt⟩) (Spec.hd ⟨(j 1).val, (j 1).isLt⟩) (Spec.tileIdx 1 k) (Spec.ln ⟨(j 1).val, (j 1).isLt⟩)))
    _ _ _ hS1 hv1 ((congrFun (attn_pay2_apply (k3_pay8 (F := Ideal) q0 kk0 (k3_pay4 (F := Ideal)))) (ix2 r (0 : Fin 1))).trans hM1) hL1 hA1
  rw [pay3_apply, hA2, hL2]
  rfl

end Cert.KernelIdeal.Hand

end
-- ==== Proof.AttnFinal.lean ====
/-
  The array the attention call leaves. Only the points of a last key tile write the output back; each writes the block of
  its (batch, head): 1024 rows by 128 columns of the slab. Those 32 blocks tile the slab, and each is the two-tile weighted
  average of the arrays the region found: the point's own key and value blocks are the second tile, the blocks of the
  point before it, the first tile of the same (batch, head), are what its scratch buffers carry.
-/
import proofs.«157797_j54116587930174_2_alg».proof.Proof.AttnPieces
import proofs.«157797_j54116587930174_2_alg».proof.Proof.AttnVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

open Idealize.ShloMosaic.Tactic
section
variable (V : (c : Dev nD) → (b : Ref sig .tc) → Buf (Elt Ideal) ((c : Thread nD τ).loc b))

/-- The printed index maps, decided over the grid: point `t` is (batch, head, tile) = (t / 32, t / 2 mod 16, t mod 2). -/
theorem idx_facts3 : ∀ t : Fin cfg3.N,
    win3_0.index t (0 : Fin 2) = t.val / 32 ∧ win3_0.index t (1 : Fin 2) = t.val / 2 % 16
    ∧ win3_1.index t (0 : Fin 4) = t.val / 32 ∧ win3_1.index t (1 : Fin 4) = t.val / 2 % 16 ∧ win3_1.index t (2 : Fin 4) = t.val % 2 ∧ win3_1.index t (3 : Fin 4) = 0
    ∧ win3_2.index t (0 : Fin 4) = t.val / 32 ∧ win3_2.index t (1 : Fin 4) = t.val / 2 % 16 ∧ win3_2.index t (2 : Fin 4) = t.val % 2 ∧ win3_2.index t (3 : Fin 4) = 0
    ∧ win3_3.index t (0 : Fin 2) = t.val / 32 ∧ win3_3.index t (1 : Fin 2) = t.val / 2 % 16 :=
  (by decide +kernel : ∀ t : Fin grid3.N, _)

theorem idx_facts3' (n : ℕ) (hn : n < cfg3.N) :
    win3_0.index ⟨n, hn⟩ (0 : Fin 2) = n / 32 ∧ win3_0.index ⟨n, hn⟩ (1 : Fin 2) = n / 2 % 16
    ∧ win3_1.index ⟨n, hn⟩ (0 : Fin 4) = n / 32 ∧ win3_1.index ⟨n, hn⟩ (1 : Fin 4) = n / 2 % 16 ∧ win3_1.index ⟨n, hn⟩ (2 : Fin 4) = n % 2 ∧ win3_1.index ⟨n, hn⟩ (3 : Fin 4) = 0
    ∧ win3_2.index ⟨n, hn⟩ (0 : Fin 4) = n / 32 ∧ win3_2.index ⟨n, hn⟩ (1 : Fin 4) = n / 2 % 16 ∧ win3_2.index ⟨n, hn⟩ (2 : Fin 4) = n % 2 ∧ win3_2.index ⟨n, hn⟩ (3 : Fin 4) = 0
    ∧ win3_3.index ⟨n, hn⟩ (0 : Fin 2) = n / 32 ∧ win3_3.index ⟨n, hn⟩ (1 : Fin 2) = n / 2 % 16 :=
  idx_facts3 ⟨n, hn⟩

set_option maxHeartbeats 3200000 in
/-- What a last-tile point `t` writes back is its block of the slab attention of the arrays as the region finds them. -/
theorem flushed3_eq (c : Dev nD) (t : Fin cfg3.N) (hf : (cfg3.win 3).flush t = true) :
    (dat3 V c).flushed 3 t = ((cfg3.win 3).blk t).view.read (Elt Ideal) (attn2 (V c main_v7) (V c main_v16) (V c main_v17)) := by
  have hodd : t.val % 2 = 1 := (flush3_3 t).mp hf
  have h0 : ¬t.val % 2 = 0 := by omega
  have hN : t.val < 64 := lt_of_lt_of_eq t.isLt (show cfg3.N = 64 from N_3)
  have ht' : t.val - 1 < cfg3.N := Nat.lt_of_le_of_lt (Nat.sub_le _ _) t.isLt
  have h0' : (⟨t.val - 1, ht'⟩ : Fin cfg3.N).val % 2 = 0 := by show (t.val - 1) % 2 = 0; omega
  show (cfg3.win 3).cut (grid3.coords t) ((dat3 V c).after 3 t) = _
  rw [after3_3, outsAt3_B V c t h0]
  dsimp only
  rw [out3_B_3_eq]
  rw [show outsAt3 V c (t.val - 1) ht' = outsAt3 V c (⟨t.val - 1, ht'⟩ : Fin cfg3.N).val (⟨t.val - 1, ht'⟩ : Fin cfg3.N).isLt from rfl,
    outsAt3_A V c ⟨t.val - 1, ht'⟩ h0']
  dsimp only
  rw [sout3_A_0_eq, sout3_A_1_eq, sout3_A_2_eq]
  obtain ⟨a0, a1, b0, b1, b2, b3, c0, c1, c2, c3, d0, d1⟩ := idx_facts3 t
  obtain ⟨a0', a1', b0', b1', b2', b3', c0', c1', c2', c3', d0', d1'⟩ := idx_facts3' (t.val - 1) ht'
  funext jj
  obtain ⟨r, d, rfl⟩ : ∃ (r : Fin 1024) (d : Fin 128), jj = ix2 r d := ⟨jj 0, jj 1, eq_ix2 jj⟩
  have hr : r.val < 1024 := r.isLt
  have hd : d.val < 128 := d.isLt
  show k3_pay3 (F := Ideal) _ _ (ix2 r d) = attn2 (V c main_v7) (V c main_v16) (V c main_v17) (((cfg3.win 3).blk t).view.emb (ix2 r d))
  refine attn_block (V c main_v7) (V c main_v16) (V c main_v17) (iblk3 V c 0 ⟨t.val - 1, ht'⟩) (iblk3 V c 0 t)
    (iblk3 V c 1 ⟨t.val - 1, ht'⟩) (iblk3 V c 1 t) (iblk3 V c 2 ⟨t.val - 1, ht'⟩) (iblk3 V c 2 t)
    (((cfg3.win 3).blk t).view.emb (ix2 r d)) r d (fun e => ?_) (fun e => ?_) (fun k e => ?_) (fun k e => ?_) (fun k => ?_) (fun k => ?_)
  · have he : e.val < 128 := e.isLt
    show (V c main_v7 : S2048x2048.Idx → EReal) (((cfg3.win 0).blk ⟨t.val - 1, ht'⟩).view.emb (ix2 r e)) = _
    refine congrArg (V c main_v7 : S2048x2048.Idx → EReal) ?_
    funext a; apply Fin.ext
    match a with
    | ⟨0, _⟩ => show win3_0.index ⟨t.val - 1, ht'⟩ (0 : Fin 2) * 1024 + 1 * r.val = win3_3.index t (0 : Fin 2) * 1024 + 1 * r.val; omega
    | ⟨1, _⟩ => show win3_0.index ⟨t.val - 1, ht'⟩ (1 : Fin 2) * 128 + 1 * e.val = (win3_3.index t (1 : Fin 2) * 128 + 1 * d.val) / 128 * 128 + e.val; omega
  · have he : e.val < 128 := e.isLt
    show (V c main_v7 : S2048x2048.Idx → EReal) (((cfg3.win 0).blk t).view.emb (ix2 r e)) = _
    refine congrArg (V c main_v7 : S2048x2048.Idx → EReal) ?_
    funext a; apply Fin.ext
    match a with
    | ⟨0, _⟩ => show win3_0.index t (0 : Fin 2) * 1024 + 1 * r.val = win3_3.index t (0 : Fin 2) * 1024 + 1 * r.val; omega
    | ⟨1, _⟩ => show win3_0.index t (1 : Fin 2) * 128 + 1 * e.val = (win3_3.index t (1 : Fin 2) * 128 + 1 * d.val) / 128 * 128 + e.val; omega
  · have he : e.val < 128 := e.isLt
    have hk : k.val < 2048 := k.isLt
    show (V c main_v16 : S2x16x4096x128.Idx → EReal) (((cfg3.win 1).blk ⟨t.val - 1, ht'⟩).view.emb (ix4 (0 : Fin 1) (0 : Fin 1) k e)) = _
    refine congrArg (V c main_v16 : S2x16x4096x128.Idx → EReal) ?_
    funext a; apply Fin.ext
    match a with
    | ⟨0, _⟩ => show win3_1.index ⟨t.val - 1, ht'⟩ (0 : Fin 4) * 1 + 1 * 0 = (win3_3.index t (0 : Fin 2) * 1024 + 1 * r.val) / 1024; omega
    | ⟨1, _⟩ => show win3_1.index ⟨t.val - 1, ht'⟩ (1 : Fin 4) * 1 + 1 * 0 = (win3_3.index t (1 : Fin 2) * 128 + 1 * d.val) / 128; omega
    | ⟨2, _⟩ => show win3_1.index ⟨t.val - 1, ht'⟩ (2 : Fin 4) * 2048 + 1 * k.val = 0 * 2048 + k.val; omega
    | ⟨3, _⟩ => show win3_1.index ⟨t.val - 1, ht'⟩ (3 : Fin 4) * 128 + 1 * e.val = e.val; omega
  · have he : e.val < 128 := e.isLt
    have hk : k.val < 2048 := k.isLt
    show (V c main_v16 : S2x16x4096x128.Idx → EReal) (((cfg3.win 1).blk t).view.emb (ix4 (0 : Fin 1) (0 : Fin 1) k e)) = _
    refine congrArg (V c main_v16 : S2x16x4096x128.Idx → EReal) ?_
    funext a; apply Fin.ext
    match a with
    | ⟨0, _⟩ => show win3_1.index t (0 : Fin 4) * 1 + 1 * 0 = (win3_3.index t (0 : Fin 2) * 1024 + 1 * r.val) / 1024; omega
    | ⟨1, _⟩ => show win3_1.index t (1 : Fin 4) * 1 + 1 * 0 = (win3_3.index t (1 : Fin 2) * 128 + 1 * d.val) / 128; omega
    | ⟨2, _⟩ => show win3_1.index t (2 : Fin 4) * 2048 + 1 * k.val = 1 * 2048 + k.val; omega
    | ⟨3, _⟩ => show win3_1.index t (3 : Fin 4) * 128 + 1 * e.val = e.val; omega
  · have hk : k.val < 2048 := k.isLt
    show (V c main_v17 : S2x16x4096x128.Idx → EReal) (((cfg3.win 2).blk ⟨t.val - 1, ht'⟩).view.emb (ix4 (0 : Fin 1) (0 : Fin 1) k d)) = _
    refine congrArg (V c main_v17 : S2x16x4096x128.Idx → EReal) ?_
    funext a; apply Fin.ext
    match a with
    | ⟨0, _⟩ => show win3_2.index ⟨t.val - 1, ht'⟩ (0 : Fin 4) * 1 + 1 * 0 = (win3_3.index t (0 : Fin 2) * 1024 + 1 * r.val) / 1024; omega
    | ⟨1, _⟩ => show win3_2.index ⟨t.val - 1, ht'⟩ (1 : Fin 4) * 1 + 1 * 0 = (win3_3.index t (1 : Fin 2) * 128 + 1 * d.val) / 128; omega
    | ⟨2, _⟩ => show win3_2.index ⟨t.val - 1, ht'⟩ (2 : Fin 4) * 2048 + 1 * k.val = 0 * 2048 + k.val; omega
    | ⟨3, _⟩ => show win3_2.index ⟨t.val - 1, ht'⟩ (3 : Fin 4) * 128 + 1 * d.val = (win3_3.index t (1 : Fin 2) * 128 + 1 * d.val) % 128; omega
  · have hk : k.val < 2048 := k.isLt
    show (V c main_v17 : S2x16x4096x128.Idx → EReal) (((cfg3.win 2).blk t).view.emb (ix4 (0 : Fin 1) (0 : Fin 1) k d)) = _
    refine congrArg (V c main_v17 : S2x16x4096x128.Idx → EReal) ?_
    funext a; apply Fin.ext
    match a with
    | ⟨0, _⟩ => show win3_2.index t (0 : Fin 4) * 1 + 1 * 0 = (win3_3.index t (0 : Fin 2) * 1024 + 1 * r.val) / 1024; omega
    | ⟨1, _⟩ => show win3_2.index t (1 : Fin 4) * 1 + 1 * 0 = (win3_3.index t (1 : Fin 2) * 128 + 1 * d.val) / 128; omega
    | ⟨2, _⟩ => show win3_2.index t (2 : Fin 4) * 2048 + 1 * k.val = 1 * 2048 + k.val; omega
    | ⟨3, _⟩ => show win3_2.index t (3 : Fin 4) * 128 + 1 * d.val = (win3_3.index t (1 : Fin 2) * 128 + 1 * d.val) % 128; omega

/-- An index of the slab is in point `t`'s block iff each coordinate is in the block's range on its axis. -/
theorem mem_blk3 (t : Fin cfg3.N) (i : S2048x2048.Idx) :
    i ∈ ((cfg3.win 3).blk t).view.set ↔ ∀ a : Fin 2, win3_3.index t a * S1024x128.size a ≤ (i a).val ∧ (i a).val < win3_3.index t a * S1024x128.size a + S1024x128.size a := by
  show i ∈ ((View.whole main_v18).slice (win3_3.rect t)).set ↔ _
  rw [View.set_slice_whole, Rect.mem_set_unit]
  exact Iff.rfl

/-- Every entry lies in the block of the last-tile point of its (batch, head). -/
theorem cover3 (i : S2048x2048.Idx) : ∃ t : Fin cfg3.N, (cfg3.win 3).flush t = true ∧ i ∈ ((cfg3.win 3).blk t).view.set := by
  have hi0 : (i 0).val < 2048 := (i 0).isLt
  have hi1 : (i 1).val < 2048 := (i 1).isLt
  obtain ⟨n, hn⟩ : ∃ n : ℕ, n = ((i 0).val / 1024 * 16 + (i 1).val / 128) * 2 + 1 := ⟨_, rfl⟩
  have ht : n < cfg3.N := by show n < grid3.N; rw [N_3]; omega
  refine ⟨⟨n, ht⟩, (flush3_3 _).mpr (by show n % 2 = 1; omega), ?_⟩
  rw [mem_blk3]
  obtain ⟨a0, a1, b0, b1, b2, b3, c0, c1, c2, c3, d0, d1⟩ := idx_facts3' n ht
  intro a
  match a with
  | ⟨0, _⟩ => show win3_3.index ⟨n, ht⟩ (0 : Fin 2) * 1024 ≤ (i 0).val ∧ (i 0).val < win3_3.index ⟨n, ht⟩ (0 : Fin 2) * 1024 + 1024; omega
  | ⟨1, _⟩ => show win3_3.index ⟨n, ht⟩ (1 : Fin 2) * 128 ≤ (i 1).val ∧ (i 1).val < win3_3.index ⟨n, ht⟩ (1 : Fin 2) * 128 + 128; omega

/-- THE ARRAY after the attention region. -/
theorem final3 (c : Dev nD) : (dat3 V c).arrAt 3 cfg3.N = attn2 (V c main_v7) (V c main_v16) (V c main_v17) :=
  (dat3 V c).arrAt_eq_of_cover 3 _ (fun t hf => flushed3_eq V c t hf) (cover3)

end

end Cert.KernelIdeal.Hand

end
-- ==== Proof.Values.lean ====
/-
  The program's three results as array-level terms of the argument arrays: the buffer contents at each boundary, followed
  from the launch. A host stretch applies its casts, reshapes, transposes and concatenations; a linear region leaves the
  linear layer of what it found; the attention region leaves the slab attention of what it found; every other buffer
  passes each region unchanged.
-/
import proofs.«157797_j54116587930174_2_alg».proof.Proof.Run
import proofs.«157797_j54116587930174_2_alg».proof.Proof.LinFinal0
import proofs.«157797_j54116587930174_2_alg».proof.Proof.LinFinal1
import proofs.«157797_j54116587930174_2_alg».proof.Proof.LinFinal2
import proofs.«157797_j54116587930174_2_alg».proof.Proof.LinFinal4
import proofs.«157797_j54116587930174_2_alg».proof.Proof.AttnFinal
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- Region 0 changes only its output array: every other buffer is at its exit what it was at its entry. -/
theorem W2_keep (c : Dev nD) (b : Ref sig .tc) (hb : b ≠ main_v7) : W2 m ρ c b = W1 m ρ c b := by
  by_cases h : ∃ w, Pipeline.arrRef spec0 w = b
  swap
  · exact W2_of_ne m ρ c b (fun w e => h ⟨w, e⟩)
  · obtain ⟨w, rfl⟩ := h
    have hw : (cfg0.win w).isOut = false := by
      fin_cases w
      · rfl
      · rfl
      · rfl
      · exact absurd rfl hb
    exact (W2_arr m ρ c w).trans (((dat0 (V1 m ρ) c).arrAt_in w hw _).trans (A_eq0 (V1 m ρ) c w))

/-- Region 1 changes only its output array: every other buffer is at its exit what it was at its entry. -/
theorem W4_keep (c : Dev nD) (b : Ref sig .tc) (hb : b ≠ main_v9) : W4 m ρ c b = W3 m ρ c b := by
  by_cases h : ∃ w, Pipeline.arrRef spec1 w = b
  swap
  · exact W4_of_ne m ρ c b (fun w e => h ⟨w, e⟩)
  · obtain ⟨w, rfl⟩ := h
    have hw : (cfg1.win w).isOut = false := by
      fin_cases w
      · rfl
      · rfl
      · rfl
      · exact absurd rfl hb
    exact (W4_arr m ρ c w).trans (((dat1 (V3 m ρ) c).arrAt_in w hw _).trans (A_eq1 (V3 m ρ) c w))

/-- Region 2 changes only its output array: every other buffer is at its exit what it was at its entry. -/
theorem W6_keep (c : Dev nD) (b : Ref sig .tc) (hb : b ≠ main_v11) : W6 m ρ c b = W5 m ρ c b := by
  by_cases h : ∃ w, Pipeline.arrRef spec2 w = b
  swap
  · exact W6_of_ne m ρ c b (fun w e => h ⟨w, e⟩)
  · obtain ⟨w, rfl⟩ := h
    have hw : (cfg2.win w).isOut = false := by
      fin_cases w
      · rfl
      · rfl
      · rfl
      · exact absurd rfl hb
    exact (W6_arr m ρ c w).trans (((dat2 (V5 m ρ) c).arrAt_in w hw _).trans (A_eq2 (V5 m ρ) c w))

/-- Region 3 changes only its output array: every other buffer is at its exit what it was at its entry. -/
theorem W8_keep (c : Dev nD) (b : Ref sig .tc) (hb : b ≠ main_v18) : W8 m ρ c b = W7 m ρ c b := by
  by_cases h : ∃ w, Pipeline.arrRef spec3 w = b
  swap
  · exact W8_of_ne m ρ c b (fun w e => h ⟨w, e⟩)
  · obtain ⟨w, rfl⟩ := h
    have hw : (cfg3.win w).isOut = false := by
      fin_cases w
      · rfl
      · rfl
      · rfl
      · exact absurd rfl hb
    exact (W8_arr m ρ c w).trans (((dat3 (V7 m ρ) c).arrAt_in w hw _).trans (A_eq3 (V7 m ρ) c w))

/-- Region 4 changes only its output array: every other buffer is at its exit what it was at its entry. -/
theorem W10_keep (c : Dev nD) (b : Ref sig .tc) (hb : b ≠ main_v21) : W10 m ρ c b = W9 m ρ c b := by
  by_cases h : ∃ w, Pipeline.arrRef spec4 w = b
  swap
  · exact W10_of_ne m ρ c b (fun w e => h ⟨w, e⟩)
  · obtain ⟨w, rfl⟩ := h
    have hw : (cfg4.win w).isOut = false := by
      fin_cases w
      · rfl
      · rfl
      · rfl
      · exact absurd rfl hb
    exact (W10_arr m ρ c w).trans (((dat4 (V9 m ρ) c).arrAt_in w hw _).trans (A_eq4 (V9 m ρ) c w))

/-! ## What the host stretches write -/

theorem W1_v1 (c : Dev nD) : (W1 m ρ c main_v1 : S2048x2048.Idx → EReal) = (truncf (F := Ideal) .bf16 (shapeCast S2048x2048 (m ((c : Thread nD τ).loc main_arg0)) shapeCasts_S2x1024x2048_S2048x2048) bitsLt_bf16_f32) := by
  show StableHlo.after hostOps0 (W0 m ρ c) (Proc.devRef .tc main_v1) = _
  after_results <;> rfl
theorem W1_v2 (c : Dev nD) : (W1 m ρ c main_v2 : S2048x2048.Idx → EReal) = (truncf (F := Ideal) .bf16 (m ((c : Thread nD τ).loc main_arg3)) bitsLt_bf16_f32) := by
  show StableHlo.after hostOps0 (W0 m ρ c) (Proc.devRef .tc main_v2) = _
  after_results <;> rfl
theorem W1_v3 (c : Dev nD) : (W1 m ρ c main_v3 : S2048x2048.Idx → EReal) = (truncf (F := Ideal) .bf16 (m ((c : Thread nD τ).loc main_arg5)) bitsLt_bf16_f32) := by
  show StableHlo.after hostOps0 (W0 m ρ c) (Proc.devRef .tc main_v3) = _
  after_results <;> rfl
theorem W1_v4 (c : Dev nD) : (W1 m ρ c main_v4 : S2048x2048.Idx → EReal) = (truncf (F := Ideal) .bf16 (m ((c : Thread nD τ).loc main_arg7)) bitsLt_bf16_f32) := by
  show StableHlo.after hostOps0 (W0 m ρ c) (Proc.devRef .tc main_v4) = _
  after_results <;> rfl
theorem W1_v5 (c : Dev nD) : (W1 m ρ c main_v5 : S2048x2048.Idx → EReal) = (truncf (F := Ideal) .bf16 (m ((c : Thread nD τ).loc main_arg9)) bitsLt_bf16_f32) := by
  show StableHlo.after hostOps0 (W0 m ρ c) (Proc.devRef .tc main_v5) = _
  after_results <;> rfl
theorem W1_v6 (c : Dev nD) : (W1 m ρ c main_v6 : S1x2048.Idx → EReal) = (shapeCast S1x2048 (m ((c : Thread nD τ).loc main_arg4)) shapeCasts_S2048_S1x2048) := by
  show StableHlo.after hostOps0 (W0 m ρ c) (Proc.devRef .tc main_v6) = _
  after_results <;> rfl
theorem W3_v8 (c : Dev nD) : (W3 m ρ c main_v8 : S1x2048.Idx → EReal) = (shapeCast S1x2048 (W2 m ρ c main_arg6) shapeCasts_S2048_S1x2048) := by
  show StableHlo.after hostOps1 (W2 m ρ c) (Proc.devRef .tc main_v8) = _
  after_results <;> rfl
theorem W5_v10 (c : Dev nD) : (W5 m ρ c main_v10 : S1x2048.Idx → EReal) = (shapeCast S1x2048 (W4 m ρ c main_arg8) shapeCasts_S2048_S1x2048) := by
  show StableHlo.after hostOps2 (W4 m ρ c) (Proc.devRef .tc main_v10) = _
  after_results <;> rfl
theorem W7_v16 (c : Dev nD) : (W7 m ρ c main_v16 : S2x16x4096x128.Idx → EReal) = (concatenate S2x16x4096x128 2 [⟨S2x16x3072x128, W6 m ρ c main_arg1⟩, ⟨S2x16x1024x128, transpose S2x16x1024x128 [0, 2, 1, 3] (shapeCast S2x1024x16x128 (W6 m ρ c main_v9) shapeCasts_S2048x2048_S2x1024x16x128) transposes_S2x1024x16x128_S2x16x1024x128_0_2_1_3⟩] concatenates_S2x16x3072x128_S2x16x1024x128_S2x16x4096x128_d2) := by
  show StableHlo.after hostOps3 (W6 m ρ c) (Proc.devRef .tc main_v16) = _
  after_results <;> rfl
theorem W7_v17 (c : Dev nD) : (W7 m ρ c main_v17 : S2x16x4096x128.Idx → EReal) = (concatenate S2x16x4096x128 2 [⟨S2x16x3072x128, W6 m ρ c main_arg2⟩, ⟨S2x16x1024x128, transpose S2x16x1024x128 [0, 2, 1, 3] (shapeCast S2x1024x16x128 (W6 m ρ c main_v11) shapeCasts_S2048x2048_S2x1024x16x128) transposes_S2x1024x16x128_S2x16x1024x128_0_2_1_3⟩] concatenates_S2x16x3072x128_S2x16x1024x128_S2x16x4096x128_d2) := by
  show StableHlo.after hostOps3 (W6 m ρ c) (Proc.devRef .tc main_v17) = _
  after_results <;> rfl
theorem W9_v19 (c : Dev nD) : (W9 m ρ c main_v19 : S2048x2048.Idx → EReal) = (truncf (F := Ideal) .bf16 (W8 m ρ c main_v18) bitsLt_bf16_f32) := by
  show StableHlo.after hostOps4 (W8 m ρ c) (Proc.devRef .tc main_v19) = _
  after_results <;> rfl
theorem W9_v20 (c : Dev nD) : (W9 m ρ c main_v20 : S1x2048.Idx → EReal) = (shapeCast S1x2048 (W8 m ρ c main_arg10) shapeCasts_S2048_S1x2048) := by
  show StableHlo.after hostOps4 (W8 m ρ c) (Proc.devRef .tc main_v20) = _
  after_results <;> rfl
theorem W11_v22 (c : Dev nD) : (W11 m ρ c main_v22 : S2x1024x2048.Idx → EReal) = (shapeCast S2x1024x2048 (W10 m ρ c main_v21) shapeCasts_S2048x2048_S2x1024x2048) := by
  show StableHlo.after hostOps5 (W10 m ρ c) (Proc.devRef .tc main_v22) = _
  after_results <;> rfl

/-! ## What the regions leave, traced back to the launch -/

theorem W2_v7 (c : Dev nD) : (W2 m ρ c main_v7 : S2048x2048.Idx → EReal) = lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg3)) bitsLt_bf16_f32) (shapeCast S1x2048 (m ((c : Thread nD τ).loc main_arg4)) shapeCasts_S2048_S1x2048) := by
  have h := (W2_arr m ρ c 3).trans (final0 (V1 m ρ) c)
  dsimp only [V1] at h
  rw [W1_v1, W1_v2, W1_v6] at h
  exact h

theorem W2_arg6 (c : Dev nD) : W2 m ρ c main_arg6 = m ((c : Thread nD τ).loc main_arg6) := (W2_keep m ρ c main_arg6 (by decide)).trans <| (W1_of m ρ c main_arg6 (by decide))
theorem W4_arg8 (c : Dev nD) : W4 m ρ c main_arg8 = m ((c : Thread nD τ).loc main_arg8) := (W4_keep m ρ c main_arg8 (by decide)).trans <| (W3_of m ρ c main_arg8 (by decide)).trans <| (W2_keep m ρ c main_arg8 (by decide)).trans <| (W1_of m ρ c main_arg8 (by decide))
theorem W6_arg1 (c : Dev nD) : W6 m ρ c main_arg1 = m ((c : Thread nD τ).loc main_arg1) := (W6_keep m ρ c main_arg1 (by decide)).trans <| (W5_of m ρ c main_arg1 (by decide)).trans <| (W4_keep m ρ c main_arg1 (by decide)).trans <| (W3_of m ρ c main_arg1 (by decide)).trans <| (W2_keep m ρ c main_arg1 (by decide)).trans <| (W1_of m ρ c main_arg1 (by decide))
theorem W6_arg2 (c : Dev nD) : W6 m ρ c main_arg2 = m ((c : Thread nD τ).loc main_arg2) := (W6_keep m ρ c main_arg2 (by decide)).trans <| (W5_of m ρ c main_arg2 (by decide)).trans <| (W4_keep m ρ c main_arg2 (by decide)).trans <| (W3_of m ρ c main_arg2 (by decide)).trans <| (W2_keep m ρ c main_arg2 (by decide)).trans <| (W1_of m ρ c main_arg2 (by decide))
theorem W8_arg10 (c : Dev nD) : W8 m ρ c main_arg10 = m ((c : Thread nD τ).loc main_arg10) := (W8_keep m ρ c main_arg10 (by decide)).trans <| (W7_of m ρ c main_arg10 (by decide)).trans <| (W6_keep m ρ c main_arg10 (by decide)).trans <| (W5_of m ρ c main_arg10 (by decide)).trans <| (W4_keep m ρ c main_arg10 (by decide)).trans <| (W3_of m ρ c main_arg10 (by decide)).trans <| (W2_keep m ρ c main_arg10 (by decide)).trans <| (W1_of m ρ c main_arg10 (by decide))
theorem W3_v1 (c : Dev nD) : W3 m ρ c main_v1 = W1 m ρ c main_v1 := (W3_of m ρ c main_v1 (by decide)).trans <| (W2_keep m ρ c main_v1 (by decide))
theorem W3_v3 (c : Dev nD) : W3 m ρ c main_v3 = W1 m ρ c main_v3 := (W3_of m ρ c main_v3 (by decide)).trans <| (W2_keep m ρ c main_v3 (by decide))
theorem W5_v1 (c : Dev nD) : W5 m ρ c main_v1 = W1 m ρ c main_v1 := (W5_of m ρ c main_v1 (by decide)).trans <| (W4_keep m ρ c main_v1 (by decide)).trans <| (W3_of m ρ c main_v1 (by decide)).trans <| (W2_keep m ρ c main_v1 (by decide))
theorem W5_v4 (c : Dev nD) : W5 m ρ c main_v4 = W1 m ρ c main_v4 := (W5_of m ρ c main_v4 (by decide)).trans <| (W4_keep m ρ c main_v4 (by decide)).trans <| (W3_of m ρ c main_v4 (by decide)).trans <| (W2_keep m ρ c main_v4 (by decide))
theorem W9_v5 (c : Dev nD) : W9 m ρ c main_v5 = W1 m ρ c main_v5 := (W9_of m ρ c main_v5 (by decide)).trans <| (W8_keep m ρ c main_v5 (by decide)).trans <| (W7_of m ρ c main_v5 (by decide)).trans <| (W6_keep m ρ c main_v5 (by decide)).trans <| (W5_of m ρ c main_v5 (by decide)).trans <| (W4_keep m ρ c main_v5 (by decide)).trans <| (W3_of m ρ c main_v5 (by decide)).trans <| (W2_keep m ρ c main_v5 (by decide))
theorem W7_v7 (c : Dev nD) : W7 m ρ c main_v7 = W2 m ρ c main_v7 := (W7_of m ρ c main_v7 (by decide)).trans <| (W6_keep m ρ c main_v7 (by decide)).trans <| (W5_of m ρ c main_v7 (by decide)).trans <| (W4_keep m ρ c main_v7 (by decide)).trans <| (W3_of m ρ c main_v7 (by decide))
theorem W6_v9 (c : Dev nD) : W6 m ρ c main_v9 = W4 m ρ c main_v9 := (W6_keep m ρ c main_v9 (by decide)).trans <| (W5_of m ρ c main_v9 (by decide))
theorem W11_v16 (c : Dev nD) : W11 m ρ c main_v16 = W7 m ρ c main_v16 := (W11_of m ρ c main_v16 (by decide)).trans <| (W10_keep m ρ c main_v16 (by decide)).trans <| (W9_of m ρ c main_v16 (by decide)).trans <| (W8_keep m ρ c main_v16 (by decide))
theorem W11_v17 (c : Dev nD) : W11 m ρ c main_v17 = W7 m ρ c main_v17 := (W11_of m ρ c main_v17 (by decide)).trans <| (W10_keep m ρ c main_v17 (by decide)).trans <| (W9_of m ρ c main_v17 (by decide)).trans <| (W8_keep m ρ c main_v17 (by decide))

theorem W4_v9 (c : Dev nD) : (W4 m ρ c main_v9 : S2048x2048.Idx → EReal) = lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg5)) bitsLt_bf16_f32) (shapeCast S1x2048 (m ((c : Thread nD τ).loc main_arg6)) shapeCasts_S2048_S1x2048) := by
  have h := (W4_arr m ρ c 3).trans (final1 (V3 m ρ) c)
  dsimp only [V3] at h
  rw [W3_v1, W3_v3, W3_v8, W2_arg6, W1_v1, W1_v3] at h
  exact h

theorem W6_v11 (c : Dev nD) : (W6 m ρ c main_v11 : S2048x2048.Idx → EReal) = lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg7)) bitsLt_bf16_f32) (shapeCast S1x2048 (m ((c : Thread nD τ).loc main_arg8)) shapeCasts_S2048_S1x2048) := by
  have h := (W6_arr m ρ c 3).trans (final2 (V5 m ρ) c)
  dsimp only [V5] at h
  rw [W5_v1, W5_v4, W5_v10, W4_arg8, W1_v1, W1_v4] at h
  exact h

/-- The key cache the program returns (and the attention reads). -/
theorem key_cache (c : Dev nD) : (W7 m ρ c main_v16 : S2x16x4096x128.Idx → EReal) = (concatenate S2x16x4096x128 2 [⟨S2x16x3072x128, (m ((c : Thread nD τ).loc main_arg1))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg5)) bitsLt_bf16_f32) (shapeCast S1x2048 (m ((c : Thread nD τ).loc main_arg6)) shapeCasts_S2048_S1x2048)) shapeCasts_S2048x2048_S2x1024x16x128) transposes_S2x1024x16x128_S2x16x1024x128_0_2_1_3⟩] concatenates_S2x16x3072x128_S2x16x1024x128_S2x16x4096x128_d2) := by
  rw [W7_v16, W6_arg1, W6_v9, W4_v9]
/-- The value cache the program returns (and the attention reads). -/
theorem value_cache (c : Dev nD) : (W7 m ρ c main_v17 : S2x16x4096x128.Idx → EReal) = (concatenate S2x16x4096x128 2 [⟨S2x16x3072x128, (m ((c : Thread nD τ).loc main_arg2))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg7)) bitsLt_bf16_f32) (shapeCast S1x2048 (m ((c : Thread nD τ).loc main_arg8)) shapeCasts_S2048_S1x2048)) shapeCasts_S2048x2048_S2x1024x16x128) transposes_S2x1024x16x128_S2x16x1024x128_0_2_1_3⟩] concatenates_S2x16x3072x128_S2x16x1024x128_S2x16x4096x128_d2) := by
  rw [W7_v17, W6_arg2, W6_v11]

/-- The attention output slab. -/
theorem W8_v18 (c : Dev nD) : (W8 m ρ c main_v18 : S2048x2048.Idx → EReal)
    = attn2 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg3)) bitsLt_bf16_f32) (shapeCast S1x2048 (m ((c : Thread nD τ).loc main_arg4)) shapeCasts_S2048_S1x2048)) (concatenate S2x16x4096x128 2 [⟨S2x16x3072x128, (m ((c : Thread nD τ).loc main_arg1))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg5)) bitsLt_bf16_f32) (shapeCast S1x2048 (m ((c : Thread nD τ).loc main_arg6)) shapeCasts_S2048_S1x2048)) shapeCasts_S2048x2048_S2x1024x16x128) transposes_S2x1024x16x128_S2x16x1024x128_0_2_1_3⟩] concatenates_S2x16x3072x128_S2x16x1024x128_S2x16x4096x128_d2) (concatenate S2x16x4096x128 2 [⟨S2x16x3072x128, (m ((c : Thread nD τ).loc main_arg2))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg7)) bitsLt_bf16_f32) (shapeCast S1x2048 (m ((c : Thread nD τ).loc main_arg8)) shapeCasts_S2048_S1x2048)) shapeCasts_S2048x2048_S2x1024x16x128) transposes_S2x1024x16x128_S2x16x1024x128_0_2_1_3⟩] concatenates_S2x16x3072x128_S2x16x1024x128_S2x16x4096x128_d2) := by
  have h := (W8_arr m ρ c 3).trans (final3 (V7 m ρ) c)
  dsimp only [V7] at h
  rw [W7_v7, W2_v7, key_cache, value_cache] at h
  exact h

/-- The output layer's slab. -/
theorem W10_v21 (c : Dev nD) : (W10 m ρ c main_v21 : S2048x2048.Idx → EReal)
    = lin2 (truncf (F := Ideal) .bf16 (attn2 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg3)) bitsLt_bf16_f32) (shapeCast S1x2048 (m ((c : Thread nD τ).loc main_arg4)) shapeCasts_S2048_S1x2048)) (concatenate S2x16x4096x128 2 [⟨S2x16x3072x128, (m ((c : Thread nD τ).loc main_arg1))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg5)) bitsLt_bf16_f32) (shapeCast S1x2048 (m ((c : Thread nD τ).loc main_arg6)) shapeCasts_S2048_S1x2048)) shapeCasts_S2048x2048_S2x1024x16x128) transposes_S2x1024x16x128_S2x16x1024x128_0_2_1_3⟩] concatenates_S2x16x3072x128_S2x16x1024x128_S2x16x4096x128_d2) (concatenate S2x16x4096x128 2 [⟨S2x16x3072x128, (m ((c : Thread nD τ).loc main_arg2))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg7)) bitsLt_bf16_f32) (shapeCast S1x2048 (m ((c : Thread nD τ).loc main_arg8)) shapeCasts_S2048_S1x2048)) shapeCasts_S2048x2048_S2x1024x16x128) transposes_S2x1024x16x128_S2x16x1024x128_0_2_1_3⟩] concatenates_S2x16x3072x128_S2x16x1024x128_S2x16x4096x128_d2)) bitsLt_bf16_f32) (truncf (F := Ideal) .bf16 (m ((c : Thread nD τ).loc main_arg9)) bitsLt_bf16_f32) (shapeCast S1x2048 (m ((c : Thread nD τ).loc main_arg10)) shapeCasts_S2048_S1x2048) := by
  have h := (W10_arr m ρ c 3).trans (final4 (V9 m ρ) c)
  dsimp only [V9] at h
  rw [W9_v19, W8_v18, W9_v5, W1_v5, W9_v20, W8_arg10] at h
  exact h

/-! ## The three results -/

theorem result_out (c : Dev nD) : (W11 m ρ c main_v22 : S2x1024x2048.Idx → EReal)
    = shapeCast S2x1024x2048 (lin2 (truncf (F := Ideal) .bf16 (attn2 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg3)) bitsLt_bf16_f32) (shapeCast S1x2048 (m ((c : Thread nD τ).loc main_arg4)) shapeCasts_S2048_S1x2048)) (concatenate S2x16x4096x128 2 [⟨S2x16x3072x128, (m ((c : Thread nD τ).loc main_arg1))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg5)) bitsLt_bf16_f32) (shapeCast S1x2048 (m ((c : Thread nD τ).loc main_arg6)) shapeCasts_S2048_S1x2048)) shapeCasts_S2048x2048_S2x1024x16x128) transposes_S2x1024x16x128_S2x16x1024x128_0_2_1_3⟩] concatenates_S2x16x3072x128_S2x16x1024x128_S2x16x4096x128_d2) (concatenate S2x16x4096x128 2 [⟨S2x16x3072x128, (m ((c : Thread nD τ).loc main_arg2))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg7)) bitsLt_bf16_f32) (shapeCast S1x2048 (m ((c : Thread nD τ).loc main_arg8)) shapeCasts_S2048_S1x2048)) shapeCasts_S2048x2048_S2x1024x16x128) transposes_S2x1024x16x128_S2x16x1024x128_0_2_1_3⟩] concatenates_S2x16x3072x128_S2x16x1024x128_S2x16x4096x128_d2)) bitsLt_bf16_f32) (truncf (F := Ideal) .bf16 (m ((c : Thread nD τ).loc main_arg9)) bitsLt_bf16_f32) (shapeCast S1x2048 (m ((c : Thread nD τ).loc main_arg10)) shapeCasts_S2048_S1x2048)) shapeCasts_S2048x2048_S2x1024x2048 := by
  rw [W11_v22, W10_v21]
theorem result_k (c : Dev nD) : (W11 m ρ c main_v16 : S2x16x4096x128.Idx → EReal) = (concatenate S2x16x4096x128 2 [⟨S2x16x3072x128, (m ((c : Thread nD τ).loc main_arg1))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg5)) bitsLt_bf16_f32) (shapeCast S1x2048 (m ((c : Thread nD τ).loc main_arg6)) shapeCasts_S2048_S1x2048)) shapeCasts_S2048x2048_S2x1024x16x128) transposes_S2x1024x16x128_S2x16x1024x128_0_2_1_3⟩] concatenates_S2x16x3072x128_S2x16x1024x128_S2x16x4096x128_d2) :=
  (W11_v16 m ρ c).trans (key_cache m ρ c)
theorem result_v (c : Dev nD) : (W11 m ρ c main_v17 : S2x16x4096x128.Idx → EReal) = (concatenate S2x16x4096x128 2 [⟨S2x16x3072x128, (m ((c : Thread nD τ).loc main_arg2))⟩, ⟨S2x16x1024x128, transpose S2x16x1024x128 [0, 2, 1, 3] (shapeCast S2x1024x16x128 (lin2 (truncf (F := Ideal) .bf16 (shapeCast S2048x2048 (m ((c : Thread nD τ).loc main_arg0)) shapeCasts_S2x1024x2048_S2048x2048) bitsLt_bf16_f32) (truncf (F := Ideal) .bf16 (m ((c : Thread nD τ).loc main_arg7)) bitsLt_bf16_f32) (shapeCast S1x2048 (m ((c : Thread nD τ).loc main_arg8)) shapeCasts_S2048_S1x2048)) shapeCasts_S2048x2048_S2x1024x16x128) transposes_S2x1024x16x128_S2x16x1024x128_0_2_1_3⟩] concatenates_S2x16x3072x128_S2x16x1024x128_S2x16x4096x128_d2) :=
  (W11_v17 m ρ c).trans (value_cache m ρ c)

end Cert.KernelIdeal.Hand

end
-- ==== Proof.KerBridgeA.lean ====
/-
  The kernel program's layout operations on the host, read entry by entry: a slab of 2048 rows (batch · 1024 + position)
  by 2048 columns is the three-dimensional array of activations with its first two axes merged; the linear layer on
  slabs is the linear layer of the specification at (batch, position); and the cache built from a slab is the cached rows
  followed by the slab's rows, head h taking columns h·128 … h·128+127.
-/
import proofs.«157797_j54116587930174_2_alg».proof.Proof.Ker2
import proofs.«157797_j54116587930174_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- A slab with its rows split into batch and position: entry (b, s, e) is the slab's entry at row b·1024+s, column e. -/
theorem ker_unslab (Y : S2048x2048.Idx → EReal) :
    shapeCast S2x1024x2048 Y shapeCasts_S2048x2048_S2x1024x2048
      = fun i => Y (ix2 (rowOf ⟨(i 0).val, (i 0).isLt⟩ ⟨(i 1).val, (i 1).isLt⟩) ⟨(i 2).val, (i 2).isLt⟩) := by
  funext i
  exact shapeCast_apply Y shapeCasts_S2048x2048_S2x1024x2048 i _ (by
    rewrite [Shape.rowMajor_val_two, Shape.rowMajor_val_three]
    rfl)

/-- The linear layer on slabs is the specification's linear layer at the row's batch and position. -/
theorem lin2_slab (Y : FVec Ideal S2048x2048 .f32) (w : FVec Ideal S2048x2048 .f32) (bias : FVec Ideal S2048 .f32) :
    lin2 (truncf .bf16 Y bitsLt_bf16_f32) (truncf .bf16 w bitsLt_bf16_f32) (shapeCast S1x2048 bias shapeCasts_S2048_S1x2048)
      = fun i => Spec.lin (fun b s k => Y (ix2 (rowOf b s) k)) w bias (rowB ⟨(i 0).val, (i 0).isLt⟩) (rowS ⟨(i 0).val, (i 0).isLt⟩) ⟨(i 1).val, (i 1).isLt⟩ := by
  funext i
  show (∑ k : Fin 2048, Y (ix2 (n0 := 2048) (n1 := 2048) ⟨(i 0).val, (i 0).isLt⟩ k) * w (ix2 (n0 := 2048) (n1 := 2048) ⟨(i 1).val, (i 1).isLt⟩ k))
      + shapeCast S1x2048 bias shapeCasts_S2048_S1x2048 (ix2 (n0 := 1) (n1 := 2048) 0 ⟨(i 1).val, (i 1).isLt⟩)
    = (∑ k : Fin 2048, Y (ix2 (rowOf (rowB ⟨(i 0).val, (i 0).isLt⟩) (rowS ⟨(i 0).val, (i 0).isLt⟩)) k) * w (ix2 ⟨(i 1).val, (i 1).isLt⟩ k))
      + bias (ix1 ⟨(i 1).val, (i 1).isLt⟩)
  rw [rowOf_rowB_rowS]
  congr 1
  exact shapeCast_apply bias shapeCasts_S2048_S1x2048 _ _ (by
    rewrite [Shape.rowMajor_val_one, Shape.rowMajor_val_two]
    show (i 1).val = 0 * 2048 + (i 1).val
    omega)

/-- The linear layer on the slab of an array of activations is the specification's linear layer of the array. -/
theorem lin2_spec (X : FVec Ideal S2x1024x2048 .f32) (w : FVec Ideal S2048x2048 .f32) (bias : FVec Ideal S2048 .f32) :
    lin2 (truncf .bf16 (shapeCast S2048x2048 X shapeCasts_S2x1024x2048_S2048x2048) bitsLt_bf16_f32) (truncf .bf16 w bitsLt_bf16_f32) (shapeCast S1x2048 bias shapeCasts_S2048_S1x2048)
      = fun i => Spec.lin (Spec.actOf X) w bias (rowB ⟨(i 0).val, (i 0).isLt⟩) (rowS ⟨(i 0).val, (i 0).isLt⟩) ⟨(i 1).val, (i 1).isLt⟩ := by
  have hX : (fun (b : Fin 2) (s : Fin 1024) (k : Fin 2048) => shapeCast S2048x2048 X shapeCasts_S2x1024x2048_S2048x2048 (ix2 (rowOf b s) k)) = Spec.actOf X := by
    funext b s k
    exact shapeCast_apply X shapeCasts_S2x1024x2048_S2048x2048 (ix2 (rowOf b s) k) (ix3 b s k) (by
      rewrite [Shape.rowMajor_val_three, Shape.rowMajor_val_two]
      rfl)
  rw [lin2_slab, hX]

/-- The cache built from a slab, entry by entry: the cached rows, then the slab's rows with heads split off the columns. -/
theorem ker_cache (past : FVec Ideal S2x16x3072x128 .f32) (Y : S2048x2048.Idx → EReal) :
    concatenate S2x16x4096x128 2 [⟨S2x16x3072x128, past⟩, ⟨S2x16x1024x128, transpose S2x16x1024x128 [0, 2, 1, 3] (shapeCast S2x1024x16x128 Y shapeCasts_S2048x2048_S2x1024x16x128) transposes_S2x1024x16x128_S2x16x1024x128_0_2_1_3⟩] concatenates_S2x16x3072x128_S2x16x1024x128_S2x16x4096x128_d2
      = fun i => Spec.cache past (fun b s e => Y (ix2 (rowOf b s) e)) (i 0) (i 1) (i 2) (i 3) := by
  funext i
  obtain ⟨b, h, k, d, rfl⟩ : ∃ b h k d, i = ix4 b h k d := ⟨i 0, i 1, i 2, i 3, eq_ix4 i⟩
  show _ = Spec.cache past (fun b s e => Y (ix2 (rowOf b s) e)) b h k d
  unfold Spec.cache
  by_cases hk : k.val < 3072
  · rw [dif_pos hk]
    exact concatenate_pair_apply_left 2 past _ concatenates_S2x16x3072x128_S2x16x1024x128_S2x16x4096x128_d2
      (ix4 b h k d) rfl (ix4 b h ⟨k.val, hk⟩ d) (fun a => by
        match a with
        | ⟨0, _⟩ => rfl
        | ⟨1, _⟩ => rfl
        | ⟨2, _⟩ => rfl
        | ⟨3, _⟩ => rfl)
  · rw [dif_neg hk]
    have hk' : k.val - 3072 < 1024 := by have := k.isLt; omega
    rw [concatenate_pair_apply_right 2 past _ concatenates_S2x16x3072x128_S2x16x1024x128_S2x16x4096x128_d2
      (ix4 b h k d) rfl rfl (ix4 b h (⟨k.val - 3072, hk'⟩ : Fin 1024) d) (fun a ha => by
        match a with
        | ⟨0, _⟩ => rfl
        | ⟨1, _⟩ => rfl
        | ⟨2, _⟩ => exact absurd rfl ha
        | ⟨3, _⟩ => rfl) (by show k.val - 3072 + 3072 = k.val; omega)]
    rw [transpose_apply [0, 2, 1, 3] _ transposes_S2x1024x16x128_S2x16x1024x128_0_2_1_3
      (ix4 b h (⟨k.val - 3072, hk'⟩ : Fin 1024) d) (ix4 b (⟨k.val - 3072, hk'⟩ : Fin 1024) h d) (fun a => by
        match a with
        | ⟨0, _⟩ => rfl
        | ⟨1, _⟩ => rfl
        | ⟨2, _⟩ => rfl
        | ⟨3, _⟩ => rfl)]
    exact shapeCast_apply Y shapeCasts_S2048x2048_S2x1024x16x128 (ix4 b (⟨k.val - 3072, hk'⟩ : Fin 1024) h d)
      (ix2 (rowOf b (⟨k.val - 3072, hk'⟩ : Fin 1024)) (Spec.col h d))
      (by rewrite [Shape.rowMajor_val_two, Shape.rowMajor_val_four]
          show (b.val * 1024 + (k.val - 3072)) * 2048 + (h.val * 128 + d.val) = ((b.val * 1024 + (k.val - 3072)) * 16 + h.val) * 128 + d.val
          omega)

end Cert.KernelIdeal.Hand

end
-- ==== Proof.KerBridgeB.lean ====
/-
  The kernel program's host-side layout operations, read entry by entry, produce the specification's functions: the
  attention on slabs is the heads' outputs side by side, and the whole composition is the specification's result.
-/
import proofs.«157797_j54116587930174_2_alg».proof.Proof.Ker2
import proofs.«157797_j54116587930174_2_alg».proof.Proof.KerBridgeA
import proofs.«157797_j54116587930174_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The attention on slabs, at (row, column), is the output of the column's head for the row's batch and position. -/
theorem attn2_heads (Qs : Spec.Act) (Kcs Vcs : Spec.Cache) :
    attn2 (fun i => Qs (rowB ⟨(i 0).val, (i 0).isLt⟩) (rowS ⟨(i 0).val, (i 0).isLt⟩) ⟨(i 1).val, (i 1).isLt⟩)
        (fun i => Kcs (i 0) (i 1) (i 2) (i 3)) (fun i => Vcs (i 0) (i 1) (i 2) (i 3))
      = fun i => Spec.heads Spec.onlineAvg scaleW Qs Kcs Vcs (rowB ⟨(i 0).val, (i 0).isLt⟩) (rowS ⟨(i 0).val, (i 0).isLt⟩)
          ⟨(i 1).val, (i 1).isLt⟩ := by
  funext i
  unfold attn2 Spec.heads
  rfl

/-- Reading a slab that was laid out from an array of activations gives the array back. -/
theorem slab_unslab (A : Spec.Act) :
    (fun b s e => (fun i : S2048x2048.Idx => A (rowB ⟨(i 0).val, (i 0).isLt⟩) (rowS ⟨(i 0).val, (i 0).isLt⟩) ⟨(i 1).val, (i 1).isLt⟩)
      (ix2 (rowOf b s) e)) = A := by
  funext b s e
  show A (rowB (rowOf b s)) (rowS (rowOf b s)) e = A b s e
  rw [rowB_rowOf, rowS_rowOf]

/-- A linear layer read at the row of a batch and a position. -/
theorem lin_at_rowOf (A' A : Spec.Act) (hA : A' = A) (w : Spec.SW.Idx → EReal) (bias : Spec.SB.Idx → EReal)
    (b : Fin 2) (s : Fin 1024) (e : Fin 2048) :
    Spec.lin A' w bias (rowB (rowOf b s)) (rowS (rowOf b s)) e = Spec.lin A w bias b s e := by
  subst hA
  rw [rowB_rowOf, rowS_rowOf]

/-- The key (or value) cache the program assembles is the specification's cache of the projected rows. -/
theorem ker_k_spec (x : FVec Ideal S2x1024x2048 .f32) (pk : FVec Ideal S2x16x3072x128 .f32)
    (wk : FVec Ideal S2048x2048 .f32) (bk : FVec Ideal S2048 .f32) :
    concatenate S2x16x4096x128 2 [⟨S2x16x3072x128, pk⟩, ⟨S2x16x1024x128, transpose S2x16x1024x128 [0, 2, 1, 3]
        (shapeCast S2x1024x16x128
          (lin2 (truncf .bf16 (shapeCast S2048x2048 x shapeCasts_S2x1024x2048_S2048x2048) bitsLt_bf16_f32)
            (truncf .bf16 wk bitsLt_bf16_f32) (shapeCast S1x2048 bk shapeCasts_S2048_S1x2048))
          shapeCasts_S2048x2048_S2x1024x16x128)
        transposes_S2x1024x16x128_S2x16x1024x128_0_2_1_3⟩]
      concatenates_S2x16x3072x128_S2x16x1024x128_S2x16x4096x128_d2
      = fun i => Spec.cache pk (Spec.lin (Spec.actOf x) wk bk) (i 0) (i 1) (i 2) (i 3) := by
  rw [lin2_spec x wk bk, ker_cache pk _]
  exact congrArg (fun A : Spec.Act => fun i : S2x16x4096x128.Idx => Spec.cache pk A (i 0) (i 1) (i 2) (i 3))
    (slab_unslab (Spec.lin (Spec.actOf x) wk bk))

/-- The program's first result is the specification's, with the two-tile arrangement of the weighted average. -/
theorem ker_out_spec (x : FVec Ideal S2x1024x2048 .f32) (pk pv : FVec Ideal S2x16x3072x128 .f32)
    (wq : FVec Ideal S2048x2048 .f32) (bq : FVec Ideal S2048 .f32) (wk : FVec Ideal S2048x2048 .f32) (bk : FVec Ideal S2048 .f32)
    (wv : FVec Ideal S2048x2048 .f32) (bv : FVec Ideal S2048 .f32) (wo : FVec Ideal S2048x2048 .f32) (bo : FVec Ideal S2048 .f32) :
    shapeCast S2x1024x2048
      (lin2 (truncf (F := Ideal) .bf16
          (attn2
            (lin2 (truncf .bf16 (shapeCast S2048x2048 x shapeCasts_S2x1024x2048_S2048x2048) bitsLt_bf16_f32)
              (truncf .bf16 wq bitsLt_bf16_f32) (shapeCast S1x2048 bq shapeCasts_S2048_S1x2048))
            (concatenate S2x16x4096x128 2 [⟨S2x16x3072x128, pk⟩, ⟨S2x16x1024x128, transpose S2x16x1024x128 [0, 2, 1, 3]
                (shapeCast S2x1024x16x128
                  (lin2 (truncf .bf16 (shapeCast S2048x2048 x shapeCasts_S2x1024x2048_S2048x2048) bitsLt_bf16_f32)
                    (truncf .bf16 wk bitsLt_bf16_f32) (shapeCast S1x2048 bk shapeCasts_S2048_S1x2048))
                  shapeCasts_S2048x2048_S2x1024x16x128)
                transposes_S2x1024x16x128_S2x16x1024x128_0_2_1_3⟩]
              concatenates_S2x16x3072x128_S2x16x1024x128_S2x16x4096x128_d2)
            (concatenate S2x16x4096x128 2 [⟨S2x16x3072x128, pv⟩, ⟨S2x16x1024x128, transpose S2x16x1024x128 [0, 2, 1, 3]
                (shapeCast S2x1024x16x128
                  (lin2 (truncf .bf16 (shapeCast S2048x2048 x shapeCasts_S2x1024x2048_S2048x2048) bitsLt_bf16_f32)
                    (truncf .bf16 wv bitsLt_bf16_f32) (shapeCast S1x2048 bv shapeCasts_S2048_S1x2048))
                  shapeCasts_S2048x2048_S2x1024x16x128)
                transposes_S2x1024x16x128_S2x16x1024x128_0_2_1_3⟩]
              concatenates_S2x16x3072x128_S2x16x1024x128_S2x16x4096x128_d2))
          bitsLt_bf16_f32)
        (truncf .bf16 wo bitsLt_bf16_f32) (shapeCast S1x2048 bo shapeCasts_S2048_S1x2048))
      shapeCasts_S2048x2048_S2x1024x2048
      = fun i => Spec.out Spec.onlineAvg scaleW x pk pv wq bq wk bk wv bv wo bo (i 0) (i 1) (i 2) := by
  rw [ker_k_spec x pk wk bk, ker_k_spec x pv wv bv, lin2_spec x wq bq,
    attn2_heads (Spec.lin (Spec.actOf x) wq bq) (Spec.cache pk (Spec.lin (Spec.actOf x) wk bk))
      (Spec.cache pv (Spec.lin (Spec.actOf x) wv bv)),
    lin2_slab _ wo bo, ker_unslab]
  funext i
  exact lin_at_rowOf _ _
    (slab_unslab (Spec.heads Spec.onlineAvg scaleW (Spec.lin (Spec.actOf x) wq bq)
      (Spec.cache pk (Spec.lin (Spec.actOf x) wk bk)) (Spec.cache pv (Spec.lin (Spec.actOf x) wv bv))))
    wo bo (i 0) (i 1) (i 2)

end Cert.KernelIdeal.Hand

end
-- ==== Proof.RefSide.lean ====
/-
  The reference side, read entry by entry: each linear layer of the reference is the sum over the input features of
  input times weight plus the bias; the cache it builds is the cached rows followed by the new rows, head h taking
  columns h·128 … h·128+127; and its first result is the output layer applied to the heads' softmax-weighted averages.
-/
import proofs.«157797_j54116587930174_2_alg».proof.Proof.Gen.ReferenceIdeal.Read
import proofs.«157797_j54116587930174_2_alg».proof.Proof.Spec

set_option maxRecDepth 16384

noncomputable section

namespace Cert.ReferenceIdeal.RefValue

open Cert.ReferenceIdeal Cert.ReferenceIdeal.Gen Cert.Spec Idealize.ShloMosaic Idealize.ShloMosaic.ValueIdx

/-- A linear layer of the reference, entry by entry. -/
theorem ref_lin (x : FVec Ideal S2x1024x2048 .f32) (w : FVec Ideal S2048x2048 .f32) (bias : FVec Ideal S2048 .f32) :
    addf (Host.dotGeneral dot_S2x1024x2048_S2048x2048_S2x1024x2048_2_1_01_0_n_n none x w)
         (broadcastInDim S2x1024x2048 ![0, 1, 2] bcast_S1x1x2048_S2x1024x2048_0_1_2 (broadcastInDim S1x1x2048 ![2] bcast_S2048_S1x1x2048_2 bias))
    = fun i => Spec.lin (Spec.actOf x) w bias (i 0) (i 1) (i 2) := by
  funext i
  show Read.val_main_v3 (F := Ideal) x w bias i = _
  rw [Read.val_main_v3_apply, Read.val_main_v0_apply, Read.val_main_v2_apply, Read.val_main_v1_apply]
  obtain ⟨b, s, e, rfl⟩ : ∃ b s e, i = ix3 b s e := ⟨i 0, i 1, i 2, eq_ix3 i⟩
  show (∑ k : Fin 2048, x (Read.lidx_main_v0 (ix3 b s e) k) * w (Read.ridx_main_v0 (ix3 b s e) k)) + bias (Read.idx_main_v1 (Read.idx_main_v2 (ix3 b s e)))
      = (∑ k : Fin 2048, x (ix3 b s k) * w (ix2 e k)) + bias (ix1 e)
  have e1 : ∀ k : Fin 2048, Read.lidx_main_v0 (ix3 b s e) k = ix3 b s k := fun k => funext fun a => by
    match a with
    | ⟨0, _⟩ => rfl
    | ⟨1, _⟩ => rfl
    | ⟨2, _⟩ => rfl
  have e2 : ∀ k : Fin 2048, Read.ridx_main_v0 (ix3 b s e) k = ix2 e k := fun k => funext fun a => by
    match a with
    | ⟨0, _⟩ => rfl
    | ⟨1, _⟩ => rfl
  have e3 : Read.idx_main_v1 (Read.idx_main_v2 (ix3 b s e)) = ix1 e := funext fun a => by
    match a with
    | ⟨0, _⟩ => rfl
  rw [e3]
  simp only [e1, e2]

/-- The cache after the step, entry by entry: the cached rows, then the new rows with heads split off the columns. -/
theorem ref_cache (past : FVec Ideal S2x16x3072x128 .f32) (y : FVec Ideal S2x1024x2048 .f32) :
    concatenate S2x16x4096x128 2 [⟨S2x16x3072x128, past⟩, ⟨S2x16x1024x128, transpose S2x16x1024x128 [0, 2, 1, 3] (shapeCast _ y shapeCasts_S2x1024x2048_S2x1024x16x128) transposes_S2x1024x16x128_S2x16x1024x128_0_2_1_3⟩] concatenates_S2x16x3072x128_S2x16x1024x128_S2x16x4096x128_d2
    = fun i => Spec.cache past (fun b s e => y (ix3 b s e)) (i 0) (i 1) (i 2) (i 3) := by
  funext i
  obtain ⟨b, h, k, d, rfl⟩ : ∃ b h k d, i = ix4 b h k d := ⟨i 0, i 1, i 2, i 3, eq_ix4 i⟩
  show _ = Spec.cache past (fun b s e => y (ix3 b s e)) b h k d
  unfold Spec.cache
  by_cases hk : k.val < 3072
  · rw [dif_pos hk]
    exact concatenate_pair_apply_left 2 past _ concatenates_S2x16x3072x128_S2x16x1024x128_S2x16x4096x128_d2
      (ix4 b h k d) rfl (ix4 b h ⟨k.val, hk⟩ d) (fun a => by
        match a with
        | ⟨0, _⟩ => rfl
        | ⟨1, _⟩ => rfl
        | ⟨2, _⟩ => rfl
        | ⟨3, _⟩ => rfl)
  · rw [dif_neg hk]
    have hk' : k.val - 3072 < 1024 := by have := k.isLt; omega
    rw [concatenate_pair_apply_right 2 past _ concatenates_S2x16x3072x128_S2x16x1024x128_S2x16x4096x128_d2
      (ix4 b h k d) rfl rfl (ix4 b h (⟨k.val - 3072, hk'⟩ : Fin 1024) d) (fun a ha => by
        match a with
        | ⟨0, _⟩ => rfl
        | ⟨1, _⟩ => rfl
        | ⟨2, _⟩ => exact absurd rfl ha
        | ⟨3, _⟩ => rfl) (by show k.val - 3072 + 3072 = k.val; omega)]
    rw [transpose_apply [0, 2, 1, 3] _ transposes_S2x1024x16x128_S2x16x1024x128_0_2_1_3
      (ix4 b h (⟨k.val - 3072, hk'⟩ : Fin 1024) d) (ix4 b (⟨k.val - 3072, hk'⟩ : Fin 1024) h d) (fun a => by
        match a with
        | ⟨0, _⟩ => rfl
        | ⟨1, _⟩ => rfl
        | ⟨2, _⟩ => rfl
        | ⟨3, _⟩ => rfl)]
    exact shapeCast_apply y shapeCasts_S2x1024x2048_S2x1024x16x128 (ix4 b (⟨k.val - 3072, hk'⟩ : Fin 1024) h d)
      (ix3 b (⟨k.val - 3072, hk'⟩ : Fin 1024) (col h d))
      (by rewrite [Shape.rowMajor_val_three, Shape.rowMajor_val_four]
          show (b.val * 1024 + (k.val - 3072)) * 2048 + (h.val * 128 + d.val) = ((b.val * 1024 + (k.val - 3072)) * 16 + h.val) * 128 + d.val
          omega)

/-! ### The first result, stage by stage -/

section Out

variable (x0 : FVec Ideal S2x1024x2048 .f32) (x1 x2 : FVec Ideal S2x16x3072x128 .f32)
  (x3 : FVec Ideal S2048x2048 .f32) (x4 : FVec Ideal S2048 .f32) (x5 : FVec Ideal S2048x2048 .f32) (x6 : FVec Ideal S2048 .f32)
  (x7 : FVec Ideal S2048x2048 .f32) (x8 : FVec Ideal S2048 .f32) (x9 : FVec Ideal S2048x2048 .f32) (x10 : FVec Ideal S2048 .f32)

/-- The scale of the scores. -/
abbrev scl : EReal := Ideal.ofBits .f32 0x3DB504F3#32

theorem ofBits_negInf : Ideal.ofBits .f32 0xFF800000#32 = ⊥ := by simp [Ideal.ofBits, Ideal.ieee]

/-- The query projection with the heads split off the columns. -/
theorem v5_at (b : Fin 2) (h : Fin 16) (s : Fin 1024) (e : Fin 128) :
    Read.val_main_v5 (F := Ideal) x0 x3 x4 (ix4 b h s e) = Spec.lin (Spec.actOf x0) x3 x4 b s (col h e) := by
  rw [Read.val_main_v5_apply, Read.val_main_v4_apply]
  have hb := b.isLt; have hh := h.isLt; have hs := s.isLt; have he := e.isLt
  have c0 : Read.idx_main_v4 (Read.idx_main_v5 (ix4 b h s e)) = ix3 b s (col h e) := funext fun a => Fin.ext (by
    match a with
    | ⟨0, _⟩ => show (((b.val * 1024 + s.val) * 16 + h.val) * 128 + e.val) / 2097152 = b.val; omega
    | ⟨1, _⟩ => show (((b.val * 1024 + s.val) * 16 + h.val) * 128 + e.val) / 2048 % 1024 = s.val; omega
    | ⟨2, _⟩ => show (((b.val * 1024 + s.val) * 16 + h.val) * 128 + e.val) % 2048 = h.val * 128 + e.val; omega)
  rw [c0]
  exact congrFun (ref_lin x0 x3 x4) (ix3 b s (col h e))

/-- The key cache. -/
theorem v18_eq : Read.val_main_v18 (F := Ideal) x0 x1 x5 x6
    = fun i => Spec.cache x1 (Spec.lin (Spec.actOf x0) x5 x6) (i 0) (i 1) (i 2) (i 3) := by
  have h := ref_cache x1 (Read.val_main_v9 (F := Ideal) x0 x5 x6)
  have h9 : (fun b s e => Read.val_main_v9 (F := Ideal) x0 x5 x6 (ix3 b s e)) = Spec.lin (Spec.actOf x0) x5 x6 := by
    funext b s e; exact congrFun (ref_lin x0 x5 x6) (ix3 b s e)
  rw [h9] at h
  exact h

/-- The value cache. -/
theorem v19_eq : Read.val_main_v19 (F := Ideal) x0 x2 x7 x8
    = fun i => Spec.cache x2 (Spec.lin (Spec.actOf x0) x7 x8) (i 0) (i 1) (i 2) (i 3) := by
  have h := ref_cache x2 (Read.val_main_v15 (F := Ideal) x0 x7 x8)
  have h15 : (fun b s e => Read.val_main_v15 (F := Ideal) x0 x7 x8 (ix3 b s e)) = Spec.lin (Spec.actOf x0) x7 x8 := by
    funext b s e; exact congrFun (ref_lin x0 x7 x8) (ix3 b s e)
  rw [h15] at h
  exact h

/-- The scaled scores. -/
theorem v22_at (b : Fin 2) (h : Fin 16) (s : Fin 1024) (k : Fin 4096) :
    Read.val_main_v22 (F := Ideal) x0 x1 x3 x4 x5 x6 (ix4 b h s k)
      = Spec.score scl (Spec.lin (Spec.actOf x0) x3 x4) (Spec.cache x1 (Spec.lin (Spec.actOf x0) x5 x6)) b h s k := by
  rw [Read.val_main_v22_apply, Read.val_main_v20_apply, Read.val_main_v21_apply, Read.val_main_cst_apply]
  unfold Spec.score
  show (∑ e : Fin 128, _) * Ideal.ofBits .f32 0x3DB504F3#32 = _
  congr 1
  refine Finset.sum_congr rfl fun e _ => ?_
  have e1 : Read.lidx_main_v20 (ix4 b h s k) e = ix4 b h s e := funext fun a => by
    match a with
    | ⟨0, _⟩ => rfl
    | ⟨1, _⟩ => rfl
    | ⟨2, _⟩ => rfl
    | ⟨3, _⟩ => rfl
  have e2 : Read.ridx_main_v20 (ix4 b h s k) e = ix4 b h k e := funext fun a => by
    match a with
    | ⟨0, _⟩ => rfl
    | ⟨1, _⟩ => rfl
    | ⟨2, _⟩ => rfl
    | ⟨3, _⟩ => rfl
  rw [e1, e2, v5_at, v18_eq]

/-- The row maximum of the scores. -/
theorem v25_at (b : Fin 2) (h : Fin 16) (s : Fin 1024) :
    Read.val_main_v25 (F := Ideal) x0 x1 x3 x4 x5 x6 (ix3 b h s)
      = Finset.univ.fold max ⊥ (Spec.score scl (Spec.lin (Spec.actOf x0) x3 x4) (Spec.cache x1 (Spec.lin (Spec.actOf x0) x5 x6)) b h s) := by
  rw [Read.val_main_v25_apply, Read.val_main_v24_apply, Read.val_main_cst_1_apply]
  unfold Read.val_main_v23
  have hR : S2x16x1024x4096.Reduces [3] S2x16x1024 := by decide
  rw [Host.reduce_eq_fold_single (a := 3) FloatOps.maximumf _ _ reducesTo_S2x16x1024x4096_S2x16x1024_d3 hR h_S_,
    Read.val_main_cst_0_apply]
  show max (Ideal.ofBits .f32 0xFF800000#32) (Finset.univ.fold max (Ideal.ofBits .f32 0xFF800000#32) _) = _
  rw [ofBits_negInf, max_eq_right bot_le]
  have key : (fun k : Fin 4096 => Read.val_main_v22 (F := Ideal) x0 x1 x3 x4 x5 x6 (hR.lift (ix3 b h s) k))
      = Spec.score scl (Spec.lin (Spec.actOf x0) x3 x4) (Spec.cache x1 (Spec.lin (Spec.actOf x0) x5 x6)) b h s := by
    funext k
    have e1 : hR.lift (ix3 b h s) k = ix4 b h s k := funext fun a => Fin.ext (by
      match a with
      | ⟨0, _⟩ => rfl
      | ⟨1, _⟩ => rfl
      | ⟨2, _⟩ => rfl
      | ⟨3, _⟩ => rfl)
    rw [e1, v22_at]
  exact congrArg (Finset.univ.fold max ⊥) key

/-- The exponentials of the scores less their maximum. -/
theorem v29_at (b : Fin 2) (h : Fin 16) (s : Fin 1024) (k : Fin 4096) :
    Read.val_main_v29 (F := Ideal) x0 x1 x3 x4 x5 x6 (ix4 b h s k)
      = Ideal.exp (Spec.score scl (Spec.lin (Spec.actOf x0) x3 x4) (Spec.cache x1 (Spec.lin (Spec.actOf x0) x5 x6)) b h s k
          - Finset.univ.fold max ⊥ (Spec.score scl (Spec.lin (Spec.actOf x0) x3 x4) (Spec.cache x1 (Spec.lin (Spec.actOf x0) x5 x6)) b h s)) := by
  rw [Read.val_main_v29_apply, Read.val_main_v28_apply, Read.val_main_v27_apply, Read.val_main_v26_apply]
  have e1 : Read.idx_main_v26 (Read.idx_main_v27 (ix4 b h s k)) = ix3 b h s := funext fun a => by
    match a with
    | ⟨0, _⟩ => rfl
    | ⟨1, _⟩ => rfl
    | ⟨2, _⟩ => rfl
  rw [e1, v22_at, v25_at]
  rfl

/-- The sum of the exponentials. -/
theorem v30_at (b : Fin 2) (h : Fin 16) (s : Fin 1024) :
    Read.val_main_v30 (F := Ideal) x0 x1 x3 x4 x5 x6 (ix3 b h s)
      = ∑ j : Fin 4096, Ideal.exp (Spec.score scl (Spec.lin (Spec.actOf x0) x3 x4) (Spec.cache x1 (Spec.lin (Spec.actOf x0) x5 x6)) b h s j
          - Finset.univ.fold max ⊥ (Spec.score scl (Spec.lin (Spec.actOf x0) x3 x4) (Spec.cache x1 (Spec.lin (Spec.actOf x0) x5 x6)) b h s)) := by
  rw [Read.val_main_v30_apply, Read.val_main_cst_2_apply]
  show Ideal.ofBits .f32 0x00000000#32 + _ = _
  rw [Ideal.ofBits_zero_f32, zero_add]
  refine Finset.sum_congr rfl fun j _ => ?_
  have e1 : Read.idx_main_v30 (ix3 b h s) j = ix4 b h s j := funext fun a => by
    match a with
    | ⟨0, _⟩ => rfl
    | ⟨1, _⟩ => rfl
    | ⟨2, _⟩ => rfl
    | ⟨3, _⟩ => rfl
  rw [e1, v29_at]

/-- The softmax weights. -/
theorem v33_at (b : Fin 2) (h : Fin 16) (s : Fin 1024) (k : Fin 4096) :
    Read.val_main_v33 (F := Ideal) x0 x1 x3 x4 x5 x6 (ix4 b h s k)
      = Ideal.div
          (Ideal.exp (Spec.score scl (Spec.lin (Spec.actOf x0) x3 x4) (Spec.cache x1 (Spec.lin (Spec.actOf x0) x5 x6)) b h s k
            - Finset.univ.fold max ⊥ (Spec.score scl (Spec.lin (Spec.actOf x0) x3 x4) (Spec.cache x1 (Spec.lin (Spec.actOf x0) x5 x6)) b h s)))
          (∑ j : Fin 4096, Ideal.exp (Spec.score scl (Spec.lin (Spec.actOf x0) x3 x4) (Spec.cache x1 (Spec.lin (Spec.actOf x0) x5 x6)) b h s j
            - Finset.univ.fold max ⊥ (Spec.score scl (Spec.lin (Spec.actOf x0) x3 x4) (Spec.cache x1 (Spec.lin (Spec.actOf x0) x5 x6)) b h s))) := by
  rw [Read.val_main_v33_apply, Read.val_main_v32_apply, Read.val_main_v31_apply]
  have e1 : Read.idx_main_v31 (Read.idx_main_v32 (ix4 b h s k)) = ix3 b h s := funext fun a => by
    match a with
    | ⟨0, _⟩ => rfl
    | ⟨1, _⟩ => rfl
    | ⟨2, _⟩ => rfl
  rw [e1, v29_at, v30_at]
  rfl

/-- One head's weighted average of the value rows. -/
theorem v34_at (b : Fin 2) (h : Fin 16) (s : Fin 1024) (d : Fin 128) :
    Read.val_main_v34 (F := Ideal) x0 x1 x2 x3 x4 x5 x6 x7 x8 (ix4 b h s d)
      = Spec.softAvg (Spec.score scl (Spec.lin (Spec.actOf x0) x3 x4) (Spec.cache x1 (Spec.lin (Spec.actOf x0) x5 x6)) b h s)
          (fun k => Spec.cache x2 (Spec.lin (Spec.actOf x0) x7 x8) b h k d) := by
  rw [Read.val_main_v34_apply]
  unfold Spec.softAvg
  refine Finset.sum_congr rfl fun k _ => ?_
  have e1 : Read.lidx_main_v34 (ix4 b h s d) k = ix4 b h s k := funext fun a => by
    match a with
    | ⟨0, _⟩ => rfl
    | ⟨1, _⟩ => rfl
    | ⟨2, _⟩ => rfl
    | ⟨3, _⟩ => rfl
  have e2 : Read.ridx_main_v34 (ix4 b h s d) k = ix4 b h k d := funext fun a => by
    match a with
    | ⟨0, _⟩ => rfl
    | ⟨1, _⟩ => rfl
    | ⟨2, _⟩ => rfl
    | ⟨3, _⟩ => rfl
  rw [e1, e2, v33_at, v19_eq]

/-- The heads' outputs side by side. -/
theorem v36_at (b : Fin 2) (s : Fin 1024) (c : Fin 2048) :
    Read.val_main_v36 (F := Ideal) x0 x1 x2 x3 x4 x5 x6 x7 x8 (ix3 b s c)
      = Spec.heads Spec.softAvg scl (Spec.lin (Spec.actOf x0) x3 x4) (Spec.cache x1 (Spec.lin (Spec.actOf x0) x5 x6))
          (Spec.cache x2 (Spec.lin (Spec.actOf x0) x7 x8)) b s c := by
  rw [Read.val_main_v36_apply, Read.val_main_v35_apply]
  have hb := b.isLt; have hs := s.isLt; have hc := c.isLt
  have c0 : Read.idx_main_v35 (Read.idx_main_v36 (ix3 b s c)) = ix4 b (hd c) s (ln c) := funext fun a => Fin.ext (by
    match a with
    | ⟨0, _⟩ => show ((b.val * 1024 + s.val) * 2048 + c.val) / 2097152 = b.val; omega
    | ⟨1, _⟩ => show ((b.val * 1024 + s.val) * 2048 + c.val) / 128 % 16 = c.val / 128; omega
    | ⟨2, _⟩ => show ((b.val * 1024 + s.val) * 2048 + c.val) / 2048 % 1024 = s.val; omega
    | ⟨3, _⟩ => show ((b.val * 1024 + s.val) * 2048 + c.val) % 128 = c.val % 128; omega)
  rw [c0, v34_at]
  rfl

/-- The reference's first result, as a stage of its operations, entry by entry. -/
theorem val_out :
    Read.val_main_v40 (F := Ideal) x0 x1 x2 x3 x4 x5 x6 x7 x8 x9 x10
      = fun i => Spec.out Spec.softAvg scl x0 x1 x2 x3 x4 x5 x6 x7 x8 x9 x10 (i 0) (i 1) (i 2) := by
  funext i
  obtain ⟨b, s, e, rfl⟩ : ∃ b s e, i = ix3 b s e := ⟨i 0, i 1, i 2, eq_ix3 i⟩
  rw [Read.val_main_v40_apply, Read.val_main_v37_apply, Read.val_main_v39_apply, Read.val_main_v38_apply]
  show (∑ k : Fin 2048, _) + _
      = (∑ k : Fin 2048, Spec.heads Spec.softAvg scl _ _ _ b s k * x9 (ix2 e k)) + x10 (ix1 e)
  have e3 : Read.idx_main_v38 (Read.idx_main_v39 (ix3 b s e)) = ix1 e := funext fun a => by
    match a with
    | ⟨0, _⟩ => rfl
  rw [e3]
  congr 1
  refine Finset.sum_congr rfl fun k _ => ?_
  have e1 : Read.lidx_main_v37 (ix3 b s e) k = ix3 b s k := funext fun a => by
    match a with
    | ⟨0, _⟩ => rfl
    | ⟨1, _⟩ => rfl
    | ⟨2, _⟩ => rfl
  have e2 : Read.ridx_main_v37 (ix3 b s e) k = ix2 e k := funext fun a => by
    match a with
    | ⟨0, _⟩ => rfl
    | ⟨1, _⟩ => rfl
  rw [e1, e2, v36_at]

end Out

/-- The reference's first result, entry by entry: the output layer applied to the heads' softmax-weighted averages. -/
theorem ref_out (m : (ℓ : Loc nD τ sig) → Buf (Elt Ideal) ℓ) (c : Dev nD) :
    Cert.ReferenceIdeal.Value.res_main_v40 (F := Ideal) m c
      = fun i => Spec.out Spec.softAvg (Ideal.ofBits .f32 0x3DB504F3#32)
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (i 0) (i 1) (i 2) :=
  (Read.val_main_v40_eq m c).trans (val_out _ _ _ _ _ _ _ _ _ _ _)

end Cert.ReferenceIdeal.RefValue

end
-- ==== Proof.SpecMath.lean ====
/-
  The algebra that joins the two arrangements of the softmax-weighted average, and the finiteness of every
  intermediate quantity when the inputs are finite.

  Over the extended reals cancelling and distributing fail at ±∞, so every law is proved for real entries: real
  witnesses are chosen, the coercion is pushed outwards, and the identity is finished in ℝ.

  The identity itself. For real scores s and real shifts a, b, M,
    exp(a − b) · exp(s − a) = exp(s − b),
  so the first tile's running sums, rescaled, together with the second tile's sums are the sums over all keys of
  exp(s_k − b) and of exp(s_k − b) · v_k. And a quotient  (∑ exp(s_k − M) v_k) / (∑ exp(s_j − M))  does not depend on the
  real shift M at all, because exp(s − M) = exp s / exp M and the common factor cancels. Hence both arrangements
  equal  (∑ exp(s_k) v_k) / (∑ exp(s_j)).  The only facts needed about the running maxima are that they are real,
  which holds for the maximum of a nonempty finite family of reals.
-/
import proofs.«157797_j54116587930174_2_alg».proof.Proof.Spec
import Mathlib.Analysis.SpecialFunctions.Exp
import Mathlib.Algebra.BigOperators.Fin
import Mathlib.Data.Finset.Fold
import Mathlib.Data.EReal.Operations
import Mathlib.Tactic

noncomputable section

namespace Cert.Spec

open Idealize.ShloMosaic Idealize.ShloMosaic.ValueIdx

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The coercion of a finite sum of reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem isReal_sum {ι : Type*} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-- The coercion of the larger of two reals. -/
theorem coe_max (a b : ℝ) : max (a : EReal) (b : EReal) = ((max a b : ℝ) : EReal) :=
  (EReal.coe_strictMono.monotone.map_max).symm

/-- The maximum of a nonempty finite family of reals, folded from ⊥, is real. -/
theorem fold_max_real {ι : Type*} (s : Finset ι) (hs : s.Nonempty) (f : ι → ℝ) :
    ∃ r : ℝ, s.fold max ⊥ (fun k => ((f k : ℝ) : EReal)) = (r : EReal) := by
  induction hs using Finset.Nonempty.cons_induction with
  | singleton a => exact ⟨f a, by rw [Finset.fold_singleton]; exact max_bot_right _⟩
  | cons a s ha hs ih =>
    obtain ⟨r, hr⟩ := ih
    exact ⟨max (f a) r, by rw [Finset.fold_cons, hr, coe_max]⟩

/-! ### The identity over the reals -/

/-- A sum over 4096 keys is the sum over the first tile plus the sum over the second. -/
theorem sum_tiles {M : Type*} [AddCommMonoid M] (f : Fin 4096 → M) :
    ∑ k, f k = ∑ k : Fin 2048, f (tileIdx 0 k) + ∑ k : Fin 2048, f (tileIdx 1 k) := by
  have h := Fin.sum_univ_add (a := 2048) (b := 2048) f
  rw [h]
  congr 1

/-- The weighted quotient does not depend on the real shift. -/
theorem quot_shift {ι : Type*} [Fintype ι] (s w : ι → ℝ) (M : ℝ) :
    (∑ k, Real.exp (s k - M) * w k) / (∑ j, Real.exp (s j - M)) = (∑ k, Real.exp (s k) * w k) / (∑ j, Real.exp (s j)) := by
  have hM : Real.exp M ≠ 0 := (Real.exp_pos M).ne'
  simp_rw [Real.exp_sub, div_mul_eq_mul_div, ← Finset.sum_div]
  exact div_div_div_cancel_right₀ hM _ _

/-- Rescaling a tile's sums from the shift a to the shift b. -/
theorem rescale {ι : Type*} [Fintype ι] (s w : ι → ℝ) (a b : ℝ) :
    Real.exp (a - b) * (∑ k, Real.exp (s k - a) * w k) = ∑ k, Real.exp (s k - b) * w k := by
  rw [Finset.mul_sum]
  refine Finset.sum_congr rfl fun k _ => ?_
  rw [← mul_assoc, ← Real.exp_add]
  congr 2
  ring

theorem rescale_one {ι : Type*} [Fintype ι] (s : ι → ℝ) (a b : ℝ) :
    Real.exp (a - b) * (∑ k, Real.exp (s k - a)) = ∑ k, Real.exp (s k - b) := by
  have := rescale s (fun _ => 1) a b
  simpa using this

/-- The two arrangements over the reals. -/
theorem online_eq_soft_real (s w : Fin 4096 → ℝ) (a b M : ℝ) :
    (Real.exp (a - b) * (∑ k : Fin 2048, Real.exp (s (tileIdx 0 k) - a) * w (tileIdx 0 k))
        + ∑ k : Fin 2048, Real.exp (s (tileIdx 1 k) - b) * w (tileIdx 1 k))
      * (1 / (Real.exp (a - b) * (∑ k : Fin 2048, Real.exp (s (tileIdx 0 k) - a))
        + ∑ k : Fin 2048, Real.exp (s (tileIdx 1 k) - b)))
    = ∑ k, Real.exp (s k - M) * (1 / ∑ j, Real.exp (s j - M)) * w k := by
  rw [rescale (fun k => s (tileIdx 0 k)) (fun k => w (tileIdx 0 k)) a b, rescale_one (fun k => s (tileIdx 0 k)) a b,
    ← sum_tiles (fun k => Real.exp (s k - b) * w k), ← sum_tiles (fun k => Real.exp (s k - b)), mul_one_div,
    quot_shift s w b, ← quot_shift s w M, Finset.sum_div]
  refine Finset.sum_congr rfl fun k _ => ?_
  ring

/-! ### The identity over the extended reals -/

/-- The exponential of a difference of reals. -/
theorem exp_coe_sub (x y : ℝ) : Ideal.exp ((x : EReal) - (y : EReal)) = ((Real.exp (x - y) : ℝ) : EReal) := by
  rw [← EReal.coe_sub, Ideal.exp_coe]

theorem onlineAvg_eq_softAvg_coe (s w : Fin 4096 → ℝ) :
    onlineAvg (fun k => ((s k : ℝ) : EReal)) (fun k => ((w k : ℝ) : EReal))
      = softAvg (fun k => ((s k : ℝ) : EReal)) (fun k => ((w k : ℝ) : EReal)) := by
  obtain ⟨M, hM⟩ := fold_max_real Finset.univ Finset.univ_nonempty s
  obtain ⟨a, ha⟩ := fold_max_real Finset.univ Finset.univ_nonempty (fun k : Fin 2048 => s (tileIdx 0 k))
  obtain ⟨c, hc⟩ := fold_max_real Finset.univ Finset.univ_nonempty (fun k : Fin 2048 => s (tileIdx 1 k))
  have hm1 : m1 (fun k => ((s k : ℝ) : EReal)) = (a : EReal) := by
    unfold m1; rw [max_bot_left]; exact ha
  have hm2 : m2 (fun k => ((s k : ℝ) : EReal)) = ((max a c : ℝ) : EReal) := by
    unfold m2; rw [hm1, ← coe_max]; exact congrArg (max (a : EReal)) hc
  generalize max a c = b at hm2
  have hl1 : l1 (fun k => ((s k : ℝ) : EReal))
      = ((∑ k : Fin 2048, Real.exp (s (tileIdx 0 k) - a) : ℝ) : EReal) := by
    unfold l1; rw [hm1, mul_zero, zero_add, ← coe_sum]
    exact Finset.sum_congr rfl fun k _ => exp_coe_sub _ _
  have hacc1 : acc1 (fun k => ((s k : ℝ) : EReal)) (fun k => ((w k : ℝ) : EReal))
      = ((∑ k : Fin 2048, Real.exp (s (tileIdx 0 k) - a) * w (tileIdx 0 k) : ℝ) : EReal) := by
    unfold acc1; rw [hm1, mul_zero, zero_add, ← coe_sum]
    exact Finset.sum_congr rfl fun k _ => by rw [exp_coe_sub, ← EReal.coe_mul]
  have hl2 : l2 (fun k => ((s k : ℝ) : EReal))
      = ((Real.exp (a - b) * (∑ k : Fin 2048, Real.exp (s (tileIdx 0 k) - a))
          + ∑ k : Fin 2048, Real.exp (s (tileIdx 1 k) - b) : ℝ) : EReal) := by
    unfold l2; rw [hm1, hm2, hl1, exp_coe_sub, ← EReal.coe_mul, EReal.coe_add, ← coe_sum]
    exact congrArg (_ + ·) (Finset.sum_congr rfl fun k _ => exp_coe_sub _ _)
  have hacc2 : acc2 (fun k => ((s k : ℝ) : EReal)) (fun k => ((w k : ℝ) : EReal))
      = ((Real.exp (a - b) * (∑ k : Fin 2048, Real.exp (s (tileIdx 0 k) - a) * w (tileIdx 0 k))
          + ∑ k : Fin 2048, Real.exp (s (tileIdx 1 k) - b) * w (tileIdx 1 k) : ℝ) : EReal) := by
    unfold acc2; rw [hm1, hm2, hacc1, exp_coe_sub, ← EReal.coe_mul, EReal.coe_add, ← coe_sum]
    exact congrArg (_ + ·) (Finset.sum_congr rfl fun k _ => by rw [exp_coe_sub, ← EReal.coe_mul])
  have hL2 : Real.exp (a - b) * (∑ k : Fin 2048, Real.exp (s (tileIdx 0 k) - a))
      + ∑ k : Fin 2048, Real.exp (s (tileIdx 1 k) - b) ≠ 0 := by
    have h0 : 0 < ∑ k : Fin 2048, Real.exp (s (tileIdx 0 k) - a) :=
      Finset.sum_pos (fun k _ => Real.exp_pos _) Finset.univ_nonempty
    have h1 : 0 < ∑ k : Fin 2048, Real.exp (s (tileIdx 1 k) - b) :=
      Finset.sum_pos (fun k _ => Real.exp_pos _) Finset.univ_nonempty
    exact (add_pos (mul_pos (Real.exp_pos (a - b)) h0) h1).ne'
  have hZ : (∑ j, Ideal.exp (((s j : ℝ) : EReal) - (M : EReal))) = ((∑ j, Real.exp (s j - M) : ℝ) : EReal) := by
    rw [← coe_sum]; exact Finset.sum_congr rfl fun k _ => exp_coe_sub _ _
  have hZ0 : (∑ j, Real.exp (s j - M)) ≠ 0 :=
    (Finset.sum_pos (fun k _ => Real.exp_pos _) Finset.univ_nonempty).ne'
  have hterm : ∀ k, Ideal.div (Ideal.exp (((s k : ℝ) : EReal) - (M : EReal)))
        (∑ j, Ideal.exp (((s j : ℝ) : EReal) - (M : EReal))) * ((w k : ℝ) : EReal)
      = ((Real.exp (s k - M) * (1 / ∑ j, Real.exp (s j - M)) * w k : ℝ) : EReal) := by
    intro k
    rw [hZ, Ideal.div_coe hZ0, exp_coe_sub, ← EReal.coe_mul, ← EReal.coe_mul]
  have hsoft : softAvg (fun k => ((s k : ℝ) : EReal)) (fun k => ((w k : ℝ) : EReal))
      = ((∑ k, Real.exp (s k - M) * (1 / ∑ j, Real.exp (s j - M)) * w k : ℝ) : EReal) := by
    unfold softAvg; rw [hM]
    exact (Finset.sum_congr rfl fun k _ => hterm k).trans (coe_sum _ _)
  rw [hsoft]
  unfold onlineAvg
  rw [hacc2, hl2, Ideal.div_coe hL2, ← EReal.coe_mul]
  exact congrArg _ (online_eq_soft_real s w a b M)

/-- (1) The two arrangements of the softmax-weighted average agree on real scores and real values. -/
theorem onlineAvg_eq_softAvg (sc v : Fin 4096 → EReal) (hsc : ∀ k, IsReal (sc k)) (hv : ∀ k, IsReal (v k)) :
    onlineAvg sc v = softAvg sc v := by
  choose s hs using hsc
  choose w hw using hv
  obtain rfl : sc = fun k => ((s k : ℝ) : EReal) := funext hs
  obtain rfl : v = fun k => ((w k : ℝ) : EReal) := funext hw
  exact onlineAvg_eq_softAvg_coe s w

/-! ### Realness is preserved -/

theorem lin_real {X : Act} {w : SW.Idx → EReal} {bias : SB.Idx → EReal} (hX : ∀ b s k, IsReal (X b s k))
    (hw : ∀ i, IsReal (w i)) (hb : ∀ i, IsReal (bias i)) : ∀ b s e, IsReal (lin X w bias b s e) := fun b s e =>
  (isReal_sum _ _ fun k => (hX b s k).mul (hw _)).add (hb _)

theorem actOf_real {x : SX.Idx → EReal} (hx : ∀ i, IsReal (x i)) : ∀ b s k, IsReal (actOf x b s k) :=
  fun _ _ _ => hx _

theorem cache_real {past : SP.Idx → EReal} {new : Act} (hp : ∀ i, IsReal (past i))
    (hn : ∀ b s e, IsReal (new b s e)) : ∀ b h k d, IsReal (cache past new b h k d) := by
  intro b h k d
  unfold cache
  split_ifs with hk
  · exact hp _
  · exact hn _ _ _

theorem score_real {scale : EReal} {Q : Act} {Kc : Cache} (hs : IsReal scale) (hQ : ∀ b s e, IsReal (Q b s e))
    (hK : ∀ b h k d, IsReal (Kc b h k d)) : ∀ b h s k, IsReal (score scale Q Kc b h s k) := fun b h s k =>
  (isReal_sum _ _ fun e => (hQ b s _).mul (hK b h k e)).mul hs

/-- The word 0x3DB504F3 has exponent field 123, neither 0 nor 255: it denotes a finite number. -/
theorem scale_real : IsReal (Ideal.ofBits .f32 0x3DB504F3#32) := by
  show IsReal (Ideal.ieee 8 23 0x3DB504F3#32)
  unfold Ideal.ieee
  simp only []
  rw [if_neg (by decide), if_neg (by decide)]
  exact ⟨_, rfl⟩

/-! ### The program's result under either arrangement -/

/-- (3) With real inputs the result is the same whichever arrangement of the weighted average is used. -/
theorem out_online_eq_soft (scale : EReal) (x : SX.Idx → EReal) (pk pv : SP.Idx → EReal)
    (wq : SW.Idx → EReal) (bq : SB.Idx → EReal) (wk : SW.Idx → EReal) (bk : SB.Idx → EReal)
    (wv : SW.Idx → EReal) (bv : SB.Idx → EReal) (wo : SW.Idx → EReal) (bo : SB.Idx → EReal)
    (hs : IsReal scale) (hx : ∀ i, IsReal (x i)) (hpk : ∀ i, IsReal (pk i)) (hpv : ∀ i, IsReal (pv i))
    (hwq : ∀ i, IsReal (wq i)) (hbq : ∀ i, IsReal (bq i)) (hwk : ∀ i, IsReal (wk i)) (hbk : ∀ i, IsReal (bk i))
    (hwv : ∀ i, IsReal (wv i)) (hbv : ∀ i, IsReal (bv i)) :
    out onlineAvg scale x pk pv wq bq wk bk wv bv wo bo = out softAvg scale x pk pv wq bq wk bk wv bv wo bo := by
  have hX := actOf_real hx
  have hQ := lin_real hX hwq hbq
  have hK := cache_real hpk (lin_real hX hwk hbk)
  have hV := cache_real hpv (lin_real hX hwv hbv)
  have hheads : heads onlineAvg scale (lin (actOf x) wq bq) (cache pk (lin (actOf x) wk bk)) (cache pv (lin (actOf x) wv bv))
      = heads softAvg scale (lin (actOf x) wq bq) (cache pk (lin (actOf x) wk bk)) (cache pv (lin (actOf x) wv bv)) := by
    funext b s c
    exact onlineAvg_eq_softAvg _ _ (fun k => score_real hs hQ hK b (hd c) s k) (fun k => hV b (hd c) k (ln c))
  unfold out
  rw [hheads]

end Cert.Spec

end
-- ==== Proof.PreReal.lean ====
/-
  The precondition says, of each of the eleven input arrays x, that all(|x| < +∞) holds: the array of absolute values
  max x (-x) is compared entry by entry against the constant whose word 0x7F800000 denotes +∞, and the comparisons are
  reduced by "and" over every axis, from the constant true; the eleven results are joined by "and", and the whole is
  the scalar 1.

  Read back: a conjunction of bits that is 1 has every conjunct 1; a reduction by "and" over all axes that is 1 had a 1
  at every entry; an entry's bit is 1 exactly when max x (-x) < +∞; and an extended real x with max x (-x) < +∞ is
  neither +∞ (then max x (-x) = +∞) nor -∞ (then -x = +∞), so it is a real number. Hence every entry of every input
  array is a real number.
-/
import proofs.«157797_j54116587930174_2_alg».proof.Defs
import Idealize.ShloMosaic.Lib.ReduceAll
import Idealize.ShloMosaic.Lib.ValueIdx

noncomputable section

namespace Cert.PreReal

open Idealize.ShloMosaic Idealize.SL.Sem
open Cert.Pre_finite_inputs

instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max x (-x) lies below +∞ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- all(|x| < +∞) = 1 over an array of any shape: every entry of the array is a real number. -/
theorem real_of_all {s : Shape} {axes : List (Fin s.rank)} (x : FVec Ideal s .f32)
    (bc : S_.BroadcastsInDim s (![] : Fin 0 → Fin s.rank)) (h : s.ReducesTo axes S_) (hu : 0 < S_.numel)
    (e : Host.reduce IntOp.andi (cmpf .olt (Host.absf x) (broadcastInDim s ![] bc (constant (F := Ideal) S_ .f32 0x7F800000#32)))
          (constantI S_ 1 1#1) h hu ValueIdx.ix0 = 1#1)
    (i : s.Idx) : ∃ r : ℝ, x i = (r : EReal) := by
  have hi := Host.reduce_andi_all _ _ h hu _ e i
  refine real_of_abs_lt_top (x i) ?_
  have hb : broadcastInDim s ![] bc (constant (F := Ideal) S_ .f32 0x7F800000#32) i = (⊤ : EReal) := by
    show FloatOps.ofBits (F := Ideal) .f32 0x7F800000#32 = _
    rw [Ideal.ofBits_def, inf_word]
  have hc : cmpf .olt (Host.absf x) (broadcastInDim s ![] bc (constant (F := Ideal) S_ .f32 0x7F800000#32)) i
      = BitVec.ofBool (decide (max (x i) (-(x i)) < (⊤ : EReal))) := by
    show Ideal.cmp .olt (max (x i) (-(x i))) (broadcastInDim s ![] bc (constant (F := Ideal) S_ .f32 0x7F800000#32) i) = _
    rw [hb]; rfl
  rw [hc] at hi
  by_contra hn
  rw [decide_eq_false hn] at hi
  exact absurd hi (by decide)

/-- The precondition, decoded: every entry of every input array is a real number. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal))
    ∧ (∀ i, ∃ r : ℝ, m ((c.tc : Thread Cert.KernelIdeal.nD Cert.KernelIdeal.τ).loc Cert.KernelIdeal.main_arg6) i = (r : EReal))
    ∧ (∀ i, ∃ r : ℝ, m ((c.tc : Thread Cert.KernelIdeal.nD Cert.KernelIdeal.τ).loc Cert.KernelIdeal.main_arg7) i = (r : EReal))
    ∧ (∀ i, ∃ r : ℝ, m ((c.tc : Thread Cert.KernelIdeal.nD Cert.KernelIdeal.τ).loc Cert.KernelIdeal.main_arg8) i = (r : EReal))
    ∧ (∀ i, ∃ r : ℝ, m ((c.tc : Thread Cert.KernelIdeal.nD Cert.KernelIdeal.τ).loc Cert.KernelIdeal.main_arg9) i = (r : EReal))
    ∧ (∀ i, ∃ r : ℝ, m ((c.tc : Thread Cert.KernelIdeal.nD Cert.KernelIdeal.τ).loc Cert.KernelIdeal.main_arg10) i = (r : EReal)) := by
  have e := congrFun (h c) ValueIdx.ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨h0, h1⟩, h2⟩, h3⟩, h4⟩, h5⟩, h6⟩, h7⟩, h8⟩, h9⟩, h10⟩ := e
  exact ⟨real_of_all _ _ _ _ h0, real_of_all _ _ _ _ h1, real_of_all _ _ _ _ h2, real_of_all _ _ _ _ h3,
    real_of_all _ _ _ _ h4, real_of_all _ _ _ _ h5, real_of_all _ _ _ _ h6, real_of_all _ _ _ _ h7,
    real_of_all _ _ _ _ h8, real_of_all _ _ _ _ h9, real_of_all _ _ _ _ h10⟩

end Cert.PreReal

end
-- ==== Proof.Bridge.lean ====
/-
  The value claim. At the ideal values the kernel program's run ends with its three result buffers at array-level terms of
  the argument arrays; read entry by entry those are the specification's functions, the attention in its two-tile
  arrangement. The reference's run ends with its results at the same functions, the attention in the softmax arrangement.
  The two arrangements agree wherever every score and every value is a real number, which the precondition provides: all
  inputs are finite, and finite inputs give finite projections, caches and scores.
-/
import proofs.«157797_j54116587930174_2_alg».proof.Defs
import proofs.«157797_j54116587930174_2_alg».proof.Proof.Values
import proofs.«157797_j54116587930174_2_alg».proof.Proof.KerBridgeB
import proofs.«157797_j54116587930174_2_alg».proof.Proof.RefSide
import proofs.«157797_j54116587930174_2_alg».proof.Proof.SpecMath
import proofs.«157797_j54116587930174_2_alg».proof.Proof.PreReal

set_option maxRecDepth 16384

noncomputable section

namespace Cert.Proof

open Idealize.ShloMosaic Idealize.SL.Sem

set_option maxHeartbeats 1600000 in
theorem algebraic [Cert.KernelIdeal.Facts] [Cert.ReferenceIdeal.Facts] [Cert.Pre_finite_inputs.Facts] :
    Cert.algebraic_KernelIdeal_ReferenceIdeal := by
  intro m ρ m' ρ' hpre hagree
  refine ⟨(fun c => fun i => Cert.Spec.out Cert.Spec.onlineAvg Cert.KernelIdeal.Hand.scaleW (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (i 0) (i 1) (i 2)),
    (fun c => fun i => Cert.Spec.cache (m ((c.tc : Thread Cert.KernelIdeal.nD Cert.KernelIdeal.τ).loc Cert.KernelIdeal.main_arg1)) (Cert.Spec.lin (Cert.Spec.actOf (m ((c.tc : Thread Cert.KernelIdeal.nD Cert.KernelIdeal.τ).loc Cert.KernelIdeal.main_arg0))) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (i 0) (i 1) (i 2) (i 3)),
    (fun c => fun i => Cert.Spec.cache (m ((c.tc : Thread Cert.KernelIdeal.nD Cert.KernelIdeal.τ).loc Cert.KernelIdeal.main_arg2)) (Cert.Spec.lin (Cert.Spec.actOf (m ((c.tc : Thread Cert.KernelIdeal.nD Cert.KernelIdeal.τ).loc Cert.KernelIdeal.main_arg0))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (i 0) (i 1) (i 2) (i 3)), ?hk, ?hr⟩
  case hk =>
    refine (θ_run Cert.KernelIdeal.defs _ _).mono (fun r h c => ⟨?_, ?_, ?_, ?_⟩) (Cert.KernelIdeal.Hand.run_all (F := Ideal) m ρ)
    · exact (h c _ (Cert.KernelIdeal.Hand.mem_uc Cert.KernelIdeal.main_v22 (by decide))).trans
        ((Cert.KernelIdeal.Hand.result_out m ρ c).trans
          (Cert.KernelIdeal.Hand.ker_out_spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))))
    · exact (h c _ (Cert.KernelIdeal.Hand.mem_uc Cert.KernelIdeal.main_v16 (by decide))).trans
        ((Cert.KernelIdeal.Hand.result_k m ρ c).trans (Cert.KernelIdeal.Hand.ker_k_spec (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))))
    · exact (h c _ (Cert.KernelIdeal.Hand.mem_uc Cert.KernelIdeal.main_v17 (by decide))).trans
        ((Cert.KernelIdeal.Hand.result_v m ρ c).trans (Cert.KernelIdeal.Hand.ker_k_spec (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))))
    · exact ⟨(h c _ (Cert.KernelIdeal.Hand.mem_uc Cert.KernelIdeal.main_arg0 (by decide))).trans (Cert.KernelIdeal.Hand.W11_main_arg0 m ρ c),
        (h c _ (Cert.KernelIdeal.Hand.mem_uc Cert.KernelIdeal.main_arg1 (by decide))).trans (Cert.KernelIdeal.Hand.W11_main_arg1 m ρ c),
        (h c _ (Cert.KernelIdeal.Hand.mem_uc Cert.KernelIdeal.main_arg2 (by decide))).trans (Cert.KernelIdeal.Hand.W11_main_arg2 m ρ c),
        (h c _ (Cert.KernelIdeal.Hand.mem_uc Cert.KernelIdeal.main_arg3 (by decide))).trans (Cert.KernelIdeal.Hand.W11_main_arg3 m ρ c),
        (h c _ (Cert.KernelIdeal.Hand.mem_uc Cert.KernelIdeal.main_arg4 (by decide))).trans (Cert.KernelIdeal.Hand.W11_main_arg4 m ρ c),
        (h c _ (Cert.KernelIdeal.Hand.mem_uc Cert.KernelIdeal.main_arg5 (by decide))).trans (Cert.KernelIdeal.Hand.W11_main_arg5 m ρ c),
        (h c _ (Cert.KernelIdeal.Hand.mem_uc Cert.KernelIdeal.main_arg6 (by decide))).trans (Cert.KernelIdeal.Hand.W11_main_arg6 m ρ c),
        (h c _ (Cert.KernelIdeal.Hand.mem_uc Cert.KernelIdeal.main_arg7 (by decide))).trans (Cert.KernelIdeal.Hand.W11_main_arg7 m ρ c),
        (h c _ (Cert.KernelIdeal.Hand.mem_uc Cert.KernelIdeal.main_arg8 (by decide))).trans (Cert.KernelIdeal.Hand.W11_main_arg8 m ρ c),
        (h c _ (Cert.KernelIdeal.Hand.mem_uc Cert.KernelIdeal.main_arg9 (by decide))).trans (Cert.KernelIdeal.Hand.W11_main_arg9 m ρ c),
        (h c _ (Cert.KernelIdeal.Hand.mem_uc Cert.KernelIdeal.main_arg10 (by decide))).trans (Cert.KernelIdeal.Hand.W11_main_arg10 m ρ c)⟩
  case hr =>
    refine (θ_run Cert.ReferenceIdeal.defs _ _).mono (fun r h c => ?_) (Cert.ReferenceIdeal.Value.run (F := Ideal) m' ρ')
    obtain ⟨h40, h18, h19, hargs⟩ := h c
    obtain ⟨e0, e1, e2, e3, e4, e5, e6, e7, e8, e9, e10⟩ := hagree c
    obtain ⟨r0, r1, r2, r3, r4, r5, r6, r7, r8, r9, r10⟩ := Cert.PreReal.real_of_pre m hpre c
    refine ⟨?_, ?_, ?_, hargs⟩
    · rw [h40, Cert.ReferenceIdeal.RefValue.ref_out, e0, e1, e2, e3, e4, e5, e6, e7, e8, e9, e10]
      exact (congrArg (fun (f : Cert.Spec.Act) => fun (i : Cert.ReferenceIdeal.S2x1024x2048.Idx) => f (i 0) (i 1) (i 2))
        (Cert.Spec.out_online_eq_soft _ _ _ _ _ _ _ _ _ _ _ _ Cert.Spec.scale_real r0 r1 r2 r3 r4 r5 r6 r7 r8)).symm
    · rw [h18, Cert.ReferenceIdeal.RefValue.ref_cache, Cert.ReferenceIdeal.RefValue.ref_lin, e0, e1, e5, e6]
      try rfl
    · rw [h19, Cert.ReferenceIdeal.RefValue.ref_cache, Cert.ReferenceIdeal.RefValue.ref_lin, e0, e2, e7, e8]
      try rfl

end Cert.Proof

end
-- ==== Proof.lean ====
/-
  The certificate's claims. The two kernel programs run as six stretches of host operations around five pipelined regions
  (four linear layers and the attention); the run of those segments ends with every argument array as launched, which is
  the frame claim of each, at the word level and at the ideal values alike. The reference is a straight-line host
  program: its frame is its run with the results dropped. No rewrite was applied in idealizing the kernel, so the
  idealization claim has nothing to state. At the ideal values the kernel program's three results are those of the
  reference: the key and value caches are the cached rows followed by this step's projections, and the attention output
  is the softmax-weighted average of the value rows, which the kernel accumulates over two tiles of keys.
-/
import proofs.«157797_j54116587930174_2_alg».proof.Defs
import proofs.«157797_j54116587930174_2_alg».proof.Proof.Gen.Kernel
import proofs.«157797_j54116587930174_2_alg».proof.Proof.Gen.KernelIdeal
import proofs.«157797_j54116587930174_2_alg».proof.Proof.Gen.ReferenceIdeal
import proofs.«157797_j54116587930174_2_alg».proof.Proof.Gen.ReferenceIdeal.Read
import proofs.«157797_j54116587930174_2_alg».proof.Proof.Gen.Pre_finite_inputs
import proofs.«157797_j54116587930174_2_alg».proof.Proof.Run
import proofs.«157797_j54116587930174_2_alg».proof.Proof.WRun
import proofs.«157797_j54116587930174_2_alg».proof.Proof.Bridge
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel := fun m ρ _ => Cert.Kernel.Hand.frame m ρ
theorem frame_ki [Cert.KernelIdeal.Facts] [Cert.Pre_finite_inputs.Facts] : Cert.frame_KernelIdeal := fun m ρ _ => Cert.KernelIdeal.Hand.frame m ρ
theorem frame_ri [Cert.ReferenceIdeal.Facts] [Cert.Pre_finite_inputs.Facts] : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
